-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S1024x3072 : Shape := ⟨2, ![1024, 3072]⟩
abbrev S1x1024 : Shape := ⟨2, ![1, 1024]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 33
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x3072, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x3072, .f32⟩
  | .hbm, ⟨25, _⟩ => ⟨S16384x3072, .bf16⟩
  | .hbm, ⟨26, _⟩ => ⟨S16384x1024, .bf16⟩
  | .hbm, ⟨27, _⟩ => ⟨S8x2048x1024, .bf16⟩
  | .hbm, ⟨28, _⟩ => ⟨S16384x1024, .bf16⟩
  | .hbm, ⟨29, _⟩ => ⟨S8x2048x1024, .bf16⟩
  | .hbm, ⟨30, _⟩ => ⟨S16384x1024, .bf16⟩
  | .hbm, ⟨31, _⟩ => ⟨S8x2048x1024, .bf16⟩
  | .hbm, ⟨32, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x1024_S16384x1024 : S8x2048x1024.ShapeCasts S16384x1024
  bcast_S_S1024x1024 : S_.BroadcastsInDim S1024x1024 (![] : Fin 0 → Fin S1024x1024.rank)
  bcast_S_S1024 : S_.BroadcastsInDim S1024 (![] : Fin 0 → Fin S1024.rank)
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  shapeCasts_S1024_S1x1024 : S1024.ShapeCasts S1x1024
  concatenates_S1x1024_S1x1024_S1x1024_S1x3072_d1 : Shape.Concatenates [S1x1024, S1x1024, S1x1024] S1x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S16384x3072_S16384x1024_0_0 : S16384x3072.Slices ![0, 0] S16384x1024
  shapeCasts_S16384x1024_S8x2048x1024 : S16384x1024.ShapeCasts S8x2048x1024
  slices_S16384x3072_S16384x1024_0_1024 : S16384x3072.Slices ![0, 1024] S16384x1024
  slices_S16384x3072_S16384x1024_0_2048 : S16384x3072.Slices ![0, 2048] S16384x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .bf16 = 32 ∨ (Rect.block (s := S16384x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Kernel.Projection.lean ====
/-
  The projection region (the first kernel launch) of the program, point by point.

  The grid has 32 points; point t stages rows 512·t … 512·t + 511 of the flattened input, the whole packed weight and
  the whole packed bias, and writes back the same rows of the packed query/key/value array. The body reads its three
  input blocks whole, forms one block of the product plus bias, and stores it whole into the output's staging buffer:
  what that buffer holds afterwards is the single stored value, whatever it held before. Everything here is stated at
  a parameter V, the buffer contents the region is entered with.
-/
import proofs.«105625_j35124242546827_2_alg».proof.Proof.Gen.Kernel.Launch
import proofs.«105625_j35124242546827_2_alg».proof.Proof.Gen.Kernel.Skeleton
import proofs.«105625_j35124242546827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles: each access is of a whole buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S512x3072 := Rect.unit (s := S512x3072) ![0, 0] S512x3072.size inb_S512x3072_S512x3072_0_0

/-- What the body leaves in the output's staging buffer, from the three input blocks: its one store. -/
def projOut (x0 : Vec F S512x1024 .f32) (x1 : Vec F S1024x3072 .bf16) (x2 : Vec F S1x3072 .f32) : Vec F S512x3072 .bf16 :=
  View.canon [⟨rO, k0_pay1 (View.ld x0 rX) (View.ld x1 rW) (View.ld x2 rB)⟩]

/-- The one store covers the buffer. -/
theorem projCover (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

/-! ## The body's triple -/

set_option maxHeartbeats 1000000 in
/-- On whole staging memrefs, the inputs' at contents `x0 x1 x2` and the output's at anything, the body runs to the
    continuation holding the inputs' as they were and the output's at `projOut x0 x1 x2`. -/
theorem projBody (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-! ## The input windows hold their blocks -/

theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-! ## The region's proof data -/

/-- The arrays as the region finds them; after the body at point `t` each input's buffer at its block and the
    output's at the stored block; the invariant the scoped rest and the generator register, untouched; nothing owed. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => projOut (pblk V c 0 t) (pblk V c 1 t) (pblk V c 2 t)
  Φ _ := Pipeline.ΦA spec0 c
  q _ := fullShare
  owed _ := 0

theorem pA_eq (c : Dev nD) (w : Fin cfg0.W) : (pdat V c).A w = V c (Pipeline.arrRef spec0 w) := by
  dsimp only [pdat]
theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pblk V c 2 t := by dsimp only [pdat]
theorem pafter3 (c : Dev nD) (t : Fin cfg0.N) :
    (pdat V c).after 3 t = projOut (pblk V c 0 t) (pblk V c 1 t) (pblk V c 2 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d
theorem pbefore2 (c : Dev nD) (t : Fin cfg0.N) (d) : (pdat V c).before 2 t d = pblk V c 2 t :=
  pbefore2_of V (pdat V c) (pA_eq V c 2) (pafter2 V c) t d

/-! ## The body obligation, at a generic point -/

def pbodyPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d)))

def pbodyPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t))

/-- The body at any point: the inputs' memrefs hold their blocks, so the body's triple applies; the invariant and the
    core's dues pass through unread. -/
theorem psound_body (c : Dev nD) (t : Fin cfg0.N) :
    pbodyPre V c t ⊢ wp frame (wpE (defs₀ (F := F)) Variants.none c none) Set.univ (bodyAt0 t) (fun _ => pbodyPost V c t) := by
  unfold pbodyPre pbodyPost bodyAt0
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3]
  iintro ⟨HΦ, Ho, ⟨%d0, H0⟩, ⟨%d1, H1⟩, ⟨%d2, H2⟩, ⟨%d3, H3⟩⟩
  iapply (projBody c Set.univ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem pbody_obligation (c : Dev nD) : BodyObligation (pdat (F := F) V c) (defs₀ (F := F)) Variants.none () Set.univ := fun t => by
  rw [bigSep_W0, bigSep_W0]
  exact psound_body V c t

end Cert.Kernel.Frame

end
-- ==== Proof.Kernel.AttentionShared.lean ====
/-
  The attention region (the second kernel launch): what its 64 points share.

  The grid is 8 batches × 2 query tiles × 4 key/value tiles, the key/value axis innermost, so point t works on
  key/value tile t mod 4. Three scratch buffers (running maximum, running normaliser, running weighted sum) live
  across the four points of one query tile: the body resets them where t mod 4 = 0 and stores the output block, the
  weighted sum divided by the normaliser, where t mod 4 = 3; at the other points the output window is idle and is
  not written back. Both branch conditions are scalar comparisons of the third grid coordinate, decided here over
  the whole grid.
-/
import proofs.«105625_j35124242546827_2_alg».proof.Proof.Gen.Kernel.Launch
import proofs.«105625_j35124242546827_2_alg».proof.Proof.Gen.Kernel.Skeleton
import proofs.«105625_j35124242546827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The two branch conditions, in closed form over the grid -/

/-- The reset branch is taken: the key/value coordinate is 0. -/
abbrev condReset (i : grid1.Coords) : Prop := (Scalar.cmpi .ne (Scalar.extui (Scalar.cmpi .eq (BitVec.ofNat 32 (i 2).val) 0#32)) 0#32) = 1#1
theorem hcondReset : ∀ t : Fin cfg1.N, condReset (grid1.coords t) ↔ t.val % 4 = 0 :=
  (by decide +kernel : ∀ t : Fin grid1.N, condReset (grid1.coords t) ↔ t.val % 4 = 0)
/-- The output branch is taken: the key/value coordinate is 3, the last. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem aliveAt0 : ∀ t : Fin cfg1.N, cfg1.idle 0 (grid1.coords t) = false := by decide +kernel
theorem aliveAt1 : ∀ t : Fin cfg1.N, cfg1.idle 1 (grid1.coords t) = false := by decide +kernel
theorem aliveAt2 : ∀ t : Fin cfg1.N, cfg1.idle 2 (grid1.coords t) = false := by decide +kernel
/-- Away from the last key/value tile the output window is idle … -/
theorem aidleAt3 : ∀ t : Fin cfg1.N, ¬condLast (grid1.coords t) → cfg1.idle 3 (grid1.coords t) = true := by decide +kernel
/-- … and is not written back. -/
theorem anoFlush3 : ∀ t : Fin cfg1.N, ¬condLast (grid1.coords t) → (cfg1.win 3).flush t = false := by decide +kernel
/-- At the last key/value tile it is live. -/
theorem aliveAt3 : ∀ t : Fin cfg1.N, condLast (grid1.coords t) → cfg1.idle 3 (grid1.coords t) = false := by decide +kernel

/-! ## The memrefs the body is called with -/

abbrev VO3 : View sig .tc .vmem S1x1024x1024 .f32 := (Memref.whole cc1_stg3_0 : Memref sig .tc .vmem S1x1024x1024 .f32).view
abbrev ms0 (t : Fin cfg1.N) : Memref sig .tc .vmem S1x1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
/-- The scratch operands: the running maximum, the running normaliser, the running weighted sum. -/
abbrev scMax : Memref sig .tc .vmem S1024x1 .f32 := Memref.whole cc1_scratch0
abbrev scNorm : Memref sig .tc .vmem S1024x1 .f32 := Memref.whole cc1_scratch1
abbrev scAcc : Memref sig .tc .vmem S1024x1024 .f32 := Memref.whole cc1_scratch2
abbrev VSMax : View sig .tc .vmem S1024x1 .f32 := scMax.view
abbrev VSNorm : View sig .tc .vmem S1024x1 .f32 := scNorm.view
abbrev VSAcc : View sig .tc .vmem S1024x1024 .f32 := scAcc.view

/-- The first region's staging buffers, which this region does not touch, each whole at some contents. -/
abbrev otherStg (c : Dev nD) (b : Ref sig .tc) : sProp 𝕄 := iprop(∃ f : Buf (Elt F) ((c : Thread nD τ).loc b), ((c : Thread nD τ).loc b) ↦{fullShare} f)

/-- The class invariant with the three scratch operands as memrefs owned at some contents. -/
theorem PhiA1_eq (c : Dev nD) :
    (Pipeline.ΦA spec1 c : sProp 𝕄)
      = iprop(iprop(otherStg c cc0_stg0_0 ∗ otherStg c cc0_stg0_1 ∗ otherStg c cc0_stg1_0 ∗ otherStg c cc0_stg2_0 ∗ otherStg c cc0_stg3_0 ∗ otherStg c cc0_stg3_1
          ∗ (∃ d, owns (c : Thread nD τ) scMax fullShare d) ∗ (∃ d, owns (c : Thread nD τ) scNorm fullShare d) ∗ (∃ d, owns (c : Thread nD τ) scAcc fullShare d))
        ∗ (∃ r, prngReg c r)) := by
  unfold Pipeline.ΦA; rw [scopedRest1_eq]; simp only [scMax, scNorm, scAcc, owns_whole]; try rfl

end Cert.Kernel.Frame

end
-- ==== Proof.Kernel.AttentionRunA.lean ====
/-
  The attention body run whole, at a point that resets the scratch and does not store the output (key/value tile 0).
-/
import proofs.«105625_j35124242546827_2_alg».proof.Proof.Kernel.AttentionShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the three scratch buffers (last first),
    with the proof that on whole memrefs the body runs to the continuation holding the inputs as they were and each
    of those buffers with its pieces written. The pieces are what the run finds. -/
noncomputable def attnRunA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Frame

end
-- ==== Proof.Kernel.AttentionRunB.lean ====
/-
  The attention body run whole, at a point that neither resets the scratch nor stores the output (key/value tiles 1 and 2).
-/
import proofs.«105625_j35124242546827_2_alg».proof.Proof.Kernel.AttentionRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the three scratch buffers (last first),
    with the proof that on whole memrefs the body runs to the continuation holding the inputs as they were and each
    of those buffers with its pieces written. The pieces are what the run finds. -/
noncomputable def attnRunB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Frame

end
-- ==== Proof.Kernel.AttentionRunC.lean ====
/-
  The attention body run whole, at a point that does not reset the scratch and stores the output (key/value tile 3).
-/
import proofs.«105625_j35124242546827_2_alg».proof.Proof.Kernel.AttentionRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the three scratch buffers (last first),
    with the proof that on whole memrefs the body runs to the continuation holding the inputs as they were and each
    of those buffers with its pieces written. The pieces are what the run finds. -/
noncomputable def attnRunC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Frame

end
-- ==== Proof.Kernel.Attention.lean ====
/-
  The attention region point by point: what each point leaves, the invariant carried between points, the proof data
  and the body obligation.

  After point t the three scratch buffers hold what the body's stores left there: at a point with t mod 4 = 0 a
  function of that point's blocks alone (the reset comes first), otherwise a function of the blocks and of what the
  point before left. The invariant before point t > 0 names exactly those contents; before the first point the
  scratch holds anything. The output's staging buffer is stored only where t mod 4 = 3.
-/
import proofs.«105625_j35124242546827_2_alg».proof.Proof.Kernel.AttentionRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def outA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1x1024x1024 .f32 :=
  VO3.read (Elt F) (VO3.writes (Elt F) VO3.junk (attnRunA c i arg3 harg3 arg4 harg4 arg5 harg5 arg6 harg6 arg7 harg7 arg8 harg8 arg9 harg9 hc0 hc1 x0 x1 x2).1)
theorem covMaxA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) (y : S1024x1.Idx) : ∃ pc ∈ (attnRunA c i arg3 harg3 arg4 harg4 arg5 harg5 arg6 harg6 arg7 harg7 arg8 harg8 arg9 harg9 hc0 hc1 x0 x1 x2).2.1, y ∈ pc.1.set :=
  View.cover_of_tiledL (attnRunA c i arg3 harg3 arg4 harg4 arg5 harg5 arg6 harg6 arg7 harg7 arg8 harg8 arg9 harg9 hc0 hc1 x0 x1 x2).2.1 S1024x1.size (by sl_kernel_rfl) y
theorem covNormA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) (y : S1024x1.Idx) : ∃ pc ∈ (attnRunA c i arg3 harg3 arg4 harg4 arg5 harg5 arg6 harg6 arg7 harg7 arg8 harg8 arg9 harg9 hc0 hc1 x0 x1 x2).2.2.1, y ∈ pc.1.set :=
  View.cover_of_tiledL (attnRunA c i arg3 harg3 arg4 harg4 arg5 harg5 arg6 harg6 arg7 harg7 arg8 harg8 arg9 harg9 hc0 hc1 x0 x1 x2).2.2.1 S1024x1.size (by sl_kernel_rfl) y
theorem covAccA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) (y : S1024x1024.Idx) : ∃ pc ∈ (attnRunA c i arg3 harg3 arg4 harg4 arg5 harg5 arg6 harg6 arg7 harg7 arg8 harg8 arg9 harg9 hc0 hc1 x0 x1 x2).2.2.2.1, y ∈ pc.1.set :=
  View.cover_of_tiledL (attnRunA c i arg3 harg3 arg4 harg4 arg5 harg5 arg6 harg6 arg7 harg7 arg8 harg8 arg9 harg9 hc0 hc1 x0 x1 x2).2.2.2.1 S1024x1024.size (by sl_kernel_rfl) y
/-- What case A leaves in the three scratch buffers: each one's pieces read back. -/
def smaxA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1024x1 .f32 :=
  VSMax.read (Elt F) (VSMax.writes (Elt F) VSMax.junk (attnRunA c i arg3 harg3 arg4 harg4 arg5 harg5 arg6 harg6 arg7 harg7 arg8 harg8 arg9 harg9 hc0 hc1 x0 x1 x2).2.1)
def snormA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1024x1 .f32 :=
  VSNorm.read (Elt F) (VSNorm.writes (Elt F) VSNorm.junk (attnRunA c i arg3 harg3 arg4 harg4 arg5 harg5 arg6 harg6 arg7 harg7 arg8 harg8 arg9 harg9 hc0 hc1 x0 x1 x2).2.2.1)
def saccA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1024x1024 .f32 :=
  VSAcc.read (Elt F) (VSAcc.writes (Elt F) VSAcc.junk (attnRunA c i arg3 harg3 arg4 harg4 arg5 harg5 arg6 harg6 arg7 harg7 arg8 harg8 arg9 harg9 hc0 hc1 x0 x1 x2).2.2.2.1)

/-- What case B leaves in the output's staging buffer: its pieces read back (none: a placeholder nothing consults, the window being idle and not written back there). -/
def outB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO3.read (Elt F) (VO3.writes (Elt F) VO3.junk (attnRunB c i arg3 harg3 arg4 harg4 arg5 harg5 arg6 harg6 arg7 harg7 arg8 harg8 arg9 harg9 hc0 hc1 x0 x1 x2 xs0 xs1 xs2).1)
theorem covMaxB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunB c i arg3 harg3 arg4 harg4 arg5 harg5 arg6 harg6 arg7 harg7 arg8 harg8 arg9 harg9 hc0 hc1 x0 x1 x2 xs0 xs1 xs2).2.1, y ∈ pc.1.set :=
  View.cover_of_tiledL (attnRunB c i arg3 harg3 arg4 harg4 arg5 harg5 arg6 harg6 arg7 harg7 arg8 harg8 arg9 harg9 hc0 hc1 x0 x1 x2 xs0 xs1 xs2).2.1 S1024x1.size (by sl_kernel_rfl) y
theorem covNormB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunB c i arg3 harg3 arg4 harg4 arg5 harg5 arg6 harg6 arg7 harg7 arg8 harg8 arg9 harg9 hc0 hc1 x0 x1 x2 xs0 xs1 xs2).2.2.1, y ∈ pc.1.set :=
  View.cover_of_tiledL (attnRunB c i arg3 harg3 arg4 harg4 arg5 harg5 arg6 harg6 arg7 harg7 arg8 harg8 arg9 harg9 hc0 hc1 x0 x1 x2 xs0 xs1 xs2).2.2.1 S1024x1.size (by sl_kernel_rfl) y
theorem covAccB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) : ∃ pc ∈ (attnRunB c i arg3 harg3 arg4 harg4 arg5 harg5 arg6 harg6 arg7 harg7 arg8 harg8 arg9 harg9 hc0 hc1 x0 x1 x2 xs0 xs1 xs2).2.2.2.1, y ∈ pc.1.set :=
  View.cover_of_tiledL (attnRunB c i arg3 harg3 arg4 harg4 arg5 harg5 arg6 harg6 arg7 harg7 arg8 harg8 arg9 harg9 hc0 hc1 x0 x1 x2 xs0 xs1 xs2).2.2.2.1 S1024x1024.size (by sl_kernel_rfl) y
/-- What case B leaves in the three scratch buffers: each one's pieces read back. -/
def smaxB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSMax.read (Elt F) (VSMax.writes (Elt F) VSMax.junk (attnRunB c i arg3 harg3 arg4 harg4 arg5 harg5 arg6 harg6 arg7 harg7 arg8 harg8 arg9 harg9 hc0 hc1 x0 x1 x2 xs0 xs1 xs2).2.1)
def snormB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSNorm.read (Elt F) (VSNorm.writes (Elt F) VSNorm.junk (attnRunB c i arg3 harg3 arg4 harg4 arg5 harg5 arg6 harg6 arg7 harg7 arg8 harg8 arg9 harg9 hc0 hc1 x0 x1 x2 xs0 xs1 xs2).2.2.1)
def saccB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VSAcc.read (Elt F) (VSAcc.writes (Elt F) VSAcc.junk (attnRunB c i arg3 harg3 arg4 harg4 arg5 harg5 arg6 harg6 arg7 harg7 arg8 harg8 arg9 harg9 hc0 hc1 x0 x1 x2 xs0 xs1 xs2).2.2.2.1)

theorem covOutC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (attnRunC c i arg3 harg3 arg4 harg4 arg5 harg5 arg6 harg6 arg7 harg7 arg8 harg8 arg9 harg9 hc0 hc1 x0 x1 x2 xs0 xs1 xs2).1, y ∈ pc.1.set :=
  View.cover_of_tiledL (attnRunC c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output's staging buffer: its pieces read back. -/
def outC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO3.read (Elt F) (VO3.writes (Elt F) VO3.junk (attnRunC c i arg3 harg3 arg4 harg4 arg5 harg5 arg6 harg6 arg7 harg7 arg8 harg8 arg9 harg9 hc0 hc1 x0 x1 x2 xs0 xs1 xs2).1)
theorem covMaxC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunC c i arg3 harg3 arg4 harg4 arg5 harg5 arg6 harg6 arg7 harg7 arg8 harg8 arg9 harg9 hc0 hc1 x0 x1 x2 xs0 xs1 xs2).2.1, y ∈ pc.1.set :=
  View.cover_of_tiledL (attnRunC c i arg3 harg3 arg4 harg4 arg5 harg5 arg6 harg6 arg7 harg7 arg8 harg8 arg9 harg9 hc0 hc1 x0 x1 x2 xs0 xs1 xs2).2.1 S1024x1.size (by sl_kernel_rfl) y
theorem covNormC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunC c i arg3 harg3 arg4 harg4 arg5 harg5 arg6 harg6 arg7 harg7 arg8 harg8 arg9 harg9 hc0 hc1 x0 x1 x2 xs0 xs1 xs2).2.2.1, y ∈ pc.1.set :=
  View.cover_of_tiledL (attnRunC c i arg3 harg3 arg4 harg4 arg5 harg5 arg6 harg6 arg7 harg7 arg8 harg8 arg9 harg9 hc0 hc1 x0 x1 x2 xs0 xs1 xs2).2.2.1 S1024x1.size (by sl_kernel_rfl) y
theorem covAccC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) : ∃ pc ∈ (attnRunC c i arg3 harg3 arg4 harg4 arg5 harg5 arg6 harg6 arg7 harg7 arg8 harg8 arg9 harg9 hc0 hc1 x0 x1 x2 xs0 xs1 xs2).2.2.2.1, y ∈ pc.1.set :=
  View.cover_of_tiledL (attnRunC c i arg3 harg3 arg4 harg4 arg5 harg5 arg6 harg6 arg7 harg7 arg8 harg8 arg9 harg9 hc0 hc1 x0 x1 x2 xs0 xs1 xs2).2.2.2.1 S1024x1024.size (by sl_kernel_rfl) y
/-- What case C leaves in the three scratch buffers: each one's pieces read back. -/
def smaxC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSMax.read (Elt F) (VSMax.writes (Elt F) VSMax.junk (attnRunC c i arg3 harg3 arg4 harg4 arg5 harg5 arg6 harg6 arg7 harg7 arg8 harg8 arg9 harg9 hc0 hc1 x0 x1 x2 xs0 xs1 xs2).2.1)
def snormC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSNorm.read (Elt F) (VSNorm.writes (Elt F) VSNorm.junk (attnRunC c i arg3 harg3 arg4 harg4 arg5 harg5 arg6 harg6 arg7 harg7 arg8 harg8 arg9 harg9 hc0 hc1 x0 x1 x2 xs0 xs1 xs2).2.2.1)
def saccC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VSAcc.read (Elt F) (VSAcc.writes (Elt F) VSAcc.junk (attnRunC c i arg3 harg3 arg4 harg4 arg5 harg5 arg6 harg6 arg7 harg7 arg8 harg8 arg9 harg9 hc0 hc1 x0 x1 x2 xs0 xs1 xs2).2.2.2.1)

/-! ## What the buffers hold after each point -/

/-- After the body at position `n`: the output's staging buffer, then the running maximum, normaliser and weighted
    sum. The case is the one the closed forms select at `n`; a case that does not reset reads what position `n - 1` left. -/
def outsAt (c : Dev nD) : (n : ℕ) → n < cfg1.N → Vec F S1x1024x1024 .f32 × Vec F S1024x1 .f32 × Vec F S1024x1 .f32 × Vec F S1024x1024 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), smaxA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), snormA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), saccA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩))
  | n + 1, hn =>
    if h0 : (n + 1) % 4 = 0 then
      if h1 : (n + 1) % 4 = 3 then
        False.elim (by omega)
      else
        (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), smaxA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), snormA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), saccA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩))
    else
      if h1 : (n + 1) % 4 = 3 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, smaxC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, snormC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, saccC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, smaxB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, snormB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, saccB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2)

theorem outsAt_A (c : Dev nD) (t : Fin cfg1.N) (h0 : t.val % 4 = 0) (h1 : ¬t.val % 4 = 3) :
    outsAt V c t.val t.isLt = (outA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t), smaxA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t), snormA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t), saccA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t)) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (outB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, smaxB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, snormB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, saccB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (outC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, smaxC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, snormC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, saccC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before position `n`: at the first point the class's invariant (every scratch at anything); afterwards the other
    region's staging buffers at anything, each scratch at what the point before left, the generator register at some state. -/
def PhiS (c : Dev nD) : (n : ℕ) → n ≤ cfg1.N → sProp 𝕄
  | 0, _ => Pipeline.ΦA spec1 c
  | n + 1, hn => iprop(iprop(otherStg c cc0_stg0_0 ∗ otherStg c cc0_stg0_1 ∗ otherStg c cc0_stg1_0 ∗ otherStg c cc0_stg2_0 ∗ otherStg c cc0_stg3_0 ∗ otherStg c cc0_stg3_1
      ∗ owns (c : Thread nD τ) scMax fullShare (outsAt V c n hn).2.1 ∗ owns (c : Thread nD τ) scNorm fullShare (outsAt V c n hn).2.2.1 ∗ owns (c : Thread nD τ) scAcc fullShare (outsAt V c n hn).2.2.2)
    ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherStg c cc0_stg0_0 ∗ otherStg c cc0_stg0_1 ∗ otherStg c cc0_stg1_0 ∗ otherStg c cc0_stg2_0 ∗ otherStg c cc0_stg3_0 ∗ otherStg c cc0_stg3_1
      ∗ owns (c : Thread nD τ) scMax fullShare (outsAt V c n hn).2.1 ∗ owns (c : Thread nD τ) scNorm fullShare (outsAt V c n hn).2.2.1 ∗ owns (c : Thread nD τ) scAcc fullShare (outsAt V c n hn).2.2.2)
    ∗ (∃ r, prngReg c r)) := rfl

theorem PhiS_pos (c : Dev nD) (n : ℕ) (h : n ≤ cfg1.N) (hz : n ≠ 0) :
    PhiS V c n h = iprop(iprop(otherStg c cc0_stg0_0 ∗ otherStg c cc0_stg0_1 ∗ otherStg c cc0_stg1_0 ∗ otherStg c cc0_stg2_0 ∗ otherStg c cc0_stg3_0 ∗ otherStg c cc0_stg3_1
      ∗ owns (c : Thread nD τ) scMax fullShare (outsAt V c (n - 1) (by omega)).2.1 ∗ owns (c : Thread nD τ) scNorm fullShare (outsAt V c (n - 1) (by omega)).2.2.1 ∗ owns (c : Thread nD τ) scAcc fullShare (outsAt V c (n - 1) (by omega)).2.2.2)
    ∗ (∃ r, prngReg c r)) := by
  cases n with
  | zero => exact absurd rfl hz
  | succ n => rfl

/-! ## The region's proof data -/

def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => (outsAt V c t.val t.isLt).1
  Φ t := PhiS V c t.val (Nat.le_of_lt_succ t.isLt)
  q _ := fullShare
  owed _ := 0

theorem aA_eq (c : Dev nD) (w : Fin cfg1.W) : (adat V c).A w = V c (Pipeline.arrRef spec1 w) := by
  dsimp only [adat]
theorem PhiS_castSucc (c : Dev nD) (t : Fin cfg1.N) :
    (adat V c).Φ t.castSucc = PhiS V c t.val (Nat.le_of_lt t.isLt) := by
  dsimp only [adat]; simp only [Fin.coe_castSucc]
theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = (outsAt V c t.val t.isLt).1 := by dsimp only [adat]
theorem abefore0 (c : Dev nD) (t : Fin cfg1.N) (d) : (adat V c).before 0 t d = ablk V c 0 t :=
  abefore0_of V (adat V c) (aA_eq V c 0) (aafter0 V c) t d
theorem abefore1 (c : Dev nD) (t : Fin cfg1.N) (d) : (adat V c).before 1 t d = ablk V c 1 t :=
  abefore1_of V (adat V c) (aA_eq V c 1) (aafter1 V c) t d
theorem abefore2 (c : Dev nD) (t : Fin cfg1.N) (d) : (adat V c).before 2 t d = ablk V c 2 t :=
  abefore2_of V (adat V c) (aA_eq V c 2) (aafter2 V c) t d

/-! ## The body obligation, at a generic point -/

def abodyPre (c : Dev nD) (t : Fin cfg1.N) : sProp 𝕄 :=
  iprop((adat V c).Φ t.castSucc ∗ (adat V c).owesAt () t.castSucc
    ∗ (∃ d, owns (c : Thread nD τ) (ms0 t) fullShare ((adat V c).before 0 t d))
    ∗ (∃ d, owns (c : Thread nD τ) (ms1 t) fullShare ((adat V c).before 1 t d))
    ∗ (∃ d, owns (c : Thread nD τ) (ms2 t) fullShare ((adat V c).before 2 t d))
    ∗ (∃ d, owns (c : Thread nD τ) (ms3 t) fullShare ((adat V c).before 3 t d)))

def abodyPost (c : Dev nD) (t : Fin cfg1.N) : sProp 𝕄 :=
  iprop((adat V c).Φ t.succ ∗ (adat V c).owesAt () t.succ
    ∗ (adat V c).leavesExact 0 t ∗ (adat V c).leavesExact 1 t ∗ (adat V c).leavesExact 2 t ∗ (adat V c).leavesExact 3 t)

set_option maxHeartbeats 8000000 in
/-- The body at any point: the inputs' memrefs hold their blocks; the closed forms say which case the point is in; the
    invariant hands the body the scratch at what the point before left (at anything at the first point) and takes it
    back at this point's contents; the output's buffer is handed back untouched where the window is idle. -/
theorem asound_body (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore0, abefore1, abefore2]
  rw [show (adat V c).owesAt () t.succ = (adat V c).owesAt () t.castSucc from rfl]
  rw [show (adat V c).Φ t.succ = PhiS V c (t.val + 1) t.isLt from rfl, PhiS_succ]
  have hN : t.val < 64 := lt_of_lt_of_eq t.isLt (show cfg1.N = 64 from N_1)
  rw [show (adat V c).leavesExact 0 t = owns (c : Thread nD τ) (ms0 t) fullShare ((adat V c).after 0 t) from by
      unfold Dat.leavesExact; rw [aliveAt0 t], aafter0]
  rw [show (adat V c).leavesExact 1 t = owns (c : Thread nD τ) (ms1 t) fullShare ((adat V c).after 1 t) from by
      unfold Dat.leavesExact; rw [aliveAt1 t], aafter1]
  rw [show (adat V c).leavesExact 2 t = owns (c : Thread nD τ) (ms2 t) fullShare ((adat V c).after 2 t) from by
      unfold Dat.leavesExact; rw [aliveAt2 t], aafter2]
  by_cases h0 : t.val % 4 = 0
  · have h1 : ¬t.val % 4 = 3 := by omega
    rw [Dat.leavesExact_idle (adat V c) 3 t (aidleAt3 t (fun h => h1 ((hcondLast t).mp h))) (anoFlush3 t (fun h => h1 ((hcondLast t).mp h)))]
    rw [outsAt_A V c t h0 h1]
    unfold smaxA snormA saccA; (try dsimp only)
    by_cases hz : t.val = 0
    · rw [PhiS_castSucc V c t, PhiS_zero V c _ _ hz, PhiA1_eq]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunA c (grid1.coords t) _ _ _ _ _ _ _ _ _ _ _ _ _ _ ((hcondReset t).mpr h0) (fun h => h1 ((hcondLast t).mp h)) (ablk V c 0 t) (ablk V c 1 t) (ablk V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxA c _ _ _ _ _ _ _ _ _ _ _ _ _ _ _ _ _ _ _ _)
          isplitl [HS1]
          · unfold owns; iexists _; isplitr
            swap; · iexact HS1
            ipureintro; exact View.read_writes_of_cover _ _ _ _ _ (covNormA c _ _ _ _ _ _ _ _ _ _ _ _ _ _ _ _ _ _ _ _)
          unfold owns; iexists _; isplitr
          swap; · iexact HS2
          ipureintro; exact View.read_writes_of_cover _ _ _ _ _ (covAccA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunA c (grid1.coords t) _ _ _ _ _ _ _ _ _ _ _ _ _ _ ((hcondReset t).mpr h0) (fun h => h1 ((hcondLast t).mp h)) (ablk V c 0 t) (ablk V c 1 t) (ablk V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxA c _ _ _ _ _ _ _ _ _ _ _ _ _ _ _ _ _ _ _ _)
          isplitl [HS1]
          · unfold owns; iexists _; isplitr
            swap; · iexact HS1
            ipureintro; exact View.read_writes_of_cover _ _ _ _ _ (covNormA c _ _ _ _ _ _ _ _ _ _ _ _ _ _ _ _ _ _ _ _)
          unfold owns; iexists _; isplitr
          swap; · iexact HS2
          ipureintro; exact View.read_writes_of_cover _ _ _ _ _ (covAccA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (adat V c).leavesExact 3 t = owns (c : Thread nD τ) (ms3 t) fullShare ((adat V c).after 3 t) from by
        unfold Dat.leavesExact; rw [aliveAt3 t ((hcondLast t).mpr h1)], aafter3]
      rw [outsAt_C V c t h0 h1]
      unfold outC smaxC snormC saccC; (try dsimp only)
      rw [PhiS_castSucc V c t, PhiS_pos V c _ _ hz]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunC c (grid1.coords t) _ _ _ _ _ _ _ _ _ _ _ _ _ _ (fun h => h0 ((hcondReset t).mp h)) ((hcondLast t).mpr h1) (ablk V c 0 t) (ablk V c 1 t) (ablk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxC c _ _ _ _ _ _ _ _ _ _ _ _ _ _ _ _ _ _ _ _ _ _ _)
          isplitl [HS1]
          · unfold owns; iexists _; isplitr
            swap; · iexact HS1
            ipureintro; exact View.read_writes_of_cover _ _ _ _ _ (covNormC c _ _ _ _ _ _ _ _ _ _ _ _ _ _ _ _ _ _ _ _ _ _ _)
          unfold owns; iexists _; isplitr
          swap; · iexact HS2
          ipureintro; exact View.read_writes_of_cover _ _ _ _ _ (covAccC c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covOutC c _ _ _ _ _ _ _ _ _ _ _ _ _ _ _ _ _ _ _ _ _ _ _)
    · rw [Dat.leavesExact_idle (adat V c) 3 t (aidleAt3 t (fun h => h1 ((hcondLast t).mp h))) (anoFlush3 t (fun h => h1 ((hcondLast t).mp h)))]
      rw [outsAt_B V c t h0 h1]
      unfold smaxB snormB saccB; (try dsimp only)
      rw [PhiS_castSucc V c t, PhiS_pos V c _ _ hz]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunB c (grid1.coords t) _ _ _ _ _ _ _ _ _ _ _ _ _ _ (fun h => h0 ((hcondReset t).mp h)) (fun h => h1 ((hcondLast t).mp h)) (ablk V c 0 t) (ablk V c 1 t) (ablk V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxB c _ _ _ _ _ _ _ _ _ _ _ _ _ _ _ _ _ _ _ _ _ _ _)
          isplitl [HS1]
          · unfold owns; iexists _; isplitr
            swap; · iexact HS1
            ipureintro; exact View.read_writes_of_cover _ _ _ _ _ (covNormB c _ _ _ _ _ _ _ _ _ _ _ _ _ _ _ _ _ _ _ _ _ _ _)
          unfold owns; iexists _; isplitr
          swap; · iexact HS2
          ipureintro; exact View.read_writes_of_cover _ _ _ _ _ (covAccB c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem abody_obligation (c : Dev nD) : BodyObligation (adat (F := F) V c) (defs₀ (F := F)) Variants.none () Set.univ := fun t => by
  rw [bigSep_W1, bigSep_W1]
  exact asound_body V c t

/-- What the launch hands the region is the invariant before the first point. -/
theorem ahin (c : Dev nD) : Pipeline.ΦA spec1 c ⊢ (adat V c).Φ 0 := by
  rw [show (adat V c).Φ 0 = PhiS V c 0 (Nat.zero_le _) from rfl, PhiS_zero V c 0 _ rfl]
  try exact Idealize.SL.BI.Entails.refl _

/-- After any point the invariant gives the class's back: the scratch's named contents are forgotten. -/
theorem aPhi_out (c : Dev nD) (t : Fin (cfg1.N + 1)) (ht : t.val ≠ 0) : (adat V c).Φ t ⊢ Pipeline.ΦA spec1 c := by
  rw [show (adat V c).Φ t = PhiS V c t.val (Nat.le_of_lt_succ t.isLt) from rfl, PhiS_pos V c _ _ ht, PhiA1_eq]
  iintro ⟨⟨G0, G1, G2, G3, G4, G5, HS0, HS1, HS2⟩, Hg⟩
  isplitl [G0 G1 G2 G3 G4 G5 HS0 HS1 HS2]
  · skip
    isplitl [G0]; · iexact G0
    isplitl [G1]; · iexact G1
    isplitl [G2]; · iexact G2
    isplitl [G3]; · iexact G3
    isplitl [G4]; · iexact G4
    isplitl [G5]; · iexact G5
    isplitl [HS0]; · iexists _; iexact HS0
    isplitl [HS1]; · iexists _; iexact HS1
    iexists _; iexact HS2
  iexact Hg

theorem ahout (c : Dev nD) : (adat V c).Φ (Fin.last cfg1.N) ⊢ Pipeline.ΦA spec1 c :=
  aPhi_out V c _ (by rw [Fin.val_last]; have : cfg1.N = 64 := N_1; omega)

end Cert.Kernel.Frame

end
-- ==== Proof.Kernel.Run.lean ====
/-
  The run of the whole program: host operations, the projection region, host operations, the attention region.

  Between two items every unscoped buffer of the core holds named contents: the launch memory; then what the first
  stretch of host operations computes from it; then the same with the projection region's arrays at what its
  write-backs leave; then what the second stretch computes from that; then the same with the attention region's arrays
  at what its write-backs leave. Every weakly fair execution terminates in a memory holding exactly those last contents.
-/
import proofs.«105625_j35124242546827_2_alg».proof.Proof.Kernel.Projection
import proofs.«105625_j35124242546827_2_alg».proof.Proof.Kernel.Attention
import proofs.«105625_j35124242546827_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (pdat (V1 m ρ) c).arrAt w cfg0.N
theorem W2_arr (c : Dev nD) (w : Fin cfg0.W) :
    W2 m ρ c (Proc.devRef .tc (Pipeline.arrRef spec0 w)) = (pdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (pdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (adat (V3 m ρ) c).arrAt w cfg1.N
theorem W4_arr (c : Dev nD) (w : Fin cfg1.W) :
    W4 m ρ c (Proc.devRef .tc (Pipeline.arrRef spec1 w)) = (adat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (adat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that neither stretch of host operations writes and that is no array of either region ends as launched. -/
theorem W4_of_untouched (c : Dev nD) (r : Ref sig .tc) (h1 : ∀ w, Pipeline.arrRef spec1 w ≠ r) (h1' : r ∉ (hostOps1_W : List (Ref sig .tc)))
    (h0 : ∀ w, Pipeline.arrRef spec0 w ≠ r) (h0' : r ∉ (hostOps0_W : List (Ref sig .tc))) :
    W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := StableHlo.after_of_writes_sub hostOps1 _ hostOps1_writes h1'
    _ = W1 m ρ c (Proc.devRef .tc r) := W2_of_ne m ρ c r h0
    _ = W0 m ρ c (Proc.devRef .tc r) := StableHlo.after_of_writes_sub hostOps0 _ hostOps0_writes h0'
    _ = m ((c : Thread nD τ).loc r) := rfl

/-! ## The proof data family and what rides along -/

abbrev adm : (p : Fin 2) → (pcfgs (F := F) p).Adm := fun p => (cfgs p).toPCfg_adm
/-- Both regions' proof data, each at its region's entry contents: a literal match on the region's number. -/
def pdats : (p : Fin 2) → (c : Dev nD) → Dat τ (Elt F) Unit ℕ (UR sig nD τ) ℕ (Pipeline.pin (pcfgs (F := F)) adm p) c
  | ⟨0, _⟩ => fun c => pdat (V1 m ρ) c
  | ⟨1, _⟩ => fun c => adat (V3 m ρ) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at the contents before it, left with them at the
    contents after it. Its arrays are split out of the unscoped buffers on entry and put back at their final contents
    on exit; the generator register goes into the invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (pbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its arrays are split out of the unscoped buffers on entry and put back at their final contents
    on exit; the generator register goes into the invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (abody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (adat (V3 m ρ) c).Φ 0 from rfl]
    have h := ahin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (adat (V3 m ρ) c).Φ (Fin.last _) from rfl]
    have h := ahout (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, in a memory
    whose every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Frame

end
-- ==== Proof.KernelIdeal.Projection.lean ====
/-
  The projection region (the first kernel launch) of the program, point by point.

  The grid has 32 points; point t stages rows 512·t … 512·t + 511 of the flattened input, the whole packed weight and
  the whole packed bias, and writes back the same rows of the packed query/key/value array. The body reads its three
  input blocks whole, forms one block of the product plus bias, and stores it whole into the output's staging buffer:
  what that buffer holds afterwards is the single stored value, whatever it held before. Everything here is stated at
  a parameter V, the buffer contents the region is entered with.
-/
import proofs.«105625_j35124242546827_2_alg».proof.Proof.Gen.KernelIdeal.Launch
import proofs.«105625_j35124242546827_2_alg».proof.Proof.Gen.KernelIdeal.Skeleton
import proofs.«105625_j35124242546827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles: each access is of a whole buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S512x3072 := Rect.unit (s := S512x3072) ![0, 0] S512x3072.size inb_S512x3072_S512x3072_0_0

/-- What the body leaves in the output's staging buffer, from the three input blocks: its one store. -/
def projOut (x0 : Vec F S512x1024 .f32) (x1 : Vec F S1024x3072 .bf16) (x2 : Vec F S1x3072 .f32) : Vec F S512x3072 .bf16 :=
  View.canon [⟨rO, k0_pay1 (View.ld x0 rX) (View.ld x1 rW) (View.ld x2 rB)⟩]

/-- The one store covers the buffer. -/
theorem projCover (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

/-! ## The body's triple -/

set_option maxHeartbeats 1000000 in
/-- On whole staging memrefs, the inputs' at contents `x0 x1 x2` and the output's at anything, the body runs to the
    continuation holding the inputs' as they were and the output's at `projOut x0 x1 x2`. -/
theorem projBody (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-! ## The input windows hold their blocks -/

theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-! ## The region's proof data -/

/-- The arrays as the region finds them; after the body at point `t` each input's buffer at its block and the
    output's at the stored block; the invariant the scoped rest and the generator register, untouched; nothing owed. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => projOut (pblk V c 0 t) (pblk V c 1 t) (pblk V c 2 t)
  Φ _ := Pipeline.ΦA spec0 c
  q _ := fullShare
  owed _ := 0

theorem pA_eq (c : Dev nD) (w : Fin cfg0.W) : (pdat V c).A w = V c (Pipeline.arrRef spec0 w) := by
  dsimp only [pdat]
theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pblk V c 2 t := by dsimp only [pdat]
theorem pafter3 (c : Dev nD) (t : Fin cfg0.N) :
    (pdat V c).after 3 t = projOut (pblk V c 0 t) (pblk V c 1 t) (pblk V c 2 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d
theorem pbefore2 (c : Dev nD) (t : Fin cfg0.N) (d) : (pdat V c).before 2 t d = pblk V c 2 t :=
  pbefore2_of V (pdat V c) (pA_eq V c 2) (pafter2 V c) t d

/-! ## The body obligation, at a generic point -/

def pbodyPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d)))

def pbodyPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t))

/-- The body at any point: the inputs' memrefs hold their blocks, so the body's triple applies; the invariant and the
    core's dues pass through unread. -/
theorem psound_body (c : Dev nD) (t : Fin cfg0.N) :
    pbodyPre V c t ⊢ wp frame (wpE (defs₀ (F := F)) Variants.none c none) Set.univ (bodyAt0 t) (fun _ => pbodyPost V c t) := by
  unfold pbodyPre pbodyPost bodyAt0
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3]
  iintro ⟨HΦ, Ho, ⟨%d0, H0⟩, ⟨%d1, H1⟩, ⟨%d2, H2⟩, ⟨%d3, H3⟩⟩
  iapply (projBody c Set.univ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem pbody_obligation (c : Dev nD) : BodyObligation (pdat (F := F) V c) (defs₀ (F := F)) Variants.none () Set.univ := fun t => by
  rw [bigSep_W0, bigSep_W0]
  exact psound_body V c t

end Cert.KernelIdeal.Frame

end
-- ==== Proof.KernelIdeal.AttentionShared.lean ====
/-
  The attention region (the second kernel launch): what its 64 points share.

  The grid is 8 batches × 2 query tiles × 4 key/value tiles, the key/value axis innermost, so point t works on
  key/value tile t mod 4. Three scratch buffers (running maximum, running normaliser, running weighted sum) live
  across the four points of one query tile: the body resets them where t mod 4 = 0 and stores the output block, the
  weighted sum divided by the normaliser, where t mod 4 = 3; at the other points the output window is idle and is
  not written back. Both branch conditions are scalar comparisons of the third grid coordinate, decided here over
  the whole grid.
-/
import proofs.«105625_j35124242546827_2_alg».proof.Proof.Gen.KernelIdeal.Launch
import proofs.«105625_j35124242546827_2_alg».proof.Proof.Gen.KernelIdeal.Skeleton
import proofs.«105625_j35124242546827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The two branch conditions, in closed form over the grid -/

/-- The reset branch is taken: the key/value coordinate is 0. -/
abbrev condReset (i : grid1.Coords) : Prop := (Scalar.cmpi .ne (Scalar.extui (Scalar.cmpi .eq (BitVec.ofNat 32 (i 2).val) 0#32)) 0#32) = 1#1
theorem hcondReset : ∀ t : Fin cfg1.N, condReset (grid1.coords t) ↔ t.val % 4 = 0 :=
  (by decide +kernel : ∀ t : Fin grid1.N, condReset (grid1.coords t) ↔ t.val % 4 = 0)
/-- The output branch is taken: the key/value coordinate is 3, the last. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem aliveAt0 : ∀ t : Fin cfg1.N, cfg1.idle 0 (grid1.coords t) = false := by decide +kernel
theorem aliveAt1 : ∀ t : Fin cfg1.N, cfg1.idle 1 (grid1.coords t) = false := by decide +kernel
theorem aliveAt2 : ∀ t : Fin cfg1.N, cfg1.idle 2 (grid1.coords t) = false := by decide +kernel
/-- Away from the last key/value tile the output window is idle … -/
theorem aidleAt3 : ∀ t : Fin cfg1.N, ¬condLast (grid1.coords t) → cfg1.idle 3 (grid1.coords t) = true := by decide +kernel
/-- … and is not written back. -/
theorem anoFlush3 : ∀ t : Fin cfg1.N, ¬condLast (grid1.coords t) → (cfg1.win 3).flush t = false := by decide +kernel
/-- At the last key/value tile it is live. -/
theorem aliveAt3 : ∀ t : Fin cfg1.N, condLast (grid1.coords t) → cfg1.idle 3 (grid1.coords t) = false := by decide +kernel

/-! ## The memrefs the body is called with -/

abbrev VO3 : View sig .tc .vmem S1x1024x1024 .f32 := (Memref.whole cc1_stg3_0 : Memref sig .tc .vmem S1x1024x1024 .f32).view
abbrev ms0 (t : Fin cfg1.N) : Memref sig .tc .vmem S1x1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
/-- The scratch operands: the running maximum, the running normaliser, the running weighted sum. -/
abbrev scMax : Memref sig .tc .vmem S1024x1 .f32 := Memref.whole cc1_scratch0
abbrev scNorm : Memref sig .tc .vmem S1024x1 .f32 := Memref.whole cc1_scratch1
abbrev scAcc : Memref sig .tc .vmem S1024x1024 .f32 := Memref.whole cc1_scratch2
abbrev VSMax : View sig .tc .vmem S1024x1 .f32 := scMax.view
abbrev VSNorm : View sig .tc .vmem S1024x1 .f32 := scNorm.view
abbrev VSAcc : View sig .tc .vmem S1024x1024 .f32 := scAcc.view

/-- The first region's staging buffers, which this region does not touch, each whole at some contents. -/
abbrev otherStg (c : Dev nD) (b : Ref sig .tc) : sProp 𝕄 := iprop(∃ f : Buf (Elt F) ((c : Thread nD τ).loc b), ((c : Thread nD τ).loc b) ↦{fullShare} f)

/-- The class invariant with the three scratch operands as memrefs owned at some contents. -/
theorem PhiA1_eq (c : Dev nD) :
    (Pipeline.ΦA spec1 c : sProp 𝕄)
      = iprop(iprop(otherStg c cc0_stg0_0 ∗ otherStg c cc0_stg0_1 ∗ otherStg c cc0_stg1_0 ∗ otherStg c cc0_stg2_0 ∗ otherStg c cc0_stg3_0 ∗ otherStg c cc0_stg3_1
          ∗ (∃ d, owns (c : Thread nD τ) scMax fullShare d) ∗ (∃ d, owns (c : Thread nD τ) scNorm fullShare d) ∗ (∃ d, owns (c : Thread nD τ) scAcc fullShare d))
        ∗ (∃ r, prngReg c r)) := by
  unfold Pipeline.ΦA; rw [scopedRest1_eq]; simp only [scMax, scNorm, scAcc, owns_whole]; try rfl

end Cert.KernelIdeal.Frame

end
-- ==== Proof.KernelIdeal.AttentionRunA.lean ====
/-
  The attention body run whole, at a point that resets the scratch and does not store the output (key/value tile 0).
-/
import proofs.«105625_j35124242546827_2_alg».proof.Proof.KernelIdeal.AttentionShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the three scratch buffers (last first),
    with the proof that on whole memrefs the body runs to the continuation holding the inputs as they were and each
    of those buffers with its pieces written. The pieces are what the run finds. -/
noncomputable def attnRunA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Frame

end
-- ==== Proof.KernelIdeal.AttentionRunB.lean ====
/-
  The attention body run whole, at a point that neither resets the scratch nor stores the output (key/value tiles 1 and 2).
-/
import proofs.«105625_j35124242546827_2_alg».proof.Proof.KernelIdeal.AttentionRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the three scratch buffers (last first),
    with the proof that on whole memrefs the body runs to the continuation holding the inputs as they were and each
    of those buffers with its pieces written. The pieces are what the run finds. -/
noncomputable def attnRunB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Frame

end
-- ==== Proof.KernelIdeal.AttentionRunC.lean ====
/-
  The attention body run whole, at a point that does not reset the scratch and stores the output (key/value tile 3).
-/
import proofs.«105625_j35124242546827_2_alg».proof.Proof.KernelIdeal.AttentionRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging buffer and in the three scratch buffers (last first),
    with the proof that on whole memrefs the body runs to the continuation holding the inputs as they were and each
    of those buffers with its pieces written. The pieces are what the run finds. -/
noncomputable def attnRunC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Frame

end
-- ==== Proof.KernelIdeal.Attention.lean ====
/-
  The attention region point by point: what each point leaves, the invariant carried between points, the proof data
  and the body obligation.

  After point t the three scratch buffers hold what the body's stores left there: at a point with t mod 4 = 0 a
  function of that point's blocks alone (the reset comes first), otherwise a function of the blocks and of what the
  point before left. The invariant before point t > 0 names exactly those contents; before the first point the
  scratch holds anything. The output's staging buffer is stored only where t mod 4 = 3.
-/
import proofs.«105625_j35124242546827_2_alg».proof.Proof.KernelIdeal.AttentionRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def outA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1x1024x1024 .f32 :=
  VO3.read (Elt F) (VO3.writes (Elt F) VO3.junk (attnRunA c i arg3 harg3 arg4 harg4 arg5 harg5 arg6 harg6 arg7 harg7 arg8 harg8 arg9 harg9 hc0 hc1 x0 x1 x2).1)
theorem covMaxA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) (y : S1024x1.Idx) : ∃ pc ∈ (attnRunA c i arg3 harg3 arg4 harg4 arg5 harg5 arg6 harg6 arg7 harg7 arg8 harg8 arg9 harg9 hc0 hc1 x0 x1 x2).2.1, y ∈ pc.1.set :=
  View.cover_of_tiledL (attnRunA c i arg3 harg3 arg4 harg4 arg5 harg5 arg6 harg6 arg7 harg7 arg8 harg8 arg9 harg9 hc0 hc1 x0 x1 x2).2.1 S1024x1.size (by sl_kernel_rfl) y
theorem covNormA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) (y : S1024x1.Idx) : ∃ pc ∈ (attnRunA c i arg3 harg3 arg4 harg4 arg5 harg5 arg6 harg6 arg7 harg7 arg8 harg8 arg9 harg9 hc0 hc1 x0 x1 x2).2.2.1, y ∈ pc.1.set :=
  View.cover_of_tiledL (attnRunA c i arg3 harg3 arg4 harg4 arg5 harg5 arg6 harg6 arg7 harg7 arg8 harg8 arg9 harg9 hc0 hc1 x0 x1 x2).2.2.1 S1024x1.size (by sl_kernel_rfl) y
theorem covAccA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) (y : S1024x1024.Idx) : ∃ pc ∈ (attnRunA c i arg3 harg3 arg4 harg4 arg5 harg5 arg6 harg6 arg7 harg7 arg8 harg8 arg9 harg9 hc0 hc1 x0 x1 x2).2.2.2.1, y ∈ pc.1.set :=
  View.cover_of_tiledL (attnRunA c i arg3 harg3 arg4 harg4 arg5 harg5 arg6 harg6 arg7 harg7 arg8 harg8 arg9 harg9 hc0 hc1 x0 x1 x2).2.2.2.1 S1024x1024.size (by sl_kernel_rfl) y
/-- What case A leaves in the three scratch buffers: each one's pieces read back. -/
def smaxA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1024x1 .f32 :=
  VSMax.read (Elt F) (VSMax.writes (Elt F) VSMax.junk (attnRunA c i arg3 harg3 arg4 harg4 arg5 harg5 arg6 harg6 arg7 harg7 arg8 harg8 arg9 harg9 hc0 hc1 x0 x1 x2).2.1)
def snormA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1024x1 .f32 :=
  VSNorm.read (Elt F) (VSNorm.writes (Elt F) VSNorm.junk (attnRunA c i arg3 harg3 arg4 harg4 arg5 harg5 arg6 harg6 arg7 harg7 arg8 harg8 arg9 harg9 hc0 hc1 x0 x1 x2).2.2.1)
def saccA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : Vec F S1024x1024 .f32 :=
  VSAcc.read (Elt F) (VSAcc.writes (Elt F) VSAcc.junk (attnRunA c i arg3 harg3 arg4 harg4 arg5 harg5 arg6 harg6 arg7 harg7 arg8 harg8 arg9 harg9 hc0 hc1 x0 x1 x2).2.2.2.1)

/-- What case B leaves in the output's staging buffer: its pieces read back (none: a placeholder nothing consults, the window being idle and not written back there). -/
def outB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO3.read (Elt F) (VO3.writes (Elt F) VO3.junk (attnRunB c i arg3 harg3 arg4 harg4 arg5 harg5 arg6 harg6 arg7 harg7 arg8 harg8 arg9 harg9 hc0 hc1 x0 x1 x2 xs0 xs1 xs2).1)
theorem covMaxB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunB c i arg3 harg3 arg4 harg4 arg5 harg5 arg6 harg6 arg7 harg7 arg8 harg8 arg9 harg9 hc0 hc1 x0 x1 x2 xs0 xs1 xs2).2.1, y ∈ pc.1.set :=
  View.cover_of_tiledL (attnRunB c i arg3 harg3 arg4 harg4 arg5 harg5 arg6 harg6 arg7 harg7 arg8 harg8 arg9 harg9 hc0 hc1 x0 x1 x2 xs0 xs1 xs2).2.1 S1024x1.size (by sl_kernel_rfl) y
theorem covNormB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunB c i arg3 harg3 arg4 harg4 arg5 harg5 arg6 harg6 arg7 harg7 arg8 harg8 arg9 harg9 hc0 hc1 x0 x1 x2 xs0 xs1 xs2).2.2.1, y ∈ pc.1.set :=
  View.cover_of_tiledL (attnRunB c i arg3 harg3 arg4 harg4 arg5 harg5 arg6 harg6 arg7 harg7 arg8 harg8 arg9 harg9 hc0 hc1 x0 x1 x2 xs0 xs1 xs2).2.2.1 S1024x1.size (by sl_kernel_rfl) y
theorem covAccB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) : ∃ pc ∈ (attnRunB c i arg3 harg3 arg4 harg4 arg5 harg5 arg6 harg6 arg7 harg7 arg8 harg8 arg9 harg9 hc0 hc1 x0 x1 x2 xs0 xs1 xs2).2.2.2.1, y ∈ pc.1.set :=
  View.cover_of_tiledL (attnRunB c i arg3 harg3 arg4 harg4 arg5 harg5 arg6 harg6 arg7 harg7 arg8 harg8 arg9 harg9 hc0 hc1 x0 x1 x2 xs0 xs1 xs2).2.2.2.1 S1024x1024.size (by sl_kernel_rfl) y
/-- What case B leaves in the three scratch buffers: each one's pieces read back. -/
def smaxB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSMax.read (Elt F) (VSMax.writes (Elt F) VSMax.junk (attnRunB c i arg3 harg3 arg4 harg4 arg5 harg5 arg6 harg6 arg7 harg7 arg8 harg8 arg9 harg9 hc0 hc1 x0 x1 x2 xs0 xs1 xs2).2.1)
def snormB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSNorm.read (Elt F) (VSNorm.writes (Elt F) VSNorm.junk (attnRunB c i arg3 harg3 arg4 harg4 arg5 harg5 arg6 harg6 arg7 harg7 arg8 harg8 arg9 harg9 hc0 hc1 x0 x1 x2 xs0 xs1 xs2).2.2.1)
def saccB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VSAcc.read (Elt F) (VSAcc.writes (Elt F) VSAcc.junk (attnRunB c i arg3 harg3 arg4 harg4 arg5 harg5 arg6 harg6 arg7 harg7 arg8 harg8 arg9 harg9 hc0 hc1 x0 x1 x2 xs0 xs1 xs2).2.2.2.1)

theorem covOutC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (attnRunC c i arg3 harg3 arg4 harg4 arg5 harg5 arg6 harg6 arg7 harg7 arg8 harg8 arg9 harg9 hc0 hc1 x0 x1 x2 xs0 xs1 xs2).1, y ∈ pc.1.set :=
  View.cover_of_tiledL (attnRunC c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output's staging buffer: its pieces read back. -/
def outC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO3.read (Elt F) (VO3.writes (Elt F) VO3.junk (attnRunC c i arg3 harg3 arg4 harg4 arg5 harg5 arg6 harg6 arg7 harg7 arg8 harg8 arg9 harg9 hc0 hc1 x0 x1 x2 xs0 xs1 xs2).1)
theorem covMaxC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunC c i arg3 harg3 arg4 harg4 arg5 harg5 arg6 harg6 arg7 harg7 arg8 harg8 arg9 harg9 hc0 hc1 x0 x1 x2 xs0 xs1 xs2).2.1, y ∈ pc.1.set :=
  View.cover_of_tiledL (attnRunC c i arg3 harg3 arg4 harg4 arg5 harg5 arg6 harg6 arg7 harg7 arg8 harg8 arg9 harg9 hc0 hc1 x0 x1 x2 xs0 xs1 xs2).2.1 S1024x1.size (by sl_kernel_rfl) y
theorem covNormC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) : ∃ pc ∈ (attnRunC c i arg3 harg3 arg4 harg4 arg5 harg5 arg6 harg6 arg7 harg7 arg8 harg8 arg9 harg9 hc0 hc1 x0 x1 x2 xs0 xs1 xs2).2.2.1, y ∈ pc.1.set :=
  View.cover_of_tiledL (attnRunC c i arg3 harg3 arg4 harg4 arg5 harg5 arg6 harg6 arg7 harg7 arg8 harg8 arg9 harg9 hc0 hc1 x0 x1 x2 xs0 xs1 xs2).2.2.1 S1024x1.size (by sl_kernel_rfl) y
theorem covAccC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) : ∃ pc ∈ (attnRunC c i arg3 harg3 arg4 harg4 arg5 harg5 arg6 harg6 arg7 harg7 arg8 harg8 arg9 harg9 hc0 hc1 x0 x1 x2 xs0 xs1 xs2).2.2.2.1, y ∈ pc.1.set :=
  View.cover_of_tiledL (attnRunC c i arg3 harg3 arg4 harg4 arg5 harg5 arg6 harg6 arg7 harg7 arg8 harg8 arg9 harg9 hc0 hc1 x0 x1 x2 xs0 xs1 xs2).2.2.2.1 S1024x1024.size (by sl_kernel_rfl) y
/-- What case C leaves in the three scratch buffers: each one's pieces read back. -/
def smaxC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSMax.read (Elt F) (VSMax.writes (Elt F) VSMax.junk (attnRunC c i arg3 harg3 arg4 harg4 arg5 harg5 arg6 harg6 arg7 harg7 arg8 harg8 arg9 harg9 hc0 hc1 x0 x1 x2 xs0 xs1 xs2).2.1)
def snormC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VSNorm.read (Elt F) (VSNorm.writes (Elt F) VSNorm.junk (attnRunC c i arg3 harg3 arg4 harg4 arg5 harg5 arg6 harg6 arg7 harg7 arg8 harg8 arg9 harg9 hc0 hc1 x0 x1 x2 xs0 xs1 xs2).2.2.1)
def saccC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VSAcc.read (Elt F) (VSAcc.writes (Elt F) VSAcc.junk (attnRunC c i arg3 harg3 arg4 harg4 arg5 harg5 arg6 harg6 arg7 harg7 arg8 harg8 arg9 harg9 hc0 hc1 x0 x1 x2 xs0 xs1 xs2).2.2.2.1)

/-! ## What the buffers hold after each point -/

/-- After the body at position `n`: the output's staging buffer, then the running maximum, normaliser and weighted
    sum. The case is the one the closed forms select at `n`; a case that does not reset reads what position `n - 1` left. -/
def outsAt (c : Dev nD) : (n : ℕ) → n < cfg1.N → Vec F S1x1024x1024 .f32 × Vec F S1024x1 .f32 × Vec F S1024x1 .f32 × Vec F S1024x1024 .f32
  | 0, hn => (outA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), smaxA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), snormA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), saccA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scMax (Memref.isWhole_whole _) scNorm (Memref.isWhole_whole _) scAcc (Memref.isWhole_whole _) ((hcondReset ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩))
  | n + 1, hn =>
    if h0 : (n + 1) % 4 = 0 then
      if h1 : (n + 1) % 4 = 3 then
        False.elim (by omega)
      else
        (outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), smaxA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), snormA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), saccA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) ((hcondReset ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩))
    else
      if h1 : (n + 1) % 4 = 3 then
        (outC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, smaxC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, snormC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, saccC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) ((hcondLast ⟨n + 1, hn⟩).mpr h1) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2)
      else
        (outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, smaxB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, snormB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2, saccB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scMax (Memref.isWhole_whole _) scNorm (Memref.isWhole_whole _) scAcc (Memref.isWhole_whole _) (fun h => h0 ((hcondReset ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (outsAt c n (Nat.lt_of_succ_lt hn)).2.1 (outsAt c n (Nat.lt_of_succ_lt hn)).2.2.1 (outsAt c n (Nat.lt_of_succ_lt hn)).2.2.2)

theorem outsAt_A (c : Dev nD) (t : Fin cfg1.N) (h0 : t.val % 4 = 0) (h1 : ¬t.val % 4 = 3) :
    outsAt V c t.val t.isLt = (outA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t), smaxA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t), snormA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t), saccA c (grid1.coords t) (ms0 t) (hs0 t) (ms1 t) (hs1 t) (ms2 t) (hs2 t) (ms3 t) (hs3 t) scMax (Memref.isWhole_whole _) scNorm (Memref.isWhole_whole _) scAcc (Memref.isWhole_whole _) ((hcondReset t).mpr h0) (fun h => h1 ((hcondLast t).mp h)) (ablk V c 0 t) (ablk V c 1 t) (ablk V c 2 t)) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (outB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, smaxB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, snormB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, saccB c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) (fun h => h1 ((hcondLast t).mp h)) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (outC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, smaxC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, snormC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, saccC c (grid1.coords t) (ms0 t) (hs0 t) (ms1 t) (hs1 t) (ms2 t) (hs2 t) (ms3 t) (hs3 t) scMax (Memref.isWhole_whole _) scNorm (Memref.isWhole_whole _) scAcc (Memref.isWhole_whole _) (fun h => h0 ((hcondReset t).mp h)) ((hcondLast t).mpr h1) (ablk V c 0 t) (ablk V c 1 t) (ablk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before position `n`: at the first point the class's invariant (every scratch at anything); afterwards the other
    region's staging buffers at anything, each scratch at what the point before left, the generator register at some state. -/
def PhiS (c : Dev nD) : (n : ℕ) → n ≤ cfg1.N → sProp 𝕄
  | 0, _ => Pipeline.ΦA spec1 c
  | n + 1, hn => iprop(iprop(otherStg c cc0_stg0_0 ∗ otherStg c cc0_stg0_1 ∗ otherStg c cc0_stg1_0 ∗ otherStg c cc0_stg2_0 ∗ otherStg c cc0_stg3_0 ∗ otherStg c cc0_stg3_1
      ∗ owns (c : Thread nD τ) scMax fullShare (outsAt V c n hn).2.1 ∗ owns (c : Thread nD τ) scNorm fullShare (outsAt V c n hn).2.2.1 ∗ owns (c : Thread nD τ) scAcc fullShare (outsAt V c n hn).2.2.2)
    ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherStg c cc0_stg0_0 ∗ otherStg c cc0_stg0_1 ∗ otherStg c cc0_stg1_0 ∗ otherStg c cc0_stg2_0 ∗ otherStg c cc0_stg3_0 ∗ otherStg c cc0_stg3_1
      ∗ owns (c : Thread nD τ) scMax fullShare (outsAt V c n hn).2.1 ∗ owns (c : Thread nD τ) scNorm fullShare (outsAt V c n hn).2.2.1 ∗ owns (c : Thread nD τ) scAcc fullShare (outsAt V c n hn).2.2.2)
    ∗ (∃ r, prngReg c r)) := rfl

theorem PhiS_pos (c : Dev nD) (n : ℕ) (h : n ≤ cfg1.N) (hz : n ≠ 0) :
    PhiS V c n h = iprop(iprop(otherStg c cc0_stg0_0 ∗ otherStg c cc0_stg0_1 ∗ otherStg c cc0_stg1_0 ∗ otherStg c cc0_stg2_0 ∗ otherStg c cc0_stg3_0 ∗ otherStg c cc0_stg3_1
      ∗ owns (c : Thread nD τ) scMax fullShare (outsAt V c (n - 1) (by omega)).2.1 ∗ owns (c : Thread nD τ) scNorm fullShare (outsAt V c (n - 1) (by omega)).2.2.1 ∗ owns (c : Thread nD τ) scAcc fullShare (outsAt V c (n - 1) (by omega)).2.2.2)
    ∗ (∃ r, prngReg c r)) := by
  cases n with
  | zero => exact absurd rfl hz
  | succ n => rfl

/-! ## The region's proof data -/

def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => (outsAt V c t.val t.isLt).1
  Φ t := PhiS V c t.val (Nat.le_of_lt_succ t.isLt)
  q _ := fullShare
  owed _ := 0

theorem aA_eq (c : Dev nD) (w : Fin cfg1.W) : (adat V c).A w = V c (Pipeline.arrRef spec1 w) := by
  dsimp only [adat]
theorem PhiS_castSucc (c : Dev nD) (t : Fin cfg1.N) :
    (adat V c).Φ t.castSucc = PhiS V c t.val (Nat.le_of_lt t.isLt) := by
  dsimp only [adat]; simp only [Fin.coe_castSucc]
theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = (outsAt V c t.val t.isLt).1 := by dsimp only [adat]
theorem abefore0 (c : Dev nD) (t : Fin cfg1.N) (d) : (adat V c).before 0 t d = ablk V c 0 t :=
  abefore0_of V (adat V c) (aA_eq V c 0) (aafter0 V c) t d
theorem abefore1 (c : Dev nD) (t : Fin cfg1.N) (d) : (adat V c).before 1 t d = ablk V c 1 t :=
  abefore1_of V (adat V c) (aA_eq V c 1) (aafter1 V c) t d
theorem abefore2 (c : Dev nD) (t : Fin cfg1.N) (d) : (adat V c).before 2 t d = ablk V c 2 t :=
  abefore2_of V (adat V c) (aA_eq V c 2) (aafter2 V c) t d

/-! ## The body obligation, at a generic point -/

def abodyPre (c : Dev nD) (t : Fin cfg1.N) : sProp 𝕄 :=
  iprop((adat V c).Φ t.castSucc ∗ (adat V c).owesAt () t.castSucc
    ∗ (∃ d, owns (c : Thread nD τ) (ms0 t) fullShare ((adat V c).before 0 t d))
    ∗ (∃ d, owns (c : Thread nD τ) (ms1 t) fullShare ((adat V c).before 1 t d))
    ∗ (∃ d, owns (c : Thread nD τ) (ms2 t) fullShare ((adat V c).before 2 t d))
    ∗ (∃ d, owns (c : Thread nD τ) (ms3 t) fullShare ((adat V c).before 3 t d)))

def abodyPost (c : Dev nD) (t : Fin cfg1.N) : sProp 𝕄 :=
  iprop((adat V c).Φ t.succ ∗ (adat V c).owesAt () t.succ
    ∗ (adat V c).leavesExact 0 t ∗ (adat V c).leavesExact 1 t ∗ (adat V c).leavesExact 2 t ∗ (adat V c).leavesExact 3 t)

set_option maxHeartbeats 8000000 in
/-- The body at any point: the inputs' memrefs hold their blocks; the closed forms say which case the point is in; the
    invariant hands the body the scratch at what the point before left (at anything at the first point) and takes it
    back at this point's contents; the output's buffer is handed back untouched where the window is idle. -/
theorem asound_body (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore0, abefore1, abefore2]
  rw [show (adat V c).owesAt () t.succ = (adat V c).owesAt () t.castSucc from rfl]
  rw [show (adat V c).Φ t.succ = PhiS V c (t.val + 1) t.isLt from rfl, PhiS_succ]
  have hN : t.val < 64 := lt_of_lt_of_eq t.isLt (show cfg1.N = 64 from N_1)
  rw [show (adat V c).leavesExact 0 t = owns (c : Thread nD τ) (ms0 t) fullShare ((adat V c).after 0 t) from by
      unfold Dat.leavesExact; rw [aliveAt0 t], aafter0]
  rw [show (adat V c).leavesExact 1 t = owns (c : Thread nD τ) (ms1 t) fullShare ((adat V c).after 1 t) from by
      unfold Dat.leavesExact; rw [aliveAt1 t], aafter1]
  rw [show (adat V c).leavesExact 2 t = owns (c : Thread nD τ) (ms2 t) fullShare ((adat V c).after 2 t) from by
      unfold Dat.leavesExact; rw [aliveAt2 t], aafter2]
  by_cases h0 : t.val % 4 = 0
  · have h1 : ¬t.val % 4 = 3 := by omega
    rw [Dat.leavesExact_idle (adat V c) 3 t (aidleAt3 t (fun h => h1 ((hcondLast t).mp h))) (anoFlush3 t (fun h => h1 ((hcondLast t).mp h)))]
    rw [outsAt_A V c t h0 h1]
    unfold smaxA snormA saccA; (try dsimp only)
    by_cases hz : t.val = 0
    · rw [PhiS_castSucc V c t, PhiS_zero V c _ _ hz, PhiA1_eq]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunA c (grid1.coords t) _ _ _ _ _ _ _ _ _ _ _ _ _ _ ((hcondReset t).mpr h0) (fun h => h1 ((hcondLast t).mp h)) (ablk V c 0 t) (ablk V c 1 t) (ablk V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxA c _ _ _ _ _ _ _ _ _ _ _ _ _ _ _ _ _ _ _ _)
          isplitl [HS1]
          · unfold owns; iexists _; isplitr
            swap; · iexact HS1
            ipureintro; exact View.read_writes_of_cover _ _ _ _ _ (covNormA c _ _ _ _ _ _ _ _ _ _ _ _ _ _ _ _ _ _ _ _)
          unfold owns; iexists _; isplitr
          swap; · iexact HS2
          ipureintro; exact View.read_writes_of_cover _ _ _ _ _ (covAccA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunA c (grid1.coords t) _ _ _ _ _ _ _ _ _ _ _ _ _ _ ((hcondReset t).mpr h0) (fun h => h1 ((hcondLast t).mp h)) (ablk V c 0 t) (ablk V c 1 t) (ablk V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxA c _ _ _ _ _ _ _ _ _ _ _ _ _ _ _ _ _ _ _ _)
          isplitl [HS1]
          · unfold owns; iexists _; isplitr
            swap; · iexact HS1
            ipureintro; exact View.read_writes_of_cover _ _ _ _ _ (covNormA c _ _ _ _ _ _ _ _ _ _ _ _ _ _ _ _ _ _ _ _)
          unfold owns; iexists _; isplitr
          swap; · iexact HS2
          ipureintro; exact View.read_writes_of_cover _ _ _ _ _ (covAccA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (adat V c).leavesExact 3 t = owns (c : Thread nD τ) (ms3 t) fullShare ((adat V c).after 3 t) from by
        unfold Dat.leavesExact; rw [aliveAt3 t ((hcondLast t).mpr h1)], aafter3]
      rw [outsAt_C V c t h0 h1]
      unfold outC smaxC snormC saccC; (try dsimp only)
      rw [PhiS_castSucc V c t, PhiS_pos V c _ _ hz]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunC c (grid1.coords t) _ _ _ _ _ _ _ _ _ _ _ _ _ _ (fun h => h0 ((hcondReset t).mp h)) ((hcondLast t).mpr h1) (ablk V c 0 t) (ablk V c 1 t) (ablk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxC c _ _ _ _ _ _ _ _ _ _ _ _ _ _ _ _ _ _ _ _ _ _ _)
          isplitl [HS1]
          · unfold owns; iexists _; isplitr
            swap; · iexact HS1
            ipureintro; exact View.read_writes_of_cover _ _ _ _ _ (covNormC c _ _ _ _ _ _ _ _ _ _ _ _ _ _ _ _ _ _ _ _ _ _ _)
          unfold owns; iexists _; isplitr
          swap; · iexact HS2
          ipureintro; exact View.read_writes_of_cover _ _ _ _ _ (covAccC c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covOutC c _ _ _ _ _ _ _ _ _ _ _ _ _ _ _ _ _ _ _ _ _ _ _)
    · rw [Dat.leavesExact_idle (adat V c) 3 t (aidleAt3 t (fun h => h1 ((hcondLast t).mp h))) (anoFlush3 t (fun h => h1 ((hcondLast t).mp h)))]
      rw [outsAt_B V c t h0 h1]
      unfold smaxB snormB saccB; (try dsimp only)
      rw [PhiS_castSucc V c t, PhiS_pos V c _ _ hz]
      iintro ⟨⟨⟨G0, G1, G2, G3, G4, G5, HS0, HS1, HS2⟩, Hg⟩, Ho, ⟨%d0, H0⟩, ⟨%d1, H1⟩, ⟨%d2, H2⟩, ⟨%d3, H3⟩⟩
      iapply ((attnRunB c (grid1.coords t) _ _ _ _ _ _ _ _ _ _ _ _ _ _ (fun h => h0 ((hcondReset t).mp h)) (fun h => h1 ((hcondLast t).mp h)) (ablk V c 0 t) (ablk V c 1 t) (ablk V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [G0 G1 G2 G3 G4 G5 HS0 HS1 HS2 Hg]
      · isplitl [G0 G1 G2 G3 G4 G5 HS0 HS1 HS2]
        · skip
          isplitl [G0]; · iexact G0
          isplitl [G1]; · iexact G1
          isplitl [G2]; · iexact G2
          isplitl [G3]; · iexact G3
          isplitl [G4]; · iexact G4
          isplitl [G5]; · iexact G5
          isplitl [HS0]
          · unfold owns; iexists _; isplitr
            swap; · iexact HS0
            ipureintro; exact View.read_writes_of_cover _ _ _ _ _ (covMaxB c _ _ _ _ _ _ _ _ _ _ _ _ _ _ _ _ _ _ _ _ _ _ _)
          isplitl [HS1]
          · unfold owns; iexists _; isplitr
            swap; · iexact HS1
            ipureintro; exact View.read_writes_of_cover _ _ _ _ _ (covNormB c _ _ _ _ _ _ _ _ _ _ _ _ _ _ _ _ _ _ _ _ _ _ _)
          unfold owns; iexists _; isplitr
          swap; · iexact HS2
          ipureintro; exact View.read_writes_of_cover _ _ _ _ _ (covAccB c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem abody_obligation (c : Dev nD) : BodyObligation (adat (F := F) V c) (defs₀ (F := F)) Variants.none () Set.univ := fun t => by
  rw [bigSep_W1, bigSep_W1]
  exact asound_body V c t

/-- What the launch hands the region is the invariant before the first point. -/
theorem ahin (c : Dev nD) : Pipeline.ΦA spec1 c ⊢ (adat V c).Φ 0 := by
  rw [show (adat V c).Φ 0 = PhiS V c 0 (Nat.zero_le _) from rfl, PhiS_zero V c 0 _ rfl]
  try exact Idealize.SL.BI.Entails.refl _

/-- After any point the invariant gives the class's back: the scratch's named contents are forgotten. -/
theorem aPhi_out (c : Dev nD) (t : Fin (cfg1.N + 1)) (ht : t.val ≠ 0) : (adat V c).Φ t ⊢ Pipeline.ΦA spec1 c := by
  rw [show (adat V c).Φ t = PhiS V c t.val (Nat.le_of_lt_succ t.isLt) from rfl, PhiS_pos V c _ _ ht, PhiA1_eq]
  iintro ⟨⟨G0, G1, G2, G3, G4, G5, HS0, HS1, HS2⟩, Hg⟩
  isplitl [G0 G1 G2 G3 G4 G5 HS0 HS1 HS2]
  · skip
    isplitl [G0]; · iexact G0
    isplitl [G1]; · iexact G1
    isplitl [G2]; · iexact G2
    isplitl [G3]; · iexact G3
    isplitl [G4]; · iexact G4
    isplitl [G5]; · iexact G5
    isplitl [HS0]; · iexists _; iexact HS0
    isplitl [HS1]; · iexists _; iexact HS1
    iexists _; iexact HS2
  iexact Hg

theorem ahout (c : Dev nD) : (adat V c).Φ (Fin.last cfg1.N) ⊢ Pipeline.ΦA spec1 c :=
  aPhi_out V c _ (by rw [Fin.val_last]; have : cfg1.N = 64 := N_1; omega)

end Cert.KernelIdeal.Frame

end
-- ==== Proof.KernelIdeal.Run.lean ====
/-
  The run of the whole program: host operations, the projection region, host operations, the attention region.

  Between two items every unscoped buffer of the core holds named contents: the launch memory; then what the first
  stretch of host operations computes from it; then the same with the projection region's arrays at what its
  write-backs leave; then what the second stretch computes from that; then the same with the attention region's arrays
  at what its write-backs leave. Every weakly fair execution terminates in a memory holding exactly those last contents.
-/
import proofs.«105625_j35124242546827_2_alg».proof.Proof.KernelIdeal.Projection
import proofs.«105625_j35124242546827_2_alg».proof.Proof.KernelIdeal.Attention
import proofs.«105625_j35124242546827_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (pdat (V1 m ρ) c).arrAt w cfg0.N
theorem W2_arr (c : Dev nD) (w : Fin cfg0.W) :
    W2 m ρ c (Proc.devRef .tc (Pipeline.arrRef spec0 w)) = (pdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (pdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (adat (V3 m ρ) c).arrAt w cfg1.N
theorem W4_arr (c : Dev nD) (w : Fin cfg1.W) :
    W4 m ρ c (Proc.devRef .tc (Pipeline.arrRef spec1 w)) = (adat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (adat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that neither stretch of host operations writes and that is no array of either region ends as launched. -/
theorem W4_of_untouched (c : Dev nD) (r : Ref sig .tc) (h1 : ∀ w, Pipeline.arrRef spec1 w ≠ r) (h1' : r ∉ (hostOps1_W : List (Ref sig .tc)))
    (h0 : ∀ w, Pipeline.arrRef spec0 w ≠ r) (h0' : r ∉ (hostOps0_W : List (Ref sig .tc))) :
    W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := StableHlo.after_of_writes_sub hostOps1 _ hostOps1_writes h1'
    _ = W1 m ρ c (Proc.devRef .tc r) := W2_of_ne m ρ c r h0
    _ = W0 m ρ c (Proc.devRef .tc r) := StableHlo.after_of_writes_sub hostOps0 _ hostOps0_writes h0'
    _ = m ((c : Thread nD τ).loc r) := rfl

/-! ## The proof data family and what rides along -/

abbrev adm : (p : Fin 2) → (pcfgs (F := F) p).Adm := fun p => (cfgs p).toPCfg_adm
/-- Both regions' proof data, each at its region's entry contents: a literal match on the region's number. -/
def pdats : (p : Fin 2) → (c : Dev nD) → Dat τ (Elt F) Unit ℕ (UR sig nD τ) ℕ (Pipeline.pin (pcfgs (F := F)) adm p) c
  | ⟨0, _⟩ => fun c => pdat (V1 m ρ) c
  | ⟨1, _⟩ => fun c => adat (V3 m ρ) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at the contents before it, left with them at the
    contents after it. Its arrays are split out of the unscoped buffers on entry and put back at their final contents
    on exit; the generator register goes into the invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (pbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its arrays are split out of the unscoped buffers on entry and put back at their final contents
    on exit; the generator register goes into the invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (abody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (adat (V3 m ρ) c).Φ 0 from rfl]
    have h := ahin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (adat (V3 m ρ) c).Φ (Fin.last _) from rfl]
    have h := ahout (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, in a memory
    whose every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Frame

end
-- ==== Proof.KernelIdeal.HostGlue.lean ====
/-
  The arrays each of the two kernel launches is entered with, as functions of the program's arguments, entry by entry.

  Before the first launch the host prepares three arrays.
    * The input rows: the [8, 2048, 1024] input reshaped to [16384, 1024]. A reshape keeps the row-major position, and
      (n·2048 + s)·1024 + d is the position of (n, s, d), so row n·2048 + s, column d holds the input at (n, s, d).
    * The packed weight [1024, 3072]: the query weight times the constant 2^(−5) = 1/32, the key weight and the value
      weight, each transposed and converted to the narrower float type (the identity on the extended reals), laid side by
      side along the columns. Column e of the first band at row d is Wq[e, d]·(1/32), column 1024 + e is Wk[e, d],
      column 2048 + e is Wv[e, d]: a concatenation reads the piece whose span holds the column, at the column less the
      widths before it, and a transpose swaps the two coordinates.
    * The packed bias [1, 3072]: the query bias times the same constant, the key bias and the value bias, each reshaped
      to one row, laid side by side: column e is bq[e]·(1/32), column 1024 + e is bk[e], column 2048 + e is bv[e].
  Between the launches the host cuts the first launch's [16384, 3072] result into its three column bands of width 1024
  and regroups the 16384 rows of each as [8, 2048]: entry (n, s, e) of the band starting at column o is the result at
  row n·2048 + s, column o + e.
-/
import proofs.«105625_j35124242546827_2_alg».proof.Proof.KernelIdeal.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Glue

open Cert.KernelIdeal Cert.KernelIdeal.Gen Cert.KernelIdeal.Frame Idealize.ShloMosaic Idealize.ShloMosaic.ValueIdx Idealize.ShloMosaic.TcCoe Idealize.SL.Sem
open Idealize.ShloMosaic.StableHlo

variable (m : (ℓ : Loc nD τ sig) → Buf (Elt Ideal) ℓ) (ρ : Dev nD → PrngReg) (c : Dev nD)

section Nary3
variable {τ' : Topo} {sig' : RefSig} {Val : EltTy → Type}
/-- A three-operand operation's result, each operand's contents at its own reference. -/
theorem nary3_result {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end Nary3

/-- The host results by rewriting, with the three-operand form tried before the general one. -/
macro "glue_results" : tactic =>
  `(tactic| (simp only [after_cons, after_nil]
             repeat (first
               | rw [nullary_result] | rw [unary_result] | rw [binary_result]
               | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Nary3'
variable {τ' : Topo} {sig' : RefSig} {Val : EltTy → Type}
theorem nary3_result' {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
end Nary3'

/-- The host results by one simplification pass, with the three-operand form in place of the general one. -/
macro "glue_results_simp" : tactic =>
  `(tactic| (simp (disch := decide) only [after_cons, after_nil,
      nullary_result', unary_result', binary_result', reshape_result', nary3_result',
      nullary_result_ne', unary_result_ne', binary_result_ne', reshape_result_ne', nary_result_ne']))

/-! ## Before the first launch -/

/-- The seven arguments as functions of an index. -/
abbrev arg0 : S8x2048x1024.Idx → EReal := m ((c : Thread nD τ).loc main_arg0)
abbrev arg1 : S1024x1024.Idx → EReal := m ((c : Thread nD τ).loc main_arg1)
abbrev arg2 : S1024.Idx → EReal := m ((c : Thread nD τ).loc main_arg2)
abbrev arg3 : S1024x1024.Idx → EReal := m ((c : Thread nD τ).loc main_arg3)
abbrev arg4 : S1024.Idx → EReal := m ((c : Thread nD τ).loc main_arg4)
abbrev arg5 : S1024x1024.Idx → EReal := m ((c : Thread nD τ).loc main_arg5)
abbrev arg6 : S1024.Idx → EReal := m ((c : Thread nD τ).loc main_arg6)

/-- The input rows: the [8, 2048, 1024] argument reshaped to [16384, 1024]. -/
theorem v0_eq :
    (V1 m ρ c main_v0 : S16384x1024.Idx → EReal)
      = shapeCast S16384x1024 (arg0 m c) shapeCasts_S8x2048x1024_S16384x1024 := by
  show StableHlo.after hostOps0 (W0 m ρ c) (Proc.devRef .tc main_v0) = _
  after_results
  rfl

theorem glue_x (n : Fin 8) (s : Fin 2048) (d : Fin 1024) :
    (V1 m ρ c main_v0 : S16384x1024.Idx → EReal) (ix2 (⟨n.val * 2048 + s.val, by omega⟩ : Fin 16384) d)
      = (arg0 m c) (ix3 n s d) := by
  rw [v0_eq]
  refine shapeCast_apply (s := S8x2048x1024) (t := S16384x1024) _ _ _ _ ?_
  rw [Shape.rowMajor_val_three, Shape.rowMajor_val_two]
  rfl

/-- The scaled, transposed query weight. -/
abbrev wqT : (⟨S1024x1024, .bf16⟩ : BufTy).Contents (Elt Ideal) :=
  truncf (F := Ideal) .bf16 (transpose S1024x1024 [1, 0]
    (mulf (F := Ideal) (m ((c : Thread nD τ).loc main_arg1) : (⟨S1024x1024, .f32⟩ : BufTy).Contents (Elt Ideal))
      (broadcastInDim S1024x1024 ![] bcast_S_S1024x1024 (constant (F := Ideal) S_ .f32 0x3D000000#32)))
    transposes_S1024x1024_S1024x1024_1_0) bitsLt_bf16_f32
/-- The transposed key weight. -/
abbrev wkT : (⟨S1024x1024, .bf16⟩ : BufTy).Contents (Elt Ideal) :=
  truncf (F := Ideal) .bf16 (transpose S1024x1024 [1, 0] (m ((c : Thread nD τ).loc main_arg3) : (⟨S1024x1024, .f32⟩ : BufTy).Contents (Elt Ideal))
    transposes_S1024x1024_S1024x1024_1_0) bitsLt_bf16_f32
/-- The transposed value weight. -/
abbrev wvT : (⟨S1024x1024, .bf16⟩ : BufTy).Contents (Elt Ideal) :=
  truncf (F := Ideal) .bf16 (transpose S1024x1024 [1, 0] (m ((c : Thread nD τ).loc main_arg5) : (⟨S1024x1024, .f32⟩ : BufTy).Contents (Elt Ideal))
    transposes_S1024x1024_S1024x1024_1_0) bitsLt_bf16_f32

/-- The packed weight: the three transposed weights side by side along the columns. -/
theorem v11_eq :
    (V1 m ρ c main_v11 : S1024x3072.Idx → EReal)
      = concatenate S1024x3072 1 [⟨S1024x1024, wqT m c⟩, ⟨S1024x1024, wkT m c⟩, ⟨S1024x1024, wvT m c⟩]
          concatenates_S1024x1024_S1024x1024_S1024x1024_S1024x3072_d1 := by
  show StableHlo.after hostOps0 (W0 m ρ c) (Proc.devRef .tc main_v11) = _
  glue_results
  rfl

theorem glue_w_q (d e : Fin 1024) :
    (V1 m ρ c main_v11 : S1024x3072.Idx → EReal) (ix2 d (⟨e.val, by omega⟩ : Fin 3072))
      = arg1 m c (ix2 e d) * Ideal.ofBits .f32 0x3D000000#32 := by
  rw [v11_eq]
  refine (concatenate_apply_piece (t := S1024x3072) 1 _ _ _ 0 (by simp) S1024x1024 (wqT m c) rfl rfl 0 rfl (ix2 d e) ?_ (Nat.zero_add _)).trans ?_
  · intro b hb
    match b with
    | ⟨0, _⟩ => rfl
    | ⟨1, _⟩ => exact absurd rfl hb
  · dsimp only [wqT]
    rw [truncf_apply]
    refine (transpose_apply (s := S1024x1024) (t := S1024x1024) [1, 0] _ _ (ix2 d e) (ix2 e d) ?_).trans ?_
    · intro b
      match b with
      | ⟨0, _⟩ => rfl
      | ⟨1, _⟩ => rfl
    · rw [mulf_apply, broadcastInDim_apply _ bcast_S_S1024x1024 _ (ix2 e d) ix0 (fun a => a.elim0), constant_apply]

theorem glue_w_k (d e : Fin 1024) :
    (V1 m ρ c main_v11 : S1024x3072.Idx → EReal) (ix2 d (⟨1024 + e.val, by omega⟩ : Fin 3072))
      = arg3 m c (ix2 e d) := by
  rw [v11_eq]
  refine (concatenate_apply_piece (t := S1024x3072) 1 _ _ _ 1 (by simp) S1024x1024 (wkT m c) rfl rfl 1024 rfl (ix2 d e) ?_ rfl).trans ?_
  · intro b hb
    match b with
    | ⟨0, _⟩ => rfl
    | ⟨1, _⟩ => exact absurd rfl hb
  · dsimp only [wkT]
    rw [truncf_apply]
    refine transpose_apply (s := S1024x1024) (t := S1024x1024) [1, 0] _ _ (ix2 d e) (ix2 e d) ?_
    intro b
    match b with
    | ⟨0, _⟩ => rfl
    | ⟨1, _⟩ => rfl

theorem glue_w_v (d e : Fin 1024) :
    (V1 m ρ c main_v11 : S1024x3072.Idx → EReal) (ix2 d (⟨2048 + e.val, by omega⟩ : Fin 3072))
      = arg5 m c (ix2 e d) := by
  rw [v11_eq]
  refine (concatenate_apply_piece (t := S1024x3072) 1 _ _ _ 2 (by simp) S1024x1024 (wvT m c) rfl rfl 2048 rfl (ix2 d e) ?_ rfl).trans ?_
  · intro b hb
    match b with
    | ⟨0, _⟩ => rfl
    | ⟨1, _⟩ => exact absurd rfl hb
  · dsimp only [wvT]
    rw [truncf_apply]
    refine transpose_apply (s := S1024x1024) (t := S1024x1024) [1, 0] _ _ (ix2 d e) (ix2 e d) ?_
    intro b
    match b with
    | ⟨0, _⟩ => rfl
    | ⟨1, _⟩ => rfl

/-- The scaled query bias as a one-row array. -/
abbrev bqR : (⟨S1x1024, .f32⟩ : BufTy).Contents (Elt Ideal) :=
  shapeCast S1x1024 (mulf (F := Ideal) (m ((c : Thread nD τ).loc main_arg2) : (⟨S1024, .f32⟩ : BufTy).Contents (Elt Ideal))
      (broadcastInDim S1024 ![] bcast_S_S1024 (constant (F := Ideal) S_ .f32 0x3D000000#32))) shapeCasts_S1024_S1x1024
/-- The key bias as a one-row array. -/
abbrev bkR : (⟨S1x1024, .f32⟩ : BufTy).Contents (Elt Ideal) :=
  shapeCast S1x1024 (m ((c : Thread nD τ).loc main_arg4) : (⟨S1024, .f32⟩ : BufTy).Contents (Elt Ideal)) shapeCasts_S1024_S1x1024
/-- The value bias as a one-row array. -/
abbrev bvR : (⟨S1x1024, .f32⟩ : BufTy).Contents (Elt Ideal) :=
  shapeCast S1x1024 (m ((c : Thread nD τ).loc main_arg6) : (⟨S1024, .f32⟩ : BufTy).Contents (Elt Ideal)) shapeCasts_S1024_S1x1024

/-- The packed bias: the three one-row biases side by side. -/
theorem v15_eq :
    (V1 m ρ c main_v15 : S1x3072.Idx → EReal)
      = concatenate S1x3072 1 [⟨S1x1024, bqR m c⟩, ⟨S1x1024, bkR m c⟩, ⟨S1x1024, bvR m c⟩]
          concatenates_S1x1024_S1x1024_S1x1024_S1x3072_d1 := by
  show StableHlo.after hostOps0 (W0 m ρ c) (Proc.devRef .tc main_v15) = _
  glue_results_simp
  rfl

/-- A vector of length 1024 reshaped to one row reads, at (0, e), the vector at e. -/
theorem row_apply {α : Type} (x : S1024.Idx → α) (e : Fin 1024) :
    shapeCast S1x1024 x shapeCasts_S1024_S1x1024 (ix2 (0 : Fin 1) e) = x (ix1 e) := by
  refine shapeCast_apply (s := S1024) (t := S1x1024) _ _ _ _ ?_
  rw [Shape.rowMajor_val_one, Shape.rowMajor_val_two]
  show e.val = 0 * 1024 + e.val
  omega

theorem glue_b_q (e : Fin 1024) :
    (V1 m ρ c main_v15 : S1x3072.Idx → EReal) (ix2 (0 : Fin 1) (⟨e.val, by omega⟩ : Fin 3072))
      = arg2 m c (ix1 e) * Ideal.ofBits .f32 0x3D000000#32 := by
  rw [v15_eq]
  refine (concatenate_apply_piece (t := S1x3072) 1 _ _ _ 0 (by simp) S1x1024 (bqR m c) rfl rfl 0 rfl (ix2 (0 : Fin 1) e) ?_ (Nat.zero_add _)).trans ?_
  · intro b hb
    match b with
    | ⟨0, _⟩ => rfl
    | ⟨1, _⟩ => exact absurd rfl hb
  · dsimp only [bqR]
    rw [row_apply, mulf_apply, broadcastInDim_apply _ bcast_S_S1024 _ (ix1 e) ix0 (fun a => a.elim0), constant_apply]

theorem glue_b_k (e : Fin 1024) :
    (V1 m ρ c main_v15 : S1x3072.Idx → EReal) (ix2 (0 : Fin 1) (⟨1024 + e.val, by omega⟩ : Fin 3072))
      = arg4 m c (ix1 e) := by
  rw [v15_eq]
  refine (concatenate_apply_piece (t := S1x3072) 1 _ _ _ 1 (by simp) S1x1024 (bkR m c) rfl rfl 1024 rfl (ix2 (0 : Fin 1) e) ?_ rfl).trans ?_
  · intro b hb
    match b with
    | ⟨0, _⟩ => rfl
    | ⟨1, _⟩ => exact absurd rfl hb
  · dsimp only [bkR]
    rw [row_apply]

theorem glue_b_v (e : Fin 1024) :
    (V1 m ρ c main_v15 : S1x3072.Idx → EReal) (ix2 (0 : Fin 1) (⟨2048 + e.val, by omega⟩ : Fin 3072))
      = arg6 m c (ix1 e) := by
  rw [v15_eq]
  refine (concatenate_apply_piece (t := S1x3072) 1 _ _ _ 2 (by simp) S1x1024 (bvR m c) rfl rfl 2048 rfl (ix2 (0 : Fin 1) e) ?_ rfl).trans ?_
  · intro b hb
    match b with
    | ⟨0, _⟩ => rfl
    | ⟨1, _⟩ => exact absurd rfl hb
  · dsimp only [bvR]
    rw [row_apply]

/-- The word 0x3D000000 is 2^23 · 2^(122 − 127 − 23) = 2^(−5) = 1/32. -/
theorem lit_scale : Ideal.ofBits .f32 0x3D000000#32 = (((1 / 32 : ℝ)) : EReal) := by
  simp [Ideal.ofBits, Ideal.ieee]
  norm_num
  rw [← EReal.coe_mul]
  norm_num

/-! ## Between the launches -/

/-- One column band of the packed projection, its rows regrouped as [8, 2048]. -/
theorem v18_eq :
    (V3 m ρ c main_v18 : S8x2048x1024.Idx → EReal)
      = shapeCast S8x2048x1024 (extractStridedSlice S16384x1024 ![0, 0] (V2 m ρ c main_v16 : S16384x3072.Idx → EReal) slices_S16384x3072_S16384x1024_0_0)
          shapeCasts_S16384x1024_S8x2048x1024 := by
  show StableHlo.after hostOps1 (W2 m ρ c) (Proc.devRef .tc main_v18) = _
  after_results
  rfl

theorem glue_q (n : Fin 8) (s : Fin 2048) (e : Fin 1024) :
    (V3 m ρ c main_v18 : S8x2048x1024.Idx → EReal) (ix3 n s e)
      = (V2 m ρ c main_v16 : S16384x3072.Idx → EReal) (ix2 (⟨n.val * 2048 + s.val, by omega⟩ : Fin 16384) (⟨e.val, by omega⟩ : Fin 3072)) := by
  rw [v18_eq]
  refine (shapeCast_apply (s := S16384x1024) (t := S8x2048x1024) _ _ (ix3 n s e)
    (ix2 (⟨n.val * 2048 + s.val, by omega⟩ : Fin 16384) e) ?_).trans ?_
  · rw [Shape.rowMajor_val_two, Shape.rowMajor_val_three]
    rfl
  · refine extractStridedSlice_apply (s := S16384x3072) (t := S16384x1024) ![0, 0] _ _ _
      (ix2 (⟨n.val * 2048 + s.val, by omega⟩ : Fin 16384) (⟨e.val, by omega⟩ : Fin 3072)) ?_
    intro a
    match a with
    | ⟨0, _⟩ => exact (Nat.zero_add _).symm
    | ⟨1, _⟩ => exact (Nat.zero_add _).symm

/-- One column band of the packed projection, its rows regrouped as [8, 2048]. -/
theorem v20_eq :
    (V3 m ρ c main_v20 : S8x2048x1024.Idx → EReal)
      = shapeCast S8x2048x1024 (extractStridedSlice S16384x1024 ![0, 1024] (V2 m ρ c main_v16 : S16384x3072.Idx → EReal) slices_S16384x3072_S16384x1024_0_1024)
          shapeCasts_S16384x1024_S8x2048x1024 := by
  show StableHlo.after hostOps1 (W2 m ρ c) (Proc.devRef .tc main_v20) = _
  after_results
  rfl

theorem glue_k (n : Fin 8) (s : Fin 2048) (e : Fin 1024) :
    (V3 m ρ c main_v20 : S8x2048x1024.Idx → EReal) (ix3 n s e)
      = (V2 m ρ c main_v16 : S16384x3072.Idx → EReal) (ix2 (⟨n.val * 2048 + s.val, by omega⟩ : Fin 16384) (⟨1024 + e.val, by omega⟩ : Fin 3072)) := by
  rw [v20_eq]
  refine (shapeCast_apply (s := S16384x1024) (t := S8x2048x1024) _ _ (ix3 n s e)
    (ix2 (⟨n.val * 2048 + s.val, by omega⟩ : Fin 16384) e) ?_).trans ?_
  · rw [Shape.rowMajor_val_two, Shape.rowMajor_val_three]
    rfl
  · refine extractStridedSlice_apply (s := S16384x3072) (t := S16384x1024) ![0, 1024] _ _ _
      (ix2 (⟨n.val * 2048 + s.val, by omega⟩ : Fin 16384) (⟨1024 + e.val, by omega⟩ : Fin 3072)) ?_
    intro a
    match a with
    | ⟨0, _⟩ => exact (Nat.zero_add _).symm
    | ⟨1, _⟩ => exact rfl

/-- One column band of the packed projection, its rows regrouped as [8, 2048]. -/
theorem v22_eq :
    (V3 m ρ c main_v22 : S8x2048x1024.Idx → EReal)
      = shapeCast S8x2048x1024 (extractStridedSlice S16384x1024 ![0, 2048] (V2 m ρ c main_v16 : S16384x3072.Idx → EReal) slices_S16384x3072_S16384x1024_0_2048)
          shapeCasts_S16384x1024_S8x2048x1024 := by
  show StableHlo.after hostOps1 (W2 m ρ c) (Proc.devRef .tc main_v22) = _
  after_results
  rfl

theorem glue_v (n : Fin 8) (s : Fin 2048) (e : Fin 1024) :
    (V3 m ρ c main_v22 : S8x2048x1024.Idx → EReal) (ix3 n s e)
      = (V2 m ρ c main_v16 : S16384x3072.Idx → EReal) (ix2 (⟨n.val * 2048 + s.val, by omega⟩ : Fin 16384) (⟨2048 + e.val, by omega⟩ : Fin 3072)) := by
  rw [v22_eq]
  refine (shapeCast_apply (s := S16384x1024) (t := S8x2048x1024) _ _ (ix3 n s e)
    (ix2 (⟨n.val * 2048 + s.val, by omega⟩ : Fin 16384) e) ?_).trans ?_
  · rw [Shape.rowMajor_val_two, Shape.rowMajor_val_three]
    rfl
  · refine extractStridedSlice_apply (s := S16384x3072) (t := S16384x1024) ![0, 2048] _ _ _
      (ix2 (⟨n.val * 2048 + s.val, by omega⟩ : Fin 16384) (⟨2048 + e.val, by omega⟩ : Fin 3072)) ?_
    intro a
    match a with
    | ⟨0, _⟩ => exact (Nat.zero_add _).symm
    | ⟨1, _⟩ => exact rfl

end Cert.KernelIdeal.Glue
end
-- ==== Proof.LibOnlineSoftmaxDefs.lean ====
/-
  The softmax-weighted average of one row of scores, and the same quantity accumulated block by block.

  Dense form: with M the largest score, the average of the values v weighted by e^{s - M}, normalised by the sum of
  the weights. Block form: the scores arrive in J blocks of K; a state (running maximum, running normaliser, running
  weighted sum) starts at (−∞, 0, 0); each block raises the maximum, rescales the two sums by e^{old − new} and adds
  the block's weights and weighted values taken against the new maximum. Dividing the last weighted sum by the last
  normaliser gives the dense average: rescaling by e^{old − new} is what turns weights against the old maximum into
  weights against the new one, because e^{a}·e^{b} = e^{a+b}.
-/
import Idealize.ShloMosaic.PureOps.Ideal.Laws

noncomputable section

namespace Cert.Lib.OnlineSoftmax

open Idealize.ShloMosaic
open scoped BigOperators

section Dense

variable {ι : Type} [Fintype ι] [Nonempty ι]

/-- The largest of finitely many reals. -/
def rmax (s : ι → ℝ) : ℝ := Finset.univ.sup' Finset.univ_nonempty s

/-- The softmax-weighted average of `v` under scores `s`: Σ e^{sᵢ − max s}·vᵢ / Σ e^{sᵢ − max s}. -/
def softmaxAvg (s v : ι → ℝ) : ℝ :=
  (∑ i, Real.exp (s i - rmax s) * v i) / (∑ i, Real.exp (s i - rmax s))

end Dense

section Blocks

variable {K : ℕ}

/-- One block of the running form on the extended reals: the new maximum, the normaliser and the weighted sum, each
    old sum rescaled by e^{old maximum − new maximum} before the block's share is added. -/
def step (s v : Fin K → EReal) (st : EReal × EReal × EReal) : EReal × EReal × EReal :=
  (max st.1 (Finset.univ.fold max (⊥ : EReal) s),
   Ideal.exp (st.1 - max st.1 (Finset.univ.fold max (⊥ : EReal) s)) * st.2.1
     + ∑ c, Ideal.exp (s c - max st.1 (Finset.univ.fold max (⊥ : EReal) s)),
   Ideal.exp (st.1 - max st.1 (Finset.univ.fold max (⊥ : EReal) s)) * st.2.2
     + ∑ c, Ideal.exp (s c - max st.1 (Finset.univ.fold max (⊥ : EReal) s)) * v c)

/-- The state after the first `j` of `J` blocks, from (−∞, 0, 0). -/
def run {J : ℕ} (s v : Fin J → Fin K → EReal) : ℕ → EReal × EReal × EReal
  | 0 => (⊥, 0, 0)
  | j + 1 => if h : j < J then step (s ⟨j, h⟩) (v ⟨j, h⟩) (run s v j) else run s v j

end Blocks

end Cert.Lib.OnlineSoftmax

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibRows.lean ====
/-
  Row-wise reductions and the keepdims layout steps of a kernel body, read at an entry on the extended reals: a lane
  sum and a lane maximum of an [R, D] array at row p are the sum and the maximum (folded from the accumulator) over the
  row's D entries; a vector of length a cast to a column [a, 1] keeps its entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Rows

open Idealize.ShloMosaic Idealize.ShloMosaic.ValueIdx
open scoped BigOperators

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of row `p`: the sum of the row's entries. -/
theorem laneSum_apply {R D : ℕ} (v : FVec Ideal ⟨2, ![R, D]⟩ .f32) (hred : (⟨2, ![R, D]⟩ : Shape).Reduces [1] ⟨1, ![R]⟩)
    (p : Fin R) :
    multiReduction .add [1] ⟨1, ![R]⟩ v 0x00000000#32 hred (.inl rfl) rfl (ix1 p) = ∑ q : Fin D, v (ix2 p q) :=
  (Ideal.multiReduction_add_single v _ hred _ _ (ix1 p)).trans
    (Finset.sum_congr rfl fun q _ => congrArg v (funext fun a => Fin.ext (by
      match a with
      | ⟨0, _⟩ => rfl
      | ⟨1, _⟩ => rfl)))

/-- The lane maximum of row `p`: the maximum of the row's entries, folded from −∞. -/
theorem laneMax_apply {R D : ℕ} (v : FVec Ideal ⟨2, ![R, D]⟩ .f32) (hred : (⟨2, ![R, D]⟩ : Shape).Reduces [1] ⟨1, ![R]⟩)
    (p : Fin R) :
    multiReduction .maximumf [1] ⟨1, ![R]⟩ v 0xFF800000#32 hred (.inl rfl) rfl (ix1 p)
      = (Finset.univ : Finset (Fin D)).fold max (Ideal.ofBits .f32 0xFF800000#32) (fun q => v (ix2 p q)) :=
  (Ideal.multiReduction_maximumf_single v _ hred _ _ (ix1 p)).trans
    (congrArg (Finset.fold max _ · Finset.univ) (funext fun q => congrArg v (funext fun a => Fin.ext (by
      match a with
      | ⟨0, _⟩ => rfl
      | ⟨1, _⟩ => rfl))))

end Cert.Lib.Rows

end
-- ==== Proof.LibColumnBroadcast.lean ====
/-
  One column broadcast over many: an [a, 1] array broadcast to [a, b] reads, at (p, c), the operand's row p.
  (The row form, [1, b] to [a, b], is the library's; this is the same statement for the other axis.)
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast
-- ==== Proof.KernelIdeal.PayloadAt.lean ====
/-
  The kernel bodies' arithmetic read at an index, on the extended reals.

  The projection body: entry (p, j) of the stored block is the row p of the input block times column j of the weight,
  Σ_d x(p, d)·w(d, j), plus the bias b(0, j); the format changes and same-shape casts are the identity on extended reals,
  the matrix unit accumulating into zero is the plain sum, and the [1, N] → [M, N] broadcast reads row 0.

  The attention body, for one query row r of the staged query block and one output column e. The score of r against key
  row c is s_c = Σ_d q(0, r, d)·k(0, c, d) (both operands contracted along their last axis). With (m, l, a) the row's
  running maximum, normaliser and weighted sum, the body leaves
      m' = max(m, max_c s_c),   l' = e^{m − m'}·l + Σ_c e^{s_c − m'},   a' = e^{m − m'}·a + Σ_c e^{s_c − m'}·v(0, c, e),
  that is, one block of the running softmax at scores s and values v(0, ·, e); the lane maximum folds from −∞, the lane
  sum is the finite sum, a column [R, 1] broadcast over lanes reads its row, and the second matrix product is a plain
  one. At the first block the three are reset to −∞, 0 and 0; at the last the stored output is a'(r, e) / l'(r).
-/
import proofs.«105625_j35124242546827_2_alg».proof.Proof.Gen.KernelIdeal.Skeleton
import proofs.«105625_j35124242546827_2_alg».proof.Proof.LibOnlineSoftmaxDefs
import proofs.«105625_j35124242546827_2_alg».proof.Proof.LibPlainProduct
import proofs.«105625_j35124242546827_2_alg».proof.Proof.LibRows
import proofs.«105625_j35124242546827_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx Cert.Lib.OnlineSoftmax
open scoped BigOperators

/-! ### The projection body -/

/-- The projection payload at row `p`, column `j`: the row of the input block times the column of the weight, plus the
    bias of that column. -/
theorem proj_pay_apply (x0 : Vec Ideal S512x1024 .f32) (x1 : Vec Ideal S1024x3072 .bf16) (x2 : Vec Ideal S1x3072 .f32)
    (p : Fin 512) (j : Fin 3072) :
    k0_pay1 (F := Ideal) x0 x1 x2 (ix2 p j) = (∑ d : Fin 1024, x0 (ix2 p d) * x1 (ix2 d j)) + x2 (ix2 0 j) := by
  unfold k0_pay1
  simp only [shapeCast_self]
  refine (congrArg₂ (· + ·)
    (Cert.Lib.PlainProduct.matmul_zero_apply (d := dot_S512x1024_S1024x3072_S512x3072_1_0_0_1_n_n)
      ⟨rfl, rfl, rfl, rfl, rfl, rfl⟩ rfl rfl none (truncf FTy.bf16 x0 bitsLt_bf16_f32) x1 p j)
    (broadcastTo_1b_ab_apply x2 broadcasts_S1x3072_S512x3072 p j)).trans ?_
  rfl

/-! ### The attention body: the block scores -/

/-- The score of query row `r` against key row `c` of the staged blocks. -/
def blkScore (qb : Vec Ideal S1x1024x1024 .bf16) (kb : Vec Ideal S1x512x1024 .bf16) (r : Fin 1024) (c : Fin 512) : EReal :=
  ∑ d : Fin 1024, qb (ix3 0 r d) * kb (ix3 0 c d)

theorem score_lhs0 (j : S1024x512.Idx) (q : dot_S1024x1024_S512x1024_S1024x512_1_1_0_0_n_n.contr.Idx) :
    (dot_S1024x1024_S512x1024_S1024x512_1_1_0_0_n_n.lhsIdx j q 0).val = (j 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

theorem score_rhs0 (j : S1024x512.Idx) (q : dot_S1024x1024_S512x1024_S1024x512_1_1_0_0_n_n.contr.Idx) :
    (dot_S1024x1024_S512x1024_S1024x512_1_1_0_0_n_n.rhsIdx j q 0).val = (j 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The score payload at `(r, c)`: both operands are contracted along their second axis. -/
theorem score_pay_apply (qb : Vec Ideal S1x1024x1024 .bf16) (kb : Vec Ideal S1x512x1024 .bf16) (r : Fin 1024) (c : Fin 512) :
    k1_pay7 (F := Ideal) qb kb (ix2 r c) = blkScore qb kb r c := by
  unfold k1_pay7 blkScore
  refine (Ideal.matmul_constant_zero_apply dot_S1024x1024_S512x1024_S1024x512_1_1_0_0_n_n none _ _ (ix2 r c)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r c)
      ((contrEquiv1 dot_S1024x1024_S512x1024_S1024x512_1_1_0_0_n_n 1024 rfl rfl).symm k) = ix2 r k :=
    funext fun a => Fin.ext (by
      match a with
      | ⟨0, _⟩ => exact score_lhs0 _ _
      | ⟨1, _⟩ => exact (dot_S1024x1024_S512x1024_S1024x512_1_1_0_0_n_n.lhsIdx_val_of_single rfl _ _).trans hk)
  have er : dot_S1024x1024_S512x1024_S1024x512_1_1_0_0_n_n.rhsIdx (ix2 r c)
      ((contrEquiv1 dot_S1024x1024_S512x1024_S1024x512_1_1_0_0_n_n 1024 rfl rfl).symm k) = ix2 c k :=
    funext fun a => Fin.ext (by
      match a with
      | ⟨0, _⟩ => exact score_rhs0 _ _
      | ⟨1, _⟩ => exact (dot_S1024x1024_S512x1024_S1024x512_1_1_0_0_n_n.rhsIdx_val_of_single rfl _ _).trans hk)
  rw [el, er, shapeCast_1ab_ab_apply, shapeCast_1ab_ab_apply]

/-! ### The attention body: one block of the running softmax -/

/-- The lane maximum's accumulator pattern is −∞. -/
theorem ofBits_neg_inf_f32 : Ideal.ofBits .f32 0xFF800000#32 = ⊥ := by simp [Ideal.ofBits, Ideal.ieee]

/-- The new running maximum of row `r`: the old one against the largest block score, folded from −∞. -/
theorem max_pay_apply (qb : Vec Ideal S1x1024x1024 .bf16) (kb : Vec Ideal S1x512x1024 .bf16) (m : Vec Ideal S1024x1 .f32)
    (r : Fin 1024) :
    k1_pay8 (F := Ideal) qb kb m (ix2 r 0)
      = max (m (ix2 r 0)) ((Finset.univ : Finset (Fin 512)).fold max (⊥ : EReal) (fun c => blkScore qb kb r c)) := by
  unfold k1_pay8
  refine (maximumf_apply m _ (ix2 r 0)).trans ?_
  refine congrArg (max (m (ix2 r 0))) ?_
  rw [Cert.Lib.Rows.shapeCast_a_a1_apply, Cert.Lib.Rows.laneMax_apply, ofBits_neg_inf_f32]
  exact congrArg (fun f => Finset.fold max (⊥ : EReal) f (Finset.univ : Finset (Fin 512)))
    (funext fun c => score_pay_apply qb kb r c)

/-- The rescaling factor of row `r`: e^{old maximum − new maximum}. -/
theorem rescale_pay_apply (qb : Vec Ideal S1x1024x1024 .bf16) (kb : Vec Ideal S1x512x1024 .bf16)
    (m m' : Vec Ideal S1024x1 .f32) (r : Fin 1024) :
    k1_pay9 (F := Ideal) qb kb m m' (ix2 r 0)
      = Ideal.exp (m' (ix2 r 0) - k1_pay8 (F := Ideal) qb kb m (ix2 r 0)) := rfl

/-- The weight of key row `c` for query row `r`: e^{score − new maximum}. -/
theorem weight_pay_apply (qb : Vec Ideal S1x1024x1024 .bf16) (kb : Vec Ideal S1x512x1024 .bf16) (m : Vec Ideal S1024x1 .f32)
    (r : Fin 1024) (c : Fin 512) :
    k1_pay10 (F := Ideal) qb kb m (ix2 r c)
      = Ideal.exp (blkScore qb kb r c - k1_pay8 (F := Ideal) qb kb m (ix2 r 0)) := by
  unfold k1_pay10
  show Ideal.exp (k1_pay7 (F := Ideal) qb kb (ix2 r c)
    - broadcastTo S1024x512 (k1_pay8 (F := Ideal) qb kb m) broadcasts_S1024x1_S1024x512 (ix2 r c)) = _
  rw [score_pay_apply, Cert.Lib.ColumnBroadcast.broadcastTo_a1_ab_apply]

/-- The new normaliser of row `r`. -/
theorem norm_pay_apply (qb : Vec Ideal S1x1024x1024 .bf16) (kb : Vec Ideal S1x512x1024 .bf16)
    (m m' l : Vec Ideal S1024x1 .f32) (r : Fin 1024) :
    k1_pay11 (F := Ideal) qb kb m m' l (ix2 r 0)
      = Ideal.exp (m' (ix2 r 0) - k1_pay8 (F := Ideal) qb kb m (ix2 r 0)) * l (ix2 r 0)
        + ∑ c : Fin 512, Ideal.exp (blkScore qb kb r c - k1_pay8 (F := Ideal) qb kb m (ix2 r 0)) := by
  unfold k1_pay11
  simp only [shapeCast_self]
  show k1_pay9 (F := Ideal) qb kb m m' (ix2 r 0) * l (ix2 r 0)
    + shapeCast S1024x1 (multiReduction (F := Ideal) .add [1] S1024 (k1_pay10 qb kb m) 0x00000000#32
        reduces_S1024x512_S1024 (.inl rfl) rfl) shapeCasts_S1024_S1024x1 (ix2 r 0) = _
  rw [Cert.Lib.Rows.shapeCast_a_a1_apply, Cert.Lib.Rows.laneSum_apply]
  exact congrArg₂ (· + ·) rfl (Finset.sum_congr rfl fun c _ => weight_pay_apply qb kb m r c)

/-- The rescaled old weighted sum at `(r, e)`. -/
theorem scaled_pay_apply (qb : Vec Ideal S1x1024x1024 .bf16) (kb : Vec Ideal S1x512x1024 .bf16)
    (m m' : Vec Ideal S1024x1 .f32) (acc : Vec Ideal S1024x1024 .f32) (r e : Fin 1024) :
    k1_pay12 (F := Ideal) qb kb m m' acc (ix2 r e)
      = Ideal.exp (m' (ix2 r 0) - k1_pay8 (F := Ideal) qb kb m (ix2 r 0)) * acc (ix2 r e) := by
  unfold k1_pay12
  show broadcastTo S1024x1024 (k1_pay9 (F := Ideal) qb kb m m') broadcasts_S1024x1_S1024x1024 (ix2 r e) * acc (ix2 r e) = _
  rw [Cert.Lib.ColumnBroadcast.broadcastTo_a1_ab_apply]
  rfl

/-- The new weighted sum at `(r, e)`. -/
theorem acc_pay_apply (qb : Vec Ideal S1x1024x1024 .bf16) (kb vb : Vec Ideal S1x512x1024 .bf16)
    (m m' : Vec Ideal S1024x1 .f32) (acc : Vec Ideal S1024x1024 .f32) (r e : Fin 1024) :
    k1_pay1 (F := Ideal) (k1_pay12 qb kb m m' acc) (k1_pay13 qb kb m) vb (ix2 r e)
      = Ideal.exp (m' (ix2 r 0) - k1_pay8 (F := Ideal) qb kb m (ix2 r 0)) * acc (ix2 r e)
        + ∑ c : Fin 512, Ideal.exp (blkScore qb kb r c - k1_pay8 (F := Ideal) qb kb m (ix2 r 0)) * vb (ix3 0 c e) := by
  unfold k1_pay1
  simp only [shapeCast_self]
  refine (congrArg₂ (· + ·) (scaled_pay_apply qb kb m m' acc r e)
    (Cert.Lib.PlainProduct.matmul_zero_apply (d := dot_S1024x512_S512x1024_S1024x1024_1_0_0_1_n_n)
      ⟨rfl, rfl, rfl, rfl, rfl, rfl⟩ rfl rfl none (k1_pay13 (F := Ideal) qb kb m)
      (shapeCast S512x1024 vb shapeCasts_S1x512x1024_S512x1024) r e)).trans ?_
  refine congrArg (_ + ·) (Finset.sum_congr rfl fun c _ => ?_)
  rw [shapeCast_1ab_ab_apply]
  exact congrArg (· * vb (ix3 0 c e)) (weight_pay_apply qb kb m r c)

/-- One block of the running softmax, for query row `r` and output column `e`: the three stored states are the running
    form's step at the row's block scores and the value block's column `e`. -/
theorem attn_pay_step (qb : Vec Ideal S1x1024x1024 .bf16) (kb vb : Vec Ideal S1x512x1024 .bf16)
    (m l : Vec Ideal S1024x1 .f32) (acc : Vec Ideal S1024x1024 .f32) (r e : Fin 1024) :
    (k1_pay2 (F := Ideal) (k1_pay8 qb kb m) (ix2 r 0), k1_pay11 (F := Ideal) qb kb m m l (ix2 r 0),
        k1_pay1 (F := Ideal) (k1_pay12 qb kb m m acc) (k1_pay13 qb kb m) vb (ix2 r e))
      = step (fun c => blkScore qb kb r c) (fun c => vb (ix3 0 c e)) (m (ix2 r 0), l (ix2 r 0), acc (ix2 r e)) := by
  have h2 : k1_pay2 (F := Ideal) (k1_pay8 qb kb m) (ix2 r 0) = k1_pay8 (F := Ideal) qb kb m (ix2 r 0) := by
    unfold k1_pay2
    exact congrFun (shapeCast_self _ _) _
  rw [h2, norm_pay_apply, acc_pay_apply, max_pay_apply]
  rfl

/-! ### The attention body: the reset at the first block and the output at the last -/

theorem attn_pay_reset_max (r : Fin 1024) : k1_pay4 (F := Ideal) (ix2 r 0) = ⊥ := by
  unfold k1_pay4
  simp only [shapeCast_self]
  exact ofBits_neg_inf_f32

theorem attn_pay_reset_norm (r : Fin 1024) : k1_pay5 (F := Ideal) (ix2 r 0) = 0 := by
  unfold k1_pay5
  simp only [shapeCast_self]
  exact Ideal.ofBits_zero_f32

theorem attn_pay_reset_acc (r e : Fin 1024) : k1_pay6 (F := Ideal) (ix2 r e) = 0 := by
  unfold k1_pay6
  simp only [shapeCast_self]
  exact Ideal.ofBits_zero_f32

/-- The stored output at `(0, r, e)`: the weighted sum divided by the normaliser of row `r`. -/
theorem attn_pay_out (acc : Vec Ideal S1024x1024 .f32) (l : Vec Ideal S1024x1 .f32) (r e : Fin 1024) :
    k1_pay3 (F := Ideal) acc l (ix3 0 r e) = Ideal.div (acc (ix2 r e)) (l (ix2 r 0)) := by
  unfold k1_pay3
  refine (shapeCast_ab_1ab_apply _ shapeCasts_S1024x1024_S1x1024x1024 0 r e).trans ?_
  show Ideal.div (acc (ix2 r e)) (broadcastTo S1024x1024 l broadcasts_S1024x1_S1024x1024 (ix2 r e)) = _
  rw [Cert.Lib.ColumnBroadcast.broadcastTo_a1_ab_apply]

end Cert.KernelIdeal.PayloadAt

end
-- ==== Proof.KernelIdeal.ProjectionValue.lean ====
/-
  What the projection region leaves in its result array, as one function of the arrays it is entered with.

  The region's grid has 32 points. Point t stages rows 512·t … 512·t + 511 of the [16384, 1024] input, the whole
  [1024, 3072] packed weight and the whole [1, 3072] packed bias, and writes its stored block back to rows
  512·t … 512·t + 511 of the [16384, 3072] result, all 3072 columns. The stored block at (p, j) is
  Σ_d x(p, d)·w(d, j) + b(0, j) of the staged blocks, and the staged input block at (p, d) is the input array at
  (512·t + p, d); so what point t writes back is block t of the single array
      G(P, j) = Σ_d X(P, d)·W(d, j) + B(0, j).
  Row r of the result lies in the block of point r / 512 and every point writes back, so the blocks cover the result
  array, which therefore ends holding G: row P of the input times column j of the packed weight, plus the packed bias
  at j.
-/
import proofs.«105625_j35124242546827_2_alg».proof.Proof.KernelIdeal.Projection
import proofs.«105625_j35124242546827_2_alg».proof.Proof.KernelIdeal.PayloadAt
import Idealize.ShloMosaic.Lib.Pipeline.Value
import Idealize.ShloMosaic.Lib.ValueIdx

noncomputable section

namespace Cert.KernelIdeal.Value

open Cert.KernelIdeal Cert.KernelIdeal.Gen Cert.KernelIdeal.Frame Cert.KernelIdeal.PayloadAt
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ### The array the region leaves, as one function of the arrays it is entered with -/

/-- Entry `(P, j)` of the projection: row `P` of the input times column `j` of the packed weight, plus the packed bias. -/
def projAt (a0 : S16384x1024.Idx → EReal) (a1 : S1024x3072.Idx → EReal) (a2 : S1x3072.Idx → EReal)
    (P : Fin 16384) (j : Fin 3072) : EReal :=
  (∑ d : Fin 1024, a0 (ix2 P d) * a1 (ix2 d j)) + a2 (ix2 0 j)

/-- The whole result array. -/
def projG (a0 : S16384x1024.Idx → EReal) (a1 : S1024x3072.Idx → EReal) (a2 : S1x3072.Idx → EReal) :
    S16384x3072.Idx → EReal :=
  fun i => projAt a0 a1 a2 ⟨(i 0).val, idx2_lt0 i⟩ ⟨(i 1).val, idx2_lt1 i⟩

theorem projG_ix2 (a0 : S16384x1024.Idx → EReal) (a1 : S1024x3072.Idx → EReal) (a2 : S1x3072.Idx → EReal)
    (P : Fin 16384) (j : Fin 3072) : projG a0 a1 a2 (ix2 P j) = projAt a0 a1 a2 P j := rfl

/-! ### One point: the stored block is the block of the result array -/

/-- With the three staged blocks read off the arrays — the input block `T` rows 512·T …, the weight and the bias
    whole — the payload at `(p, j)` is the result array at `(512·T + p, j)`. -/
theorem proj_point (a0 : S16384x1024.Idx → EReal) (a1 : S1024x3072.Idx → EReal) (a2 : S1x3072.Idx → EReal)
    (x0 : Vec Ideal S512x1024 .f32) (x1 : Vec Ideal S1024x3072 .bf16) (x2 : Vec Ideal S1x3072 .f32) (T : ℕ)
    (h0 : ∀ (p : Fin 512) (d : Fin 1024) (P : Fin 16384), P.val = T * 512 + p.val → x0 (ix2 p d) = a0 (ix2 P d))
    (h1 : ∀ (d : Fin 1024) (j : Fin 3072), x1 (ix2 d j) = a1 (ix2 d j))
    (h2 : ∀ j : Fin 3072, x2 (ix2 0 j) = a2 (ix2 0 j))
    (p : Fin 512) (j : Fin 3072) (P : Fin 16384) (hP : P.val = T * 512 + p.val) :
    k0_pay1 (F := Ideal) x0 x1 x2 (ix2 p j) = projAt a0 a1 a2 P j := by
  rw [proj_pay_apply, projAt, h2 j]
  exact congrArg (· + a2 (ix2 0 j)) (Finset.sum_congr rfl fun d _ => by rw [h0 p d P hP, h1 d j])

theorem hz : (![0, 0] : Fin 2 → Nat) = fun _ => 0 := funext fun a => by fin_cases a <;> rfl

/-- The printed index maps over the grid: the input and the output move one block of rows per point; the weight and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point `t` is rows 512·t … of the input array. -/
theorem pblk0_apply (c : Dev nD) (t : Fin cfg0.N) (p : Fin 512) (d : Fin 1024) (P : Fin 16384)
    (hP : P.val = t.val * 512 + p.val) :
    (pblk V c 0 t : Vec Ideal S512x1024 .f32) (ix2 p d) = (V c main_v0 : S16384x1024.Idx → EReal) (ix2 P d) := by
  obtain ⟨e00, e01, -⟩ := idx_facts t
  unfold pblk
  rw [View.read_apply]
  show (V c main_v0 : S16384x1024.Idx → EReal) _ = _
  refine congrArg _ (funext fun a => Fin.ext ?_)
  match a with
  | ⟨0, _⟩ => show win0_0.index t (0 : Fin 2) * 512 + 1 * p.val = P.val; omega
  | ⟨1, _⟩ => show win0_0.index t (1 : Fin 2) * 1024 + 1 * d.val = d.val; omega

/-- The weight window's block at every point is the whole packed weight. -/
theorem pblk1_apply (c : Dev nD) (t : Fin cfg0.N) (d : Fin 1024) (j : Fin 3072) :
    (pblk V c 1 t : Vec Ideal S1024x3072 .bf16) (ix2 d j) = (V c main_v11 : S1024x3072.Idx → EReal) (ix2 d j) := by
  obtain ⟨-, -, e10, e11, -⟩ := idx_facts t
  unfold pblk
  rw [View.read_apply]
  show (V c main_v11 : S1024x3072.Idx → EReal) _ = _
  refine congrArg _ (funext fun a => Fin.ext ?_)
  match a with
  | ⟨0, _⟩ => show win0_1.index t (0 : Fin 2) * 1024 + 1 * d.val = d.val; omega
  | ⟨1, _⟩ => show win0_1.index t (1 : Fin 2) * 3072 + 1 * j.val = j.val; omega

/-- The bias window's block at every point is the whole packed bias. -/
theorem pblk2_apply (c : Dev nD) (t : Fin cfg0.N) (j : Fin 3072) :
    (pblk V c 2 t : Vec Ideal S1x3072 .f32) (ix2 0 j) = (V c main_v15 : S1x3072.Idx → EReal) (ix2 0 j) := by
  obtain ⟨-, -, -, -, e20, e21, -⟩ := idx_facts t
  unfold pblk
  rw [View.read_apply]
  show (V c main_v15 : S1x3072.Idx → EReal) _ = _
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * j.val = j.val; omega

/-- The same at an index of the block and an index of the array related by their coordinates. -/
theorem proj_point_idx (a0 : S16384x1024.Idx → EReal) (a1 : S1024x3072.Idx → EReal) (a2 : S1x3072.Idx → EReal)
    (x0 : Vec Ideal S512x1024 .f32) (x1 : Vec Ideal S1024x3072 .bf16) (x2 : Vec Ideal S1x3072 .f32) (T : ℕ)
    (h0 : ∀ (p : Fin 512) (d : Fin 1024) (P : Fin 16384), P.val = T * 512 + p.val → x0 (ix2 p d) = a0 (ix2 P d))
    (h1 : ∀ (d : Fin 1024) (j : Fin 3072), x1 (ix2 d j) = a1 (ix2 d j))
    (h2 : ∀ j : Fin 3072, x2 (ix2 0 j) = a2 (ix2 0 j))
    (y : S512x3072.Idx) (i : S16384x3072.Idx) (hi0 : (i 0).val = T * 512 + (y 0).val) (hi1 : (i 1).val = (y 1).val) :
    k0_pay1 (F := Ideal) x0 x1 x2 y = projG a0 a1 a2 i := by
  obtain ⟨p, j, rfl⟩ : ∃ (p : Fin 512) (j : Fin 3072), y = ix2 p j := ⟨y 0, y 1, eq_ix2 y⟩
  obtain ⟨P, J, rfl⟩ : ∃ (P : Fin 16384) (J : Fin 3072), i = ix2 P J := ⟨i 0, i 1, eq_ix2 i⟩
  obtain rfl : J = j := Fin.ext hi1
  rw [projG_ix2]
  exact proj_point a0 a1 a2 x0 x1 x2 T h0 h1 h2 p J P hi0

/-- WHAT POINT `t` WRITES BACK is block `t` of the result array. -/
theorem proj_flushed_eq (c : Dev nD) (t : Fin cfg0.N) :
    (pdat (F := Ideal) V c).flushed 3 t
      = ((cfg0.win 3).blk t).view.read (Elt Ideal) (projG (V c main_v0) (V c main_v11) (V c main_v15)) := by
  show (cfg0.win 3).cut (grid0.coords t) ((pdat V c).after 3 t) = _
  rw [pafter3]
  unfold projOut
  rw [View.canon_unit_zero hz]
  simp only [View.ld_unit_zero (S := S512x1024) hz, View.ld_unit_zero (S := S1024x3072) hz,
    View.ld_unit_zero (S := S1x3072) hz]
  obtain ⟨-, -, -, -, -, -, e30, e31⟩ := idx_facts t
  funext y
  show k0_pay1 (F := Ideal) (pblk V c 0 t) (pblk V c 1 t) (pblk V c 2 t) y
    = projG (V c main_v0) (V c main_v11) (V c main_v15) (((cfg0.win 3).blk t).view.emb y)
  refine proj_point_idx _ _ _ _ _ _ t.val (fun p d P hP => pblk0_apply V c t p d P hP)
    (fun d j => pblk1_apply V c t d j) (fun j => pblk2_apply V c t j) y _ ?_ ?_
  · show win0_3.index t (0 : Fin 2) * 512 + 1 * (y 0).val = t.val * 512 + (y 0).val
    omega
  · show win0_3.index t (1 : Fin 2) * 3072 + 1 * (y 1).val = (y 1).val
    omega

/-! ### The blocks cover the array -/

/-- An index of the array is in point `t`'s block iff each coordinate is in the block's range on its axis. -/
theorem mem_blk3 (t : Fin cfg0.N) (i : S16384x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v16).slice (win0_3.rect t)).set ↔ _
  rw [View.set_slice_whole, Rect.mem_set_unit]
  exact Iff.rfl

/-- Row `r` of the array is in the block of point `r / 512`. -/
theorem proj_cover (i : S16384x3072.Idx) :
    ∃ t : Fin cfg0.N, (cfg0.win 3).flush t = true ∧ i ∈ ((cfg0.win 3).blk t).view.set := by
  have hi0 : (i 0).val < 16384 := idx2_lt0 i
  have hi1 : (i 1).val < 3072 := idx2_lt1 i
  have hN : grid0.N = 32 := N_0
  have ht : (i 0).val / 512 < cfg0.N := by show (i 0).val / 512 < grid0.N; rw [hN]; omega
  obtain ⟨-, -, -, -, -, -, e30, e31⟩ := idx_facts ⟨(i 0).val / 512, ht⟩
  refine ⟨⟨(i 0).val / 512, ht⟩, flush0_3 _, ?_⟩
  rw [mem_blk3]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, ht⟩ (1 : Fin 2) * 3072 ≤ (i 1).val
      ∧ (i 1).val < win0_3.index ⟨(i 0).val / 512, ht⟩ (1 : Fin 2) * 3072 + 3072
    rw [e31]
    omega

/-! ### The array after the region -/

/-- The result array after the region is the projection of the arrays the region is entered with. -/
theorem proj_final_array (c : Dev nD) :
    (pdat (F := Ideal) V c).arrAt 3 cfg0.N = projG (V c main_v0) (V c main_v11) (V c main_v15) :=
  (pdat (F := Ideal) V c).arrAt_eq_of_cover 3 (projG (V c main_v0) (V c main_v11) (V c main_v15))
    (fun t _ => proj_flushed_eq V c t) proj_cover

/-- The entry written out. -/
theorem projAt_def (a0 : S16384x1024.Idx → EReal) (a1 : S1024x3072.Idx → EReal) (a2 : S1x3072.Idx → EReal)
    (P : Fin 16384) (j : Fin 3072) :
    projAt a0 a1 a2 P j = (∑ d : Fin 1024, a0 (ix2 P d) * a1 (ix2 d j)) + a2 (ix2 0 j) := rfl

/-- Pointwise: row `p` of the input times column `j` of the packed weight, plus the packed bias at `j`. -/
theorem proj_final (c : Dev nD) (p : Fin 16384) (j : Fin 3072) :
    (pdat (F := Ideal) V c).arrAt 3 cfg0.N (ix2 p j) = projAt (V c main_v0) (V c main_v11) (V c main_v15) p j := by
  rw [proj_final_array]
  rfl

/-- The same with the sum written out over the three arrays the region is entered with. -/
theorem proj_final_sum (c : Dev nD) (p : Fin 16384) (j : Fin 3072) :
    let a0 : S16384x1024.Idx → EReal := V c main_v0
    let a1 : S1024x3072.Idx → EReal := V c main_v11
    let a2 : S1x3072.Idx → EReal := V c main_v15
    (pdat (F := Ideal) V c).arrAt 3 cfg0.N (ix2 p j) = (∑ d : Fin 1024, a0 (ix2 p d) * a1 (ix2 d j)) + a2 (ix2 0 j) :=
  proj_final V c p j

end Cert.KernelIdeal.Value

end
-- ==== Proof.AttentionSpec.lean ====
/-
  Single-head self-attention over the reals, as one function of the seven argument arrays.

  A linear layer sends a row x[n, s, ·] to Σ_d x[n, s, d]·W[e, d] + b[e] (the weight is applied transposed). Queries,
  keys and values are three such layers of the same input. The score of query position q against key position k is
  the inner product of their rows divided by 32, the square root of the row length 1024. The output row at (n, q) is
  the softmax-weighted average of the value rows under those scores, taken over all 2048 key positions.
-/
import proofs.«105625_j35124242546827_2_alg».proof.Proof.LibOnlineSoftmaxDefs

noncomputable section

namespace Cert.Attention

open Cert.Lib.OnlineSoftmax
open scoped BigOperators

/-- A linear layer with the weight applied transposed: y[n, s, e] = Σ_d x[n, s, d]·W[e, d] + b[e]. -/
def proj (x : Fin 8 → Fin 2048 → Fin 1024 → ℝ) (W : Fin 1024 → Fin 1024 → ℝ) (b : Fin 1024 → ℝ)
    (n : Fin 8) (s : Fin 2048) (e : Fin 1024) : ℝ :=
  ∑ d, x n s d * W e d + b e

/-- The scaled score of query position `q` against key position `k` in batch `n`: ⟨query row, key row⟩ / 32. -/
def score (x : Fin 8 → Fin 2048 → Fin 1024 → ℝ) (Wq : Fin 1024 → Fin 1024 → ℝ) (bq : Fin 1024 → ℝ)
    (Wk : Fin 1024 → Fin 1024 → ℝ) (bk : Fin 1024 → ℝ) (n : Fin 8) (q k : Fin 2048) : ℝ :=
  (∑ e, proj x Wq bq n q e * proj x Wk bk n k e) / 32

/-- The attention output at (n, q, e): the softmax-weighted average over key positions of the value rows' entry e. -/
def attn (x : Fin 8 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (n : Fin 8) (q : Fin 2048) (e : Fin 1024) : ℝ :=
  softmaxAvg (fun k => score x Wq bq Wk bk n q k) (fun k => proj x Wv bv n k e)

end Cert.Attention

end
-- ==== Proof.LibOnlineSoftmax.lean ====
/-
  The softmax-weighted average of one row of scores: the dense form and the block-by-block form agree.

  Dense form. With M the largest score, every weight e^{s_i - M} is a positive real, the normaliser
  Σ e^{s_i - M} is at least e^0 = 1 > 0, and the quotient of each weight by the normaliser, times the value,
  summed, is (Σ e^{s_i - M} v_i) / (Σ e^{s_i - M}). On the extended reals all the quantities involved are
  coercions of reals, the coercion commutes with finite sums, products, differences and maxima, and division by
  a nonzero real is multiplication by its inverse, so the extended-real expression is the coercion of the real one.

  Block form. The scores arrive in J blocks of K. The state (running maximum, running normaliser, running
  weighted sum) starts at (−∞, 0, 0). After j ≥ 1 blocks the state is
      (M_j, Σ_{first j blocks} e^{s - M_j}, Σ_{first j blocks} e^{s - M_j} v)
  with M_j the largest score among the first j blocks. The first block is special: the old maximum is −∞,
  −∞ − m = −∞, e^{−∞} = 0 and 0·0 = 0, so only the block's own share remains. A later block with maximum m
  raises the maximum to M' = max(M_j, m) and multiplies both sums by e^{M_j - M'}; since
  e^{M_j - M'} · e^{s - M_j} = e^{s - M'}, the old weights become weights against the new maximum, and the
  block's own weights are taken against M' directly. After all J blocks the sums range over every score, M_J is
  the overall maximum, and reindexing the double sum over blocks and positions along the bijection with the
  index set gives exactly the numerator and the normaliser of the dense form.
-/
import proofs.«105625_j35124242546827_2_alg».proof.Proof.LibOnlineSoftmaxDefs

noncomputable section

namespace Cert.Lib.OnlineSoftmax

open Idealize.ShloMosaic
open scoped BigOperators

/-! ### Coercion of finite sums and maxima -/

/-- The coercion of a finite sum of reals is the sum of the coercions. -/
theorem coe_finset_sum {α : Type} (t : Finset α) (f : α → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

/-- The coercion of the larger of two reals is the larger of the coercions. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A weight against a real maximum: e^{a − b} on the extended reals is the coercion of the real e^{a − b}. -/
theorem exp_coe_sub (a b : ℝ) :
    Ideal.exp (((a : ℝ) : EReal) - ((b : ℝ) : EReal)) = ((Real.exp (a - b) : ℝ) : EReal) := by
  rw [← EReal.coe_sub, Ideal.exp_coe]

section Dense

variable {ι : Type} [Fintype ι] [Nonempty ι]

/-- Every score is at most the largest. -/
theorem le_rmax (s : ι → ℝ) (i : ι) : s i ≤ rmax s :=
  Finset.le_sup' s (Finset.mem_univ i)

/-- The largest score is one of the scores. -/
theorem exists_eq_rmax (s : ι → ℝ) : ∃ i, s i = rmax s := by
  obtain ⟨i, _, hi⟩ := Finset.exists_mem_eq_sup' (Finset.univ_nonempty (α := ι)) s
  exact ⟨i, hi.symm⟩

/-- The running maximum of the coerced scores from −∞ is the coercion of the largest score. -/
theorem fold_max_coe (s : ι → ℝ) :
    (Finset.univ : Finset ι).fold max (⊥ : EReal) (fun i => ((s i : ℝ) : EReal)) = ((rmax s : ℝ) : EReal) := by
  apply le_antisymm
  · rw [Finset.fold_max_le]
    exact ⟨bot_le, fun i _ => EReal.coe_le_coe_iff.2 (le_rmax s i)⟩
  · obtain ⟨i, hi⟩ := exists_eq_rmax s
    rw [Finset.le_fold_max]
    exact Or.inr ⟨i, Finset.mem_univ i, by rw [hi]⟩

/-- The normaliser is positive: every weight is. -/
theorem normaliser_pos (s : ι → ℝ) (M : ℝ) : 0 < ∑ i, Real.exp (s i - M) :=
  Finset.sum_pos (fun i _ => Real.exp_pos _) Finset.univ_nonempty

/-- The dense form on the extended reals is the coercion of the real softmax-weighted average. -/
theorem dense_eq (s v : ι → ℝ) :
    (∑ i, Ideal.div (Ideal.exp (((s i : ℝ) : EReal) - max ⊥ ((Finset.univ : Finset ι).fold max (⊥ : EReal) (fun i' => ((s i' : ℝ) : EReal)))))
                    (0 + ∑ i'', Ideal.exp (((s i'' : ℝ) : EReal) - max ⊥ ((Finset.univ : Finset ι).fold max (⊥ : EReal) (fun i' => ((s i' : ℝ) : EReal)))))
           * ((v i : ℝ) : EReal))
      = ((softmaxAvg s v : ℝ) : EReal) := by
  have hL : (∑ i, Real.exp (s i - rmax s)) ≠ 0 := (normaliser_pos s (rmax s)).ne'
  rw [fold_max_coe, max_bot_left]
  simp only [exp_coe_sub]
  rw [zero_add, ← coe_finset_sum]
  simp only [Ideal.div_coe hL, ← EReal.coe_mul]
  rw [← coe_finset_sum, softmaxAvg, Finset.sum_div]
  congr 1
  refine Finset.sum_congr rfl fun i _ => ?_
  ring

end Dense

/-! ### One block of the running form on coerced reals -/

section Step

variable {K : ℕ} [Nonempty (Fin K)]

/-- The first block: from (−∞, 0, 0) the old maximum is −∞, so −∞ − m = −∞, e^{−∞} = 0 and 0·0 = 0, and only
    the block's own share against its own maximum remains. -/
theorem step_bot (s v : Fin K → ℝ) :
    step (fun c => ((s c : ℝ) : EReal)) (fun c => ((v c : ℝ) : EReal)) (⊥, 0, 0) =
      (((rmax s : ℝ) : EReal), ((∑ c, Real.exp (s c - rmax s) : ℝ) : EReal),
        ((∑ c, Real.exp (s c - rmax s) * v c : ℝ) : EReal)) := by
  unfold step
  simp only
  rw [fold_max_coe, max_bot_left, EReal.bot_sub, Ideal.exp_bot, mul_zero, zero_add, zero_add]
  simp only [exp_coe_sub, ← EReal.coe_mul]
  rw [← coe_finset_sum, ← coe_finset_sum]

/-- A later block: from a state of coerced reals (M, l, a) the new maximum is max(M, m) and both sums are rescaled
    by the real e^{M − max(M, m)} before the block's share against the new maximum is added. -/
theorem step_coe (s v : Fin K → ℝ) (M l a : ℝ) :
    step (fun c => ((s c : ℝ) : EReal)) (fun c => ((v c : ℝ) : EReal))
        (((M : ℝ) : EReal), ((l : ℝ) : EReal), ((a : ℝ) : EReal)) =
      (((max M (rmax s) : ℝ) : EReal),
       ((Real.exp (M - max M (rmax s)) * l + ∑ c, Real.exp (s c - max M (rmax s)) : ℝ) : EReal),
       ((Real.exp (M - max M (rmax s)) * a + ∑ c, Real.exp (s c - max M (rmax s)) * v c : ℝ) : EReal)) := by
  unfold step
  simp only
  rw [fold_max_coe, ← coe_max]
  simp only [exp_coe_sub, ← EReal.coe_mul]
  rw [← coe_finset_sum, ← coe_finset_sum, ← EReal.coe_add, ← EReal.coe_add]

end Step

/-! ### Rescaling turns weights against the old maximum into weights against the new one -/

/-- e^{M − M'} · Σ Σ e^{f − M} = Σ Σ e^{f − M'}, because e^{a}·e^{b} = e^{a+b}. -/
theorem rescale_norm {α β : Type} (t : Finset α) (u : Finset β) (f : α → β → ℝ) (M M' : ℝ) :
    Real.exp (M - M') * ∑ i ∈ t, ∑ c ∈ u, Real.exp (f i c - M) = ∑ i ∈ t, ∑ c ∈ u, Real.exp (f i c - M') := by
  rw [Finset.mul_sum]
  refine Finset.sum_congr rfl fun i _ => ?_
  rw [Finset.mul_sum]
  refine Finset.sum_congr rfl fun c _ => ?_
  rw [← Real.exp_add]
  congr 1
  ring

/-- The same with each weight multiplied by a value. -/
theorem rescale_wsum {α β : Type} (t : Finset α) (u : Finset β) (f g : α → β → ℝ) (M M' : ℝ) :
    Real.exp (M - M') * ∑ i ∈ t, ∑ c ∈ u, Real.exp (f i c - M) * g i c
      = ∑ i ∈ t, ∑ c ∈ u, Real.exp (f i c - M') * g i c := by
  rw [Finset.mul_sum]
  refine Finset.sum_congr rfl fun i _ => ?_
  rw [Finset.mul_sum]
  refine Finset.sum_congr rfl fun c _ => ?_
  rw [← mul_assoc, ← Real.exp_add]
  congr 2
  ring

/-! ### The first j of J blocks -/

/-- The first `j` of the `J` blocks. -/
def firstBlocks (J j : ℕ) : Finset (Fin J) := Finset.univ.filter (fun j' => j'.val < j)

theorem mem_firstBlocks {J j : ℕ} (j' : Fin J) : j' ∈ firstBlocks J j ↔ j'.val < j := by
  rw [firstBlocks, Finset.mem_filter]
  exact ⟨fun h => h.2, fun h => ⟨Finset.mem_univ _, h⟩⟩

theorem firstBlocks_succ {J j : ℕ} (h : j < J) :
    firstBlocks J (j + 1) = insert (⟨j, h⟩ : Fin J) (firstBlocks J j) := by
  ext j'
  rw [Finset.mem_insert, mem_firstBlocks, mem_firstBlocks, Fin.ext_iff]
  show j'.val < j + 1 ↔ j'.val = j ∨ j'.val < j
  omega

theorem not_mem_firstBlocks {J j : ℕ} (h : j < J) : (⟨j, h⟩ : Fin J) ∉ firstBlocks J j := by
  rw [mem_firstBlocks]
  exact lt_irrefl j

theorem firstBlocks_one {J : ℕ} (h : 0 < J) : firstBlocks J 1 = {(⟨0, h⟩ : Fin J)} := by
  ext j'
  rw [Finset.mem_singleton, mem_firstBlocks, Fin.ext_iff]
  show j'.val < 1 ↔ j'.val = 0
  omega

theorem firstBlocks_self (J : ℕ) : firstBlocks J J = Finset.univ := by
  ext j'
  rw [mem_firstBlocks]
  exact ⟨fun _ => Finset.mem_univ _, fun _ => j'.isLt⟩

/-! ### The state after j blocks -/

section Run

variable {J K : ℕ}

theorem run_zero (s v : Fin J → Fin K → EReal) : run s v 0 = (⊥, 0, 0) := rfl

theorem run_succ (s v : Fin J → Fin K → EReal) (j : ℕ) (h : j < J) :
    run s v (j + 1) = step (s ⟨j, h⟩) (v ⟨j, h⟩) (run s v j) := by
  show (if h : j < J then step (s ⟨j, h⟩) (v ⟨j, h⟩) (run s v j) else run s v j) = _
  rw [dif_pos h]

variable [Nonempty (Fin K)]

/-- After j ≥ 1 blocks the state is (M, Σ e^{s − M}, Σ e^{s − M}·v) over the first j blocks, with M the largest
    score among them (an upper bound that is attained). -/
theorem run_inv (S V : Fin J → Fin K → ℝ) :
    ∀ j : ℕ, 0 < j → j ≤ J →
      ∃ M : ℝ, (∀ j' ∈ firstBlocks J j, ∀ c, S j' c ≤ M) ∧ (∃ j' ∈ firstBlocks J j, ∃ c, S j' c = M) ∧
        run (fun j c => ((S j c : ℝ) : EReal)) (fun j c => ((V j c : ℝ) : EReal)) j =
          (((M : ℝ) : EReal),
           ((∑ j' ∈ firstBlocks J j, ∑ c, Real.exp (S j' c - M) : ℝ) : EReal),
           ((∑ j' ∈ firstBlocks J j, ∑ c, Real.exp (S j' c - M) * V j' c : ℝ) : EReal)) := by
  intro j
  induction j with
  | zero => intro h; exact absurd h (lt_irrefl 0)
  | succ j ih =>
    intro _ hj
    have hjJ : j < J := hj
    rcases Nat.eq_zero_or_pos j with h0 | hpos
    · subst h0
      refine ⟨rmax (S ⟨0, hjJ⟩), ?_, ?_, ?_⟩
      · intro j' hj' c
        rw [firstBlocks_one hjJ, Finset.mem_singleton] at hj'
        subst hj'
        exact le_rmax _ c
      · obtain ⟨c, hc⟩ := exists_eq_rmax (S ⟨0, hjJ⟩)
        refine ⟨⟨0, hjJ⟩, ?_, c, hc⟩
        rw [firstBlocks_one hjJ]
        exact Finset.mem_singleton_self _
      · rw [run_succ _ _ 0 hjJ, run_zero, firstBlocks_one hjJ, Finset.sum_singleton, Finset.sum_singleton]
        exact step_bot (S ⟨0, hjJ⟩) (V ⟨0, hjJ⟩)
    · obtain ⟨M, hub, ⟨j0, hj0, c0, hatt⟩, hrun⟩ := ih hpos (le_of_lt hjJ)
      refine ⟨max M (rmax (S ⟨j, hjJ⟩)), ?_, ?_, ?_⟩
      · intro j' hj' c
        rw [firstBlocks_succ hjJ, Finset.mem_insert] at hj'
        rcases hj' with hj' | hj'
        · subst hj'
          exact le_trans (le_rmax _ c) (le_max_right _ _)
        · exact le_trans (hub j' hj' c) (le_max_left _ _)
      · rcases le_total M (rmax (S ⟨j, hjJ⟩)) with hle | hle
        · obtain ⟨c, hc⟩ := exists_eq_rmax (S ⟨j, hjJ⟩)
          refine ⟨⟨j, hjJ⟩, ?_, c, ?_⟩
          · rw [firstBlocks_succ hjJ]
            exact Finset.mem_insert_self _ _
          · rw [max_eq_right hle]
            exact hc
        · refine ⟨j0, ?_, c0, ?_⟩
          · rw [firstBlocks_succ hjJ]
            exact Finset.mem_insert_of_mem hj0
          · rw [max_eq_left hle]
            exact hatt
      · have h1 : Real.exp (M - max M (rmax (S ⟨j, hjJ⟩))) * (∑ j' ∈ firstBlocks J j, ∑ c, Real.exp (S j' c - M))
              + ∑ c, Real.exp (S ⟨j, hjJ⟩ c - max M (rmax (S ⟨j, hjJ⟩)))
            = ∑ j' ∈ firstBlocks J (j + 1), ∑ c, Real.exp (S j' c - max M (rmax (S ⟨j, hjJ⟩))) := by
          rw [firstBlocks_succ hjJ, Finset.sum_insert (not_mem_firstBlocks hjJ), rescale_norm, add_comm]
        have h2 : Real.exp (M - max M (rmax (S ⟨j, hjJ⟩)))
                * (∑ j' ∈ firstBlocks J j, ∑ c, Real.exp (S j' c - M) * V j' c)
              + ∑ c, Real.exp (S ⟨j, hjJ⟩ c - max M (rmax (S ⟨j, hjJ⟩))) * V ⟨j, hjJ⟩ c
            = ∑ j' ∈ firstBlocks J (j + 1), ∑ c, Real.exp (S j' c - max M (rmax (S ⟨j, hjJ⟩))) * V j' c := by
          rw [firstBlocks_succ hjJ, Finset.sum_insert (not_mem_firstBlocks hjJ), rescale_wsum, add_comm]
        rw [run_succ _ _ j hjJ, hrun, ← h1, ← h2]
        exact step_coe (S ⟨j, hjJ⟩) (V ⟨j, hjJ⟩) M _ _

end Run

/-! ### The block form equals the dense form -/

section Flash

variable {ι : Type} [Fintype ι] [Nonempty ι] {J K : ℕ}

/-- A sum over blocks and positions is a sum over the index set, along the bijection. -/
theorem sum_blocks (e : Fin J × Fin K ≃ ι) (F : ι → ℝ) : ∑ j', ∑ c, F (e (j', c)) = ∑ i, F i :=
  (Fintype.sum_prod_type (fun p : Fin J × Fin K => F (e p))).symm.trans (Equiv.sum_comp e F)

/-- The last weighted sum divided by the last normaliser is the softmax-weighted average. -/
theorem flash_eq (e : Fin J × Fin K ≃ ι) (s v : ι → ℝ) :
    Ideal.div (run (fun j c => ((s (e (j, c)) : ℝ) : EReal)) (fun j c => ((v (e (j, c)) : ℝ) : EReal)) J).2.2
              (run (fun j c => ((s (e (j, c)) : ℝ) : EReal)) (fun j c => ((v (e (j, c)) : ℝ) : EReal)) J).2.1
      = ((softmaxAvg s v : ℝ) : EReal) := by
  have hJK : 0 < J ∧ 0 < K := by
    obtain ⟨i⟩ := ‹Nonempty ι›
    exact ⟨Nat.lt_of_le_of_lt (Nat.zero_le _) (e.symm i).1.isLt,
      Nat.lt_of_le_of_lt (Nat.zero_le _) (e.symm i).2.isLt⟩
  haveI : Nonempty (Fin K) := ⟨⟨0, hJK.2⟩⟩
  obtain ⟨M, hub, ⟨j0, _, c0, hatt⟩, hrun⟩ :=
    run_inv (fun j c => s (e (j, c))) (fun j c => v (e (j, c))) J hJK.1 le_rfl
  have hM : M = rmax s := by
    apply le_antisymm
    · rw [← hatt]
      exact le_rmax s _
    · refine Finset.sup'_le _ _ fun i _ => ?_
      have h := hub (e.symm i).1 (by rw [firstBlocks_self]; exact Finset.mem_univ _) (e.symm i).2
      rw [Prod.mk.eta, Equiv.apply_symm_apply] at h
      exact h
  have hL : (∑ i, Real.exp (s i - rmax s)) ≠ 0 := (normaliser_pos s (rmax s)).ne'
  rw [hrun]
  show Ideal.div ((∑ j' ∈ firstBlocks J J, ∑ c, Real.exp (s (e (j', c)) - M) * v (e (j', c)) : ℝ) : EReal)
      ((∑ j' ∈ firstBlocks J J, ∑ c, Real.exp (s (e (j', c)) - M) : ℝ) : EReal) = _
  rw [firstBlocks_self, hM, sum_blocks e (fun i => Real.exp (s i - rmax s) * v i),
    sum_blocks e (fun i => Real.exp (s i - rmax s)), Ideal.div_coe hL, ← EReal.coe_mul, softmaxAvg, mul_one_div]

end Flash

end Cert.Lib.OnlineSoftmax

end
-- ==== Proof.AttentionArithmetic.lean ====
/-
  The arithmetic that joins the kernel's arrangement to the specification, over the reals.

  The kernel scales the query weight and bias by 1/32 before projecting, where the specification divides the score by
  32 afterwards: Σ_d x_d·(w_d·(1/32)) + b·(1/32) = (Σ_d x_d·w_d + b)/32, and Σ_e (Q_e/32)·K_e = (Σ_e Q_e·K_e)/32.
  Key position k of 2048 is row k mod 512 of key/value tile k div 512.
-/
import proofs.«105625_j35124242546827_2_alg».proof.Proof.AttentionSpec
import proofs.«105625_j35124242546827_2_alg».proof.Proof.LibOnlineSoftmax

noncomputable section

namespace Cert.Attention

open Cert.Lib.OnlineSoftmax
open scoped BigOperators

/-- Key position 512·j + k is row `k` of key/value tile `j`. -/
def tileEquiv : Fin 4 × Fin 512 ≃ Fin 2048 where
  toFun p := ⟨512 * p.1.val + p.2.val, by have := p.1.isLt; have := p.2.isLt; omega⟩
  invFun i := (⟨i.val / 512, by have := i.isLt; omega⟩, ⟨i.val % 512, Nat.mod_lt _ (by norm_num)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv i := Fin.ext (by
    show 512 * (i.val / 512) + i.val % 512 = i.val
    omega)

theorem tileEquiv_val (j : Fin 4) (k : Fin 512) : (tileEquiv (j, k)).val = 512 * j.val + k.val := rfl

/-- A projection with weight and bias pre-scaled by 1/32, on coerced reals, is the coercion of the projection over 32. -/
theorem scaled_proj_coe (x w : Fin 1024 → ℝ) (b : ℝ) :
    (∑ d, ((x d : ℝ) : EReal) * (((w d : ℝ) : EReal) * (((1 / 32 : ℝ)) : EReal))) + ((b : ℝ) : EReal) * (((1 / 32 : ℝ)) : EReal)
      = (((∑ d, x d * w d + b) / 32 : ℝ) : EReal) := by
  have hs : (∑ d, ((x d : ℝ) : EReal) * (((w d : ℝ) : EReal) * (((1 / 32 : ℝ)) : EReal)))
      = ((∑ d, x d * (w d * (1 / 32)) : ℝ) : EReal) := by
    rw [coe_finset_sum]
    exact Finset.sum_congr rfl fun d _ => by rw [EReal.coe_mul, EReal.coe_mul]
  rw [hs, ← EReal.coe_mul, ← EReal.coe_add]
  refine congrArg (fun r : ℝ => (r : EReal)) ?_
  rw [add_div, Finset.sum_div]
  refine congrArg₂ (· + ·) (Finset.sum_congr rfl fun d _ => by ring) (by ring)

/-- A plain projection on coerced reals is the coercion of the projection. -/
theorem plain_proj_coe (x w : Fin 1024 → ℝ) (b : ℝ) :
    (∑ d, ((x d : ℝ) : EReal) * ((w d : ℝ) : EReal)) + ((b : ℝ) : EReal) = ((∑ d, x d * w d + b : ℝ) : EReal) := by
  have hs : (∑ d, ((x d : ℝ) : EReal) * ((w d : ℝ) : EReal)) = ((∑ d, x d * w d : ℝ) : EReal) := by
    rw [coe_finset_sum]
    exact Finset.sum_congr rfl fun d _ => by rw [EReal.coe_mul]
  rw [hs, ← EReal.coe_add]

/-- The inner product of a row already divided by 32 with another row is the inner product over 32. -/
theorem scaled_score_coe (Q K : Fin 1024 → ℝ) :
    (∑ d, ((Q d / 32 : ℝ) : EReal) * ((K d : ℝ) : EReal)) = (((∑ d, Q d * K d) / 32 : ℝ) : EReal) := by
  have hs : (∑ d, ((Q d / 32 : ℝ) : EReal) * ((K d : ℝ) : EReal)) = ((∑ d, Q d / 32 * K d : ℝ) : EReal) := by
    rw [coe_finset_sum]
    exact Finset.sum_congr rfl fun d _ => by rw [EReal.coe_mul]
  rw [hs]
  refine congrArg (fun r : ℝ => (r : EReal)) ?_
  rw [Finset.sum_div]
  exact Finset.sum_congr rfl fun d _ => by ring

end Cert.Attention

end
-- ==== Proof.KernelIdeal.AttentionClosedForm.lean ====
/-
  The attention region's result as a function of the three arrays it is entered with, and that function at real data.

  At (n, q, e): run the four-block form over key/value tiles 0…3, block j's scores the inner products of query row
  (n, q) with key rows (n, 512·j + k), its values the value entries (n, 512·j + k, e); divide the last weighted sum by
  the last normaliser. When the query array holds the real query projections over 32 and the key and value arrays the
  real key and value projections, block j's scores are the specification's scaled scores at key positions 512·j + k,
  and the quotient is the softmax-weighted average over all 2048 key positions: attention.
-/
import proofs.«105625_j35124242546827_2_alg».proof.KernelIdeal
import proofs.«105625_j35124242546827_2_alg».proof.Proof.AttentionArithmetic
import Idealize.ShloMosaic.Lib.ValueIdx

noncomputable section

namespace Cert.KernelIdeal.Value

open Cert.KernelIdeal Cert.Attention Cert.Lib.OnlineSoftmax
open Idealize.ShloMosaic Idealize.ShloMosaic.ValueIdx
open scoped BigOperators

/-- The running state after all four key/value tiles, for query row (n, q) and output column e. -/
def attnState (a18 a20 a22 : S8x2048x1024.Idx → EReal) (n : Fin 8) (q : Fin 2048) (e : Fin 1024) : EReal × EReal × EReal :=
  run (fun (j : Fin 4) (k : Fin 512) => ∑ d : Fin 1024, a18 (ix3 n q d) * a20 (ix3 n (tileEquiv (j, k)) d))
    (fun (j : Fin 4) (k : Fin 512) => a22 (ix3 n (tileEquiv (j, k)) e)) 4

/-- The last weighted sum over the last normaliser. -/
def attnAt (a18 a20 a22 : S8x2048x1024.Idx → EReal) (n : Fin 8) (q : Fin 2048) (e : Fin 1024) : EReal :=
  Ideal.div (attnState a18 a20 a22 n q e).2.2 (attnState a18 a20 a22 n q e).2.1

/-- At real data — queries already divided by 32 — the quotient is the specification's attention. -/
theorem attnAt_real (a18 a20 a22 : S8x2048x1024.Idx → EReal)
    (xr : Fin 8 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (hq : ∀ n s d, a18 (ix3 n s d) = ((proj xr Wq bq n s d / 32 : ℝ) : EReal))
    (hk : ∀ n s d, a20 (ix3 n s d) = ((proj xr Wk bk n s d : ℝ) : EReal))
    (hv : ∀ n s d, a22 (ix3 n s d) = ((proj xr Wv bv n s d : ℝ) : EReal))
    (n : Fin 8) (q : Fin 2048) (e : Fin 1024) :
    attnAt a18 a20 a22 n q e = ((attn xr Wq bq Wk bk Wv bv n q e : ℝ) : EReal) := by
  have hs : (fun (j : Fin 4) (k : Fin 512) => ∑ d : Fin 1024, a18 (ix3 n q d) * a20 (ix3 n (tileEquiv (j, k)) d))
      = fun j k => ((score xr Wq bq Wk bk n q (tileEquiv (j, k)) : ℝ) : EReal) := by
    funext j k
    rw [show (∑ d : Fin 1024, a18 (ix3 n q d) * a20 (ix3 n (tileEquiv (j, k)) d))
        = ∑ d : Fin 1024, ((proj xr Wq bq n q d / 32 : ℝ) : EReal) * ((proj xr Wk bk n (tileEquiv (j, k)) d : ℝ) : EReal) from
      Finset.sum_congr rfl fun d _ => by rw [hq, hk]]
    exact scaled_score_coe (fun d => proj xr Wq bq n q d) (fun d => proj xr Wk bk n (tileEquiv (j, k)) d)
  have hvv : (fun (j : Fin 4) (k : Fin 512) => a22 (ix3 n (tileEquiv (j, k)) e))
      = fun j k => ((proj xr Wv bv n (tileEquiv (j, k)) e : ℝ) : EReal) := by
    funext j k
    rw [hv]
  unfold attnAt attnState
  rw [hs, hvv]
  exact flash_eq tileEquiv (fun k => score xr Wq bq Wk bk n q k) (fun k => proj xr Wv bv n k e)

end Cert.KernelIdeal.Value

end
-- ==== Proof.KernelIdeal.AttentionPieces.lean ====
/-
  What each case of the attention body leaves, as values: the found pieces are single whole-buffer stores, so each
  scratch buffer ends at its stored value, a pure function of the point's three input blocks and, where the point
  does not reset, of what the scratch held on entry; the output block is the weighted sum divided by the normaliser.
-/
import proofs.«105625_j35124242546827_2_alg».proof.Proof.KernelIdeal.Attention
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that neither resets nor stores the output -/

theorem smaxB_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : smaxB c i arg3 harg3 arg4 harg4 arg5 harg5 arg6 harg6 arg7 harg7 arg8 harg8 arg9 harg9 hc0 hc1 x0 x1 x2 xs0 xs1 xs2 = k1_pay2 (k1_pay8 x0 x1 xs0) := by
  unfold smaxB
  rw [View.read_writes_eq_canon _ _ _ (covMaxB c i arg3 harg3 arg4 harg4 arg5 harg5 arg6 harg6 arg7 harg7 arg8 harg8 arg9 harg9 hc0 hc1 x0 x1 x2 xs0 xs1 xs2)]
  unfold attnRunB
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem snormB_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : snormB c i arg3 harg3 arg4 harg4 arg5 harg5 arg6 harg6 arg7 harg7 arg8 harg8 arg9 harg9 hc0 hc1 x0 x1 x2 xs0 xs1 xs2 = k1_pay11 x0 x1 xs0 xs0 xs1 := by
  unfold snormB
  rw [View.read_writes_eq_canon _ _ _ (covNormB c i arg3 harg3 arg4 harg4 arg5 harg5 arg6 harg6 arg7 harg7 arg8 harg8 arg9 harg9 hc0 hc1 x0 x1 x2 xs0 xs1 xs2)]
  unfold attnRunB
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem saccB_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : saccB c i arg3 harg3 arg4 harg4 arg5 harg5 arg6 harg6 arg7 harg7 arg8 harg8 arg9 harg9 hc0 hc1 x0 x1 x2 xs0 xs1 xs2 = k1_pay1 (k1_pay12 x0 x1 xs0 xs0 xs2) (k1_pay13 x0 x1 xs0) x2 := by
  unfold saccB
  rw [View.read_writes_eq_canon _ _ _ (covAccB c i arg3 harg3 arg4 harg4 arg5 harg5 arg6 harg6 arg7 harg7 arg8 harg8 arg9 harg9 hc0 hc1 x0 x1 x2 xs0 xs1 xs2)]
  unfold attnRunB
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

/-! ## A point that stores the output -/

theorem smaxC_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : smaxC c i arg3 harg3 arg4 harg4 arg5 harg5 arg6 harg6 arg7 harg7 arg8 harg8 arg9 harg9 hc0 hc1 x0 x1 x2 xs0 xs1 xs2 = k1_pay2 (k1_pay8 x0 x1 xs0) := by
  unfold smaxC
  rw [View.read_writes_eq_canon _ _ _ (covMaxC c i arg3 harg3 arg4 harg4 arg5 harg5 arg6 harg6 arg7 harg7 arg8 harg8 arg9 harg9 hc0 hc1 x0 x1 x2 xs0 xs1 xs2)]
  unfold attnRunC
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem snormC_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : snormC c i arg3 harg3 arg4 harg4 arg5 harg5 arg6 harg6 arg7 harg7 arg8 harg8 arg9 harg9 hc0 hc1 x0 x1 x2 xs0 xs1 xs2 = k1_pay11 x0 x1 xs0 xs0 xs1 := by
  unfold snormC
  rw [View.read_writes_eq_canon _ _ _ (covNormC c i arg3 harg3 arg4 harg4 arg5 harg5 arg6 harg6 arg7 harg7 arg8 harg8 arg9 harg9 hc0 hc1 x0 x1 x2 xs0 xs1 xs2)]
  unfold attnRunC
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem saccC_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : saccC c i arg3 harg3 arg4 harg4 arg5 harg5 arg6 harg6 arg7 harg7 arg8 harg8 arg9 harg9 hc0 hc1 x0 x1 x2 xs0 xs1 xs2 = k1_pay1 (k1_pay12 x0 x1 xs0 xs0 xs2) (k1_pay13 x0 x1 xs0) x2 := by
  unfold saccC
  rw [View.read_writes_eq_canon _ _ _ (covAccC c i arg3 harg3 arg4 harg4 arg5 harg5 arg6 harg6 arg7 harg7 arg8 harg8 arg9 harg9 hc0 hc1 x0 x1 x2 xs0 xs1 xs2)]
  unfold attnRunC
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem outC_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : outC c i arg3 harg3 arg4 harg4 arg5 harg5 arg6 harg6 arg7 harg7 arg8 harg8 arg9 harg9 hc0 hc1 x0 x1 x2 xs0 xs1 xs2 = k1_pay3 (k1_pay1 (k1_pay12 x0 x1 xs0 xs0 xs2) (k1_pay13 x0 x1 xs0) x2) (k1_pay11 x0 x1 xs0 xs0 xs1) := by
  unfold outC
  rw [View.read_writes_eq_canon _ _ _ (covOutC c i arg3 harg3 arg4 harg4 arg5 harg5 arg6 harg6 arg7 harg7 arg8 harg8 arg9 harg9 hc0 hc1 x0 x1 x2 xs0 xs1 xs2)]
  unfold attnRunC
  dsimp only
  sl_unfold_words
  rw [View.canon_unit_zero hz3]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

/-! ## A point that resets -/

theorem smaxA_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : smaxA c i arg3 harg3 arg4 harg4 arg5 harg5 arg6 harg6 arg7 harg7 arg8 harg8 arg9 harg9 hc0 hc1 x0 x1 x2 = k1_pay2 (k1_pay8 x0 x1 k1_pay4) := by
  unfold smaxA
  rw [View.read_writes_eq_canon _ _ _ (covMaxA c i arg3 harg3 arg4 harg4 arg5 harg5 arg6 harg6 arg7 harg7 arg8 harg8 arg9 harg9 hc0 hc1 x0 x1 x2)]
  unfold attnRunA
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem snormA_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : snormA c i arg3 harg3 arg4 harg4 arg5 harg5 arg6 harg6 arg7 harg7 arg8 harg8 arg9 harg9 hc0 hc1 x0 x1 x2 = k1_pay11 x0 x1 k1_pay4 k1_pay4 k1_pay5 := by
  unfold snormA
  rw [View.read_writes_eq_canon _ _ _ (covNormA c i arg3 harg3 arg4 harg4 arg5 harg5 arg6 harg6 arg7 harg7 arg8 harg8 arg9 harg9 hc0 hc1 x0 x1 x2)]
  unfold attnRunA
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

theorem saccA_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec F S1x1024x1024 .bf16) (x1 : Vec F S1x512x1024 .bf16) (x2 : Vec F S1x512x1024 .bf16) : saccA c i arg3 harg3 arg4 harg4 arg5 harg5 arg6 harg6 arg7 harg7 arg8 harg8 arg9 harg9 hc0 hc1 x0 x1 x2 = k1_pay1 (k1_pay12 x0 x1 k1_pay4 k1_pay4 k1_pay6) (k1_pay13 x0 x1 k1_pay4) x2 := by
  unfold saccA
  rw [View.read_writes_eq_canon _ _ _ (covAccA c i arg3 harg3 arg4 harg4 arg5 harg5 arg6 harg6 arg7 harg7 arg8 harg8 arg9 harg9 hc0 hc1 x0 x1 x2)]
  unfold attnRunA
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x512x1024) hz3]

end Cert.KernelIdeal.Frame

end
-- ==== Proof.KernelIdeal.AttentionState.lean ====
/-
  The attention region's scratch contents as the block-by-block running softmax state, on the extended reals.

  Fix a query row r of a point's query tile and an output column e. After a point that resets, the running maximum,
  normaliser and weighted sum at (r, e) are one block step from (−∞, 0, 0) over that point's key/value tile; after any
  other point, one block step from what the point before left. So after the j-th point of a query tile they are the
  state after j + 1 blocks, and the output block stored at the tile's last point is the last weighted sum divided by
  the last normaliser.
-/
import proofs.«105625_j35124242546827_2_alg».proof.Proof.KernelIdeal.AttentionPieces
import proofs.«105625_j35124242546827_2_alg».proof.Proof.KernelIdeal.PayloadAt
import proofs.«105625_j35124242546827_2_alg».proof.Proof.LibOnlineSoftmax

set_option maxRecDepth 16384

noncomputable section

namespace Cert.KernelIdeal.Value

open Cert.KernelIdeal Cert.KernelIdeal.Gen Cert.KernelIdeal.Frame Cert.KernelIdeal.PayloadAt Cert.Lib.OnlineSoftmax
open Idealize.ShloMosaic Idealize.ShloMosaic.ValueIdx Idealize.ShloMosaic.TcCoe Idealize.SL.Sem

variable (V : (c : Dev nD) → (b : Ref sig .tc) → Buf (Elt Ideal) ((c : Thread nD τ).loc b)) (c : Dev nD)

/-! ## Each case, over any blocks -/

/-- A resetting point leaves, at (r, e), one block step from (−∞, 0, 0). -/
theorem caseA_state (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condReset i) (hc1 : ¬condLast i)
    (x0 : Vec Ideal S1x1024x1024 .bf16) (x1 : Vec Ideal S1x512x1024 .bf16) (x2 : Vec Ideal S1x512x1024 .bf16) (r e : Fin 1024) :
    (smaxA (F := Ideal) c i arg3 harg3 arg4 harg4 arg5 harg5 arg6 harg6 arg7 harg7 arg8 harg8 arg9 harg9 hc0 hc1 x0 x1 x2 (ix2 r 0), snormA (F := Ideal) c i arg3 harg3 arg4 harg4 arg5 harg5 arg6 harg6 arg7 harg7 arg8 harg8 arg9 harg9 hc0 hc1 x0 x1 x2 (ix2 r 0), saccA (F := Ideal) c i arg3 harg3 arg4 harg4 arg5 harg5 arg6 harg6 arg7 harg7 arg8 harg8 arg9 harg9 hc0 hc1 x0 x1 x2 (ix2 r e))
      = step (fun k => blkScore x0 x1 r k) (fun k => x2 (ix3 0 k e)) (⊥, 0, 0) := by
  rw [smaxA_eq, snormA_eq, saccA_eq]
  refine (attn_pay_step x0 x1 x2 (k1_pay4 (F := Ideal)) (k1_pay5 (F := Ideal)) (k1_pay6 (F := Ideal)) r e).trans ?_
  rw [attn_pay_reset_max, attn_pay_reset_norm, attn_pay_reset_acc]

/-- A point that neither resets nor stores the output leaves one block step from the scratch it was given. -/
theorem caseB_state (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : ¬condLast i)
    (x0 : Vec Ideal S1x1024x1024 .bf16) (x1 : Vec Ideal S1x512x1024 .bf16) (x2 : Vec Ideal S1x512x1024 .bf16) (xs0 : Vec Ideal S1024x1 .f32) (xs1 : Vec Ideal S1024x1 .f32) (xs2 : Vec Ideal S1024x1024 .f32) (r e : Fin 1024) :
    (smaxB (F := Ideal) c i arg3 harg3 arg4 harg4 arg5 harg5 arg6 harg6 arg7 harg7 arg8 harg8 arg9 harg9 hc0 hc1 x0 x1 x2 xs0 xs1 xs2 (ix2 r 0), snormB (F := Ideal) c i arg3 harg3 arg4 harg4 arg5 harg5 arg6 harg6 arg7 harg7 arg8 harg8 arg9 harg9 hc0 hc1 x0 x1 x2 xs0 xs1 xs2 (ix2 r 0), saccB (F := Ideal) c i arg3 harg3 arg4 harg4 arg5 harg5 arg6 harg6 arg7 harg7 arg8 harg8 arg9 harg9 hc0 hc1 x0 x1 x2 xs0 xs1 xs2 (ix2 r e))
      = step (fun k => blkScore x0 x1 r k) (fun k => x2 (ix3 0 k e)) (xs0 (ix2 r 0), xs1 (ix2 r 0), xs2 (ix2 r e)) := by
  rw [smaxB_eq, snormB_eq, saccB_eq]
  exact attn_pay_step x0 x1 x2 xs0 xs1 xs2 r e

/-- So does a point that stores the output … -/
theorem caseC_state (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec Ideal S1x1024x1024 .bf16) (x1 : Vec Ideal S1x512x1024 .bf16) (x2 : Vec Ideal S1x512x1024 .bf16) (xs0 : Vec Ideal S1024x1 .f32) (xs1 : Vec Ideal S1024x1 .f32) (xs2 : Vec Ideal S1024x1024 .f32) (r e : Fin 1024) :
    (smaxC (F := Ideal) c i arg3 harg3 arg4 harg4 arg5 harg5 arg6 harg6 arg7 harg7 arg8 harg8 arg9 harg9 hc0 hc1 x0 x1 x2 xs0 xs1 xs2 (ix2 r 0), snormC (F := Ideal) c i arg3 harg3 arg4 harg4 arg5 harg5 arg6 harg6 arg7 harg7 arg8 harg8 arg9 harg9 hc0 hc1 x0 x1 x2 xs0 xs1 xs2 (ix2 r 0), saccC (F := Ideal) c i arg3 harg3 arg4 harg4 arg5 harg5 arg6 harg6 arg7 harg7 arg8 harg8 arg9 harg9 hc0 hc1 x0 x1 x2 xs0 xs1 xs2 (ix2 r e))
      = step (fun k => blkScore x0 x1 r k) (fun k => x2 (ix3 0 k e)) (xs0 (ix2 r 0), xs1 (ix2 r 0), xs2 (ix2 r e)) := by
  rw [smaxC_eq, snormC_eq, saccC_eq]
  exact attn_pay_step x0 x1 x2 xs0 xs1 xs2 r e

/-- … and the block it stores is the new weighted sum over the new normaliser. -/
theorem caseC_out (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condReset i) (hc1 : condLast i)
    (x0 : Vec Ideal S1x1024x1024 .bf16) (x1 : Vec Ideal S1x512x1024 .bf16) (x2 : Vec Ideal S1x512x1024 .bf16) (xs0 : Vec Ideal S1024x1 .f32) (xs1 : Vec Ideal S1024x1 .f32) (xs2 : Vec Ideal S1024x1024 .f32) (r e : Fin 1024) :
    outC (F := Ideal) c i arg3 harg3 arg4 harg4 arg5 harg5 arg6 harg6 arg7 harg7 arg8 harg8 arg9 harg9 hc0 hc1 x0 x1 x2 xs0 xs1 xs2 (ix3 0 r e) = Ideal.div (saccC (F := Ideal) c i arg3 harg3 arg4 harg4 arg5 harg5 arg6 harg6 arg7 harg7 arg8 harg8 arg9 harg9 hc0 hc1 x0 x1 x2 xs0 xs1 xs2 (ix2 r e)) (snormC (F := Ideal) c i arg3 harg3 arg4 harg4 arg5 harg5 arg6 harg6 arg7 harg7 arg8 harg8 arg9 harg9 hc0 hc1 x0 x1 x2 xs0 xs1 xs2 (ix2 r 0)) := by
  rw [outC_eq, saccC_eq, snormC_eq]
  exact attn_pay_out _ _ r e

/-! ## Each point -/

/-- The scores of query row `r` against the key rows of point `t`'s key tile. -/
def tileScores (t : Fin cfg1.N) (r : Fin 1024) : Fin 512 → EReal := fun k => blkScore (ablk V c 0 t) (ablk V c 1 t) r k
/-- Column `e` of point `t`'s value tile. -/
def tileVals (t : Fin cfg1.N) (e : Fin 1024) : Fin 512 → EReal := fun k => ablk V c 2 t (ix3 0 k e)

/-- The running state at (r, e) after position `n`. -/
def stateAt (n : ℕ) (hn : n < cfg1.N) (r e : Fin 1024) : EReal × EReal × EReal :=
  ((outsAt V c n hn).2.1 (ix2 r 0), (outsAt V c n hn).2.2.1 (ix2 r 0), (outsAt V c n hn).2.2.2 (ix2 r e))

/-- After a point that resets: one block step from (−∞, 0, 0). -/
theorem state_reset (t : Fin cfg1.N) (h0 : t.val % 4 = 0) (r e : Fin 1024) :
    stateAt V c t.val t.isLt r e = step (tileScores V c t r) (tileVals V c t e) (⊥, 0, 0) := by
  unfold stateAt tileScores tileVals
  rw [outsAt_A V c t h0 (by omega)]
  dsimp only
  exact caseA_state c (grid1.coords t) (ms0 t) (hs0 t) (ms1 t) (hs1 t) (ms2 t) (hs2 t) (ms3 t) (hs3 t) scMax (Memref.isWhole_whole _) scNorm (Memref.isWhole_whole _) scAcc (Memref.isWhole_whole _) _ _ (ablk V c 0 t) (ablk V c 1 t) (ablk V c 2 t) r e

/-- After any other point: one block step from what the point before left. -/
theorem state_next (t : Fin cfg1.N) (h0 : ¬t.val % 4 = 0) (r e : Fin 1024) :
    stateAt V c t.val t.isLt r e
      = step (tileScores V c t r) (tileVals V c t e) (stateAt V c (t.val - 1) (Nat.lt_of_le_of_lt (Nat.sub_le _ _) t.isLt) r e) := by
  unfold stateAt tileScores tileVals
  by_cases h1 : t.val % 4 = 3
  · rw [outsAt_C V c t h0 h1]
    dsimp only
    exact caseC_state c (grid1.coords t) (ms0 t) (hs0 t) (ms1 t) (hs1 t) (ms2 t) (hs2 t) (ms3 t) (hs3 t) scMax (Memref.isWhole_whole _) scNorm (Memref.isWhole_whole _) scAcc (Memref.isWhole_whole _) _ _ (ablk V c 0 t) (ablk V c 1 t) (ablk V c 2 t) _ _ _ r e
  · rw [outsAt_B V c t h0 h1]
    dsimp only
    exact caseB_state c (grid1.coords t) (ms0 t) (hs0 t) (ms1 t) (hs1 t) (ms2 t) (hs2 t) (ms3 t) (hs3 t) scMax (Memref.isWhole_whole _) scNorm (Memref.isWhole_whole _) scAcc (Memref.isWhole_whole _) _ _ (ablk V c 0 t) (ablk V c 1 t) (ablk V c 2 t) _ _ _ r e

/-- At a query tile's last point the stored output block is the weighted sum over the normaliser. -/
theorem out_last (t : Fin cfg1.N) (h1 : t.val % 4 = 3) (r e : Fin 1024) :
    (outsAt V c t.val t.isLt).1 (ix3 0 r e)
      = Ideal.div (stateAt V c t.val t.isLt r e).2.2 (stateAt V c t.val t.isLt r e).2.1 := by
  unfold stateAt
  have h0 : ¬t.val % 4 = 0 := by omega
  rw [outsAt_C V c t h0 h1]
  dsimp only
  exact caseC_out c (grid1.coords t) (ms0 t) (hs0 t) (ms1 t) (hs1 t) (ms2 t) (hs2 t) (ms3 t) (hs3 t) scMax (Memref.isWhole_whole _) scNorm (Memref.isWhole_whole _) scAcc (Memref.isWhole_whole _) _ _ (ablk V c 0 t) (ablk V c 1 t) (ablk V c 2 t) _ _ _ r e

end Cert.KernelIdeal.Value

end
-- ==== Proof.KernelIdeal.AttentionValue.lean ====
/-
  What the attention region leaves in its result array, as one function of the three arrays it is entered with.

  The grid is 8 batches × 2 query tiles × 4 key/value tiles, the key/value axis innermost: point t has batch t / 8,
  query tile (t / 4) % 2 and key/value tile t % 4. It stages rows 1024·((t / 4) % 2) … of batch t / 8 of the query array
  and rows 512·(t % 4) … of the same batch of the key and value arrays; the output block, at the query tile's place, is
  written back only at the tile's last point, t % 4 = 3.

  Fix a query row (n, q), q = 1024·(query tile) + r, and an output column e. The block scores of the point of key/value
  tile j are s_{j,k} = Σ_d Q(n, q, d)·K(n, 512·j + k, d) and its values V(n, 512·j + k, e), read off the arrays. The first
  point of the query tile leaves one block step from (−∞, 0, 0), every later point one block step from what the point
  before left: by induction on j the state after the point of tile j is the running form after j + 1 blocks over the
  arrays. At j = 3 the stored output is the last weighted sum over the last normaliser, the closed form at (n, q, e); so
  the block written back at a query tile's last point is that block of the single array G(n, q, e) = closed form.
  Entry (n, q, e) lies in the block of point 8·n + 4·(q / 1024) + 3, a point that writes back; the written blocks cover
  the result array, which therefore ends holding G.
-/
import proofs.«105625_j35124242546827_2_alg».proof.Proof.KernelIdeal.AttentionState
import proofs.«105625_j35124242546827_2_alg».proof.Proof.KernelIdeal.AttentionClosedForm
import proofs.«105625_j35124242546827_2_alg».proof.Proof.AttentionArithmetic
import Idealize.ShloMosaic.Lib.Pipeline.Value
import Idealize.ShloMosaic.Lib.ValueIdx

set_option maxRecDepth 16384

noncomputable section

namespace Cert.KernelIdeal.Value

open Cert.KernelIdeal Cert.KernelIdeal.Gen Cert.KernelIdeal.Frame Cert.KernelIdeal.PayloadAt Cert.Lib.OnlineSoftmax
open Cert.Attention
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ### The scores and values of one key/value tile, over the arrays -/

/-- The scores of query row `(n, q)` against the key rows of tile `j`. -/
def attnScores (a18 a20 : S8x2048x1024.Idx → EReal) (n : Fin 8) (q : Fin 2048) : Fin 4 → Fin 512 → EReal :=
  fun j k => ∑ d : Fin 1024, a18 (ix3 n q d) * a20 (ix3 n (tileEquiv (j, k)) d)

/-- Column `e` of the value rows of tile `j`. -/
def attnVals (a22 : S8x2048x1024.Idx → EReal) (n : Fin 8) (e : Fin 1024) : Fin 4 → Fin 512 → EReal :=
  fun j k => a22 (ix3 n (tileEquiv (j, k)) e)

theorem attnState_eq (a18 a20 a22 : S8x2048x1024.Idx → EReal) (n : Fin 8) (q : Fin 2048) (e : Fin 1024) :
    attnState a18 a20 a22 n q e = run (attnScores a18 a20 n q) (attnVals a22 n e) 4 := rfl

/-- With the query and key blocks read off the arrays, a tile's block scores are the array's scores of that tile. -/
theorem scores_point (a18 a20 : S8x2048x1024.Idx → EReal) (x0 : Vec Ideal S1x1024x1024 .bf16)
    (x1 : Vec Ideal S1x512x1024 .bf16) (N : Fin 8) (Q : Fin 2048) (r : Fin 1024) (J : Fin 4)
    (h0 : ∀ d : Fin 1024, x0 (ix3 0 r d) = a18 (ix3 N Q d))
    (h1 : ∀ (k : Fin 512) (d : Fin 1024), x1 (ix3 0 k d) = a20 (ix3 N (tileEquiv (J, k)) d)) :
    (fun k => blkScore x0 x1 r k) = attnScores a18 a20 N Q J := by
  funext k
  unfold blkScore attnScores
  exact Finset.sum_congr rfl fun d _ => by rw [h0 d, h1 k d]

/-- With the value block read off the array, a tile's column is the array's column of that tile. -/
theorem vals_point (a22 : S8x2048x1024.Idx → EReal) (x2 : Vec Ideal S1x512x1024 .bf16) (N : Fin 8) (e : Fin 1024) (J : Fin 4)
    (h2 : ∀ k : Fin 512, x2 (ix3 0 k e) = a22 (ix3 N (tileEquiv (J, k)) e)) :
    (fun k => x2 (ix3 0 k e)) = attnVals a22 N e J := by
  funext k
  unfold attnVals
  exact h2 k

/-! ### The printed index maps over the grid, and the blocks read off the arrays -/

/-- Point `t` has batch `t / 8`, query tile `(t / 4) % 2` and key/value tile `t % 4`: the query and output windows sit
    at (batch, query tile, 0), the key and value windows at (batch, key/value tile, 0). -/
theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

/-- The query window's block at point `t`: rows 1024·((t / 4) % 2) … of batch t / 8 of the query array. -/
theorem ablk0_apply (c : Dev nD) (t : Fin cfg1.N) (r d : Fin 1024) (N : Fin 8) (Q : Fin 2048)
    (hN : N.val = t.val / 8) (hQ : Q.val = t.val / 4 % 2 * 1024 + r.val) :
    (ablk V c 0 t : Vec Ideal S1x1024x1024 .bf16) (ix3 0 r d) = (V c main_v18 : S8x2048x1024.Idx → EReal) (ix3 N Q d) := by
  obtain ⟨e0, e1, e2, -⟩ := idx_facts1 t
  unfold ablk
  rw [View.read_apply]
  show (V c main_v18 : S8x2048x1024.Idx → EReal) _ = _
  refine congrArg _ (funext fun a => Fin.ext ?_)
  match a with
  | ⟨0, _⟩ => show win1_0.index t (0 : Fin 3) * 1 + 1 * 0 = N.val; omega
  | ⟨1, _⟩ => show win1_0.index t (1 : Fin 3) * 1024 + 1 * r.val = Q.val; omega
  | ⟨2, _⟩ => show win1_0.index t (2 : Fin 3) * 1024 + 1 * d.val = d.val; omega

/-- The key window's block at point `t`: rows 512·(t % 4) … of batch t / 8 of the key array. -/
theorem ablk1_apply (c : Dev nD) (t : Fin cfg1.N) (k : Fin 512) (d : Fin 1024) (N : Fin 8) (K : Fin 2048)
    (hN : N.val = t.val / 8) (hK : K.val = t.val % 4 * 512 + k.val) :
    (ablk V c 1 t : Vec Ideal S1x512x1024 .bf16) (ix3 0 k d) = (V c main_v20 : S8x2048x1024.Idx → EReal) (ix3 N K d) := by
  obtain ⟨-, -, -, e0, e1, e2, -⟩ := idx_facts1 t
  unfold ablk
  rw [View.read_apply]
  show (V c main_v20 : S8x2048x1024.Idx → EReal) _ = _
  refine congrArg _ (funext fun a => Fin.ext ?_)
  match a with
  | ⟨0, _⟩ => show win1_1.index t (0 : Fin 3) * 1 + 1 * 0 = N.val; omega
  | ⟨1, _⟩ => show win1_1.index t (1 : Fin 3) * 512 + 1 * k.val = K.val; omega
  | ⟨2, _⟩ => show win1_1.index t (2 : Fin 3) * 1024 + 1 * d.val = d.val; omega

/-- The value window's block at point `t`: rows 512·(t % 4) … of batch t / 8 of the value array. -/
theorem ablk2_apply (c : Dev nD) (t : Fin cfg1.N) (k : Fin 512) (d : Fin 1024) (N : Fin 8) (K : Fin 2048)
    (hN : N.val = t.val / 8) (hK : K.val = t.val % 4 * 512 + k.val) :
    (ablk V c 2 t : Vec Ideal S1x512x1024 .bf16) (ix3 0 k d) = (V c main_v22 : S8x2048x1024.Idx → EReal) (ix3 N K d) := by
  obtain ⟨-, -, -, -, -, -, e0, e1, e2, -⟩ := idx_facts1 t
  unfold ablk
  rw [View.read_apply]
  show (V c main_v22 : S8x2048x1024.Idx → EReal) _ = _
  refine congrArg _ (funext fun a => Fin.ext ?_)
  match a with
  | ⟨0, _⟩ => show win1_2.index t (0 : Fin 3) * 1 + 1 * 0 = N.val; omega
  | ⟨1, _⟩ => show win1_2.index t (1 : Fin 3) * 512 + 1 * k.val = K.val; omega
  | ⟨2, _⟩ => show win1_2.index t (2 : Fin 3) * 1024 + 1 * d.val = d.val; omega

/-! ### The state after the j-th point of a query tile -/

/-- Point `t`'s scores and values are the arrays' at key/value tile `t % 4`, for the query row of batch `t / 8` and
    query tile `(t / 4) % 2`. -/
theorem tile_eq (c : Dev nD) (t : Fin cfg1.N) (r e : Fin 1024) (N : Fin 8) (Q : Fin 2048) (J : Fin 4)
    (hN : N.val = t.val / 8) (hQ : Q.val = t.val / 4 % 2 * 1024 + r.val) (hJ : J.val = t.val % 4) :
    tileScores V c t r = attnScores (V c main_v18) (V c main_v20) N Q J
      ∧ tileVals V c t e = attnVals (V c main_v22) N e J := by
  constructor
  · unfold tileScores
    exact scores_point (V c main_v18) (V c main_v20) (ablk V c 0 t) (ablk V c 1 t) N Q r J
      (fun d => ablk0_apply V c t r d N Q hN hQ)
      (fun k d => ablk1_apply V c t k d N (tileEquiv (J, k)) hN (by rw [tileEquiv_val, hJ]; omega))
  · unfold tileVals
    exact vals_point (V c main_v22) (ablk V c 2 t) N e J
      (fun k => ablk2_apply V c t k e N (tileEquiv (J, k)) hN (by rw [tileEquiv_val, hJ]; omega))

/-- After the point of key/value tile `j` of a query tile, the state at (r, e) is the running form after `j + 1` blocks
    over the arrays. -/
theorem state_run (c : Dev nD) (r e : Fin 1024) (N : Fin 8) (Q : Fin 2048) :
    ∀ (j : ℕ) (hj : j < 4) (t : Fin cfg1.N), t.val % 4 = j → N.val = t.val / 8 → Q.val = t.val / 4 % 2 * 1024 + r.val →
      stateAt V c t.val t.isLt r e
        = run (attnScores (V c main_v18) (V c main_v20) N Q) (attnVals (V c main_v22) N e) (j + 1) := by
  intro j
  induction j with
  | zero =>
    intro hj t h0 hN hQ
    obtain ⟨hs, hv⟩ := tile_eq V c t r e N Q ⟨0, hj⟩ hN hQ (by show 0 = t.val % 4; omega)
    rw [state_reset V c t h0 r e, run_succ _ _ 0 hj, run_zero, hs, hv]
  | succ j ih =>
    intro hj t h0 hN hQ
    have hne : ¬ t.val % 4 = 0 := by omega
    have hlt : t.val - 1 < cfg1.N := Nat.lt_of_le_of_lt (Nat.sub_le _ _) t.isLt
    obtain ⟨hs, hv⟩ := tile_eq V c t r e N Q ⟨j + 1, hj⟩ hN hQ (by show j + 1 = t.val % 4; omega)
    have hprev := ih (by omega) ⟨t.val - 1, hlt⟩ (by show (t.val - 1) % 4 = j; omega)
      (by show N.val = (t.val - 1) / 8; omega) (by show Q.val = (t.val - 1) / 4 % 2 * 1024 + r.val; omega)
    rw [state_next V c t hne r e, run_succ _ _ (j + 1) hj, hs, hv]
    exact congrArg _ hprev

/-! ### What a query tile's last point writes back -/

/-- The whole result array. -/
def attnG (a18 a20 a22 : S8x2048x1024.Idx → EReal) : S8x2048x1024.Idx → EReal :=
  fun i => attnAt a18 a20 a22 ⟨(i 0).val, (i 0).isLt⟩ ⟨(i 1).val, (i 1).isLt⟩ ⟨(i 2).val, (i 2).isLt⟩

theorem attnG_ix3 (a18 a20 a22 : S8x2048x1024.Idx → EReal) (n : Fin 8) (q : Fin 2048) (e : Fin 1024) :
    attnG a18 a20 a22 (ix3 n q e) = attnAt a18 a20 a22 n q e := rfl

/-- A stored output block whose entries are the closed form at the rows of query tile `T1` of batch `N` is that block of
    the result array. -/
theorem out_point (a18 a20 a22 : S8x2048x1024.Idx → EReal) (o : Vec Ideal S1x1024x1024 .f32) (N : Fin 8) (T1 : ℕ)
    (ho : ∀ (r e : Fin 1024) (Q : Fin 2048), Q.val = T1 * 1024 + r.val → o (ix3 0 r e) = attnAt a18 a20 a22 N Q e)
    (y : S1x1024x1024.Idx) (i : S8x2048x1024.Idx) (hi0 : (i 0).val = N.val)
    (hi1 : (i 1).val = T1 * 1024 + (y 1).val) (hi2 : (i 2).val = (y 2).val) :
    o y = attnG a18 a20 a22 i := by
  obtain ⟨u, r, e, rfl⟩ : ∃ (u : Fin 1) (r e : Fin 1024), y = ix3 u r e := ⟨y 0, y 1, y 2, eq_ix3 y⟩
  obtain ⟨n', Q, e', rfl⟩ : ∃ (n' : Fin 8) (Q : Fin 2048) (e' : Fin 1024), i = ix3 n' Q e' := ⟨i 0, i 1, i 2, eq_ix3 i⟩
  obtain rfl : u = 0 := Subsingleton.elim _ _
  obtain rfl : n' = N := Fin.ext hi0
  obtain rfl : e' = e := Fin.ext hi2
  rw [attnG_ix3]
  exact ho _ _ _ hi1

/-- WHAT A QUERY TILE'S LAST POINT WRITES BACK is its block of the result array. -/
theorem attn_flushed_eq (c : Dev nD) (t : Fin cfg1.N) (hf : (cfg1.win 3).flush t = true) :
    (adat (F := Ideal) V c).flushed 3 t
      = ((cfg1.win 3).blk t).view.read (Elt Ideal) (attnG (V c main_v18) (V c main_v20) (V c main_v22)) := by
  have h3 : t.val % 4 = 3 := (flush1_3 t).mp hf
  have hN : grid1.N = 64 := N_1
  have ht64 : t.val < 64 := lt_of_lt_of_eq t.isLt (show cfg1.N = 64 from hN)
  have hn8 : t.val / 8 < 8 := by omega
  obtain ⟨-, -, -, -, -, -, -, -, -, e30, e31, e32⟩ := idx_facts1 t
  show (cfg1.win 3).cut (grid1.coords t) ((adat V c).after 3 t) = _
  rw [aafter3]
  funext y
  show (outsAt V c t.val t.isLt).1 y
    = attnG (V c main_v18) (V c main_v20) (V c main_v22) (((cfg1.win 3).blk t).view.emb y)
  have hy0 : (y 0).val < 1 := (y 0).isLt
  refine out_point (V c main_v18) (V c main_v20) (V c main_v22) (outsAt V c t.val t.isLt).1 ⟨t.val / 8, hn8⟩
    (t.val / 4 % 2) ?_ y _ ?_ ?_ ?_
  · intro r e Q hQ
    rw [out_last V c t h3 r e, state_run V c r e ⟨t.val / 8, hn8⟩ Q 3 (by norm_num) t h3 rfl hQ]
    rfl
  · show win1_3.index t (0 : Fin 3) * 1 + 1 * (y 0).val = t.val / 8
    omega
  · show win1_3.index t (1 : Fin 3) * 1024 + 1 * (y 1).val = t.val / 4 % 2 * 1024 + (y 1).val
    omega
  · show win1_3.index t (2 : Fin 3) * 1024 + 1 * (y 2).val = (y 2).val
    omega

/-! ### The written blocks cover the array -/

/-- An index of the array is in point `t`'s block iff each coordinate is in the block's range on its axis. -/
theorem mem_blk1_3 (t : Fin cfg1.N) (i : S8x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v23).slice (win1_3.rect t)).set ↔ _
  rw [View.set_slice_whole, Rect.mem_set_unit]
  exact Iff.rfl

/-- Entry (n, q, e) is in the block of the last point of query tile q / 1024 of batch n. -/
theorem attn_cover (i : S8x2048x1024.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hN : grid1.N = 64 := N_1
  obtain ⟨T, hT⟩ : ∃ T : ℕ, T = 8 * (i 0).val + 4 * ((i 1).val / 1024) + 3 := ⟨_, rfl⟩
  have ht : T < cfg1.N := by show T < grid1.N; rw [hN]; omega
  obtain ⟨-, -, -, -, -, -, -, -, -, e30, e31, e32⟩ := idx_facts1 ⟨T, ht⟩
  refine ⟨⟨T, ht⟩, (flush1_3 _).mpr (by show T % 4 = 3; omega), ?_⟩
  rw [mem_blk1_3]
  intro a
  match a with
  | ⟨0, _⟩ =>
    show win1_3.index ⟨T, ht⟩ (0 : Fin 3) * 1 ≤ (i 0).val ∧ (i 0).val < win1_3.index ⟨T, ht⟩ (0 : Fin 3) * 1 + 1
    rw [e30]
    show T / 8 * 1 ≤ (i 0).val ∧ (i 0).val < T / 8 * 1 + 1
    omega
  | ⟨1, _⟩ =>
    show win1_3.index ⟨T, ht⟩ (1 : Fin 3) * 1024 ≤ (i 1).val ∧ (i 1).val < win1_3.index ⟨T, ht⟩ (1 : Fin 3) * 1024 + 1024
    rw [e31]
    show T / 4 % 2 * 1024 ≤ (i 1).val ∧ (i 1).val < T / 4 % 2 * 1024 + 1024
    omega
  | ⟨2, _⟩ =>
    show win1_3.index ⟨T, ht⟩ (2 : Fin 3) * 1024 ≤ (i 2).val ∧ (i 2).val < win1_3.index ⟨T, ht⟩ (2 : Fin 3) * 1024 + 1024
    rw [e32]
    omega

/-! ### The array after the region -/

/-- The result array after the region is the closed form of the three arrays the region is entered with. -/
theorem attn_final_array (c : Dev nD) :
    (adat (F := Ideal) V c).arrAt 3 cfg1.N = attnG (V c main_v18) (V c main_v20) (V c main_v22) :=
  (adat (F := Ideal) V c).arrAt_eq_of_cover 3 (attnG (V c main_v18) (V c main_v20) (V c main_v22))
    (fun t hf => attn_flushed_eq V c t hf) attn_cover

/-- Pointwise: at (n, q, e) the last weighted sum over the last normaliser of the four-block running form. -/
theorem attn_final (c : Dev nD) (n : Fin 8) (q : Fin 2048) (e : Fin 1024) :
    (adat (F := Ideal) V c).arrAt 3 cfg1.N (ix3 n q e)
      = attnAt (V c main_v18) (V c main_v20) (V c main_v22) n q e := by
  rw [attn_final_array]
  rfl

end Cert.KernelIdeal.Value

end
-- ==== Proof.KernelIdeal.KernelAttention.lean ====
/-
  The kernel program's result at real inputs.

  The attention region is entered with three arrays cut out of the projection region's packed result: queries from
  columns 0…1023, keys from 1024…2047, values from 2048…3071, rows regrouped by batch. The packed result's entry
  (row, column) is the input row against the packed weight's column plus the packed bias; the packed weight's query
  columns carry the query weight already multiplied by 1/32, and so does the bias. So at real inputs the entered query
  array holds the real query projection over 32 and the other two the real key and value projections, and the
  region's result is the specification's attention.
-/
import proofs.«105625_j35124242546827_2_alg».proof.Proof.KernelIdeal.HostGlue
import proofs.«105625_j35124242546827_2_alg».proof.Proof.KernelIdeal.ProjectionValue
import proofs.«105625_j35124242546827_2_alg».proof.Proof.KernelIdeal.AttentionClosedForm
import proofs.«105625_j35124242546827_2_alg».proof.Proof.KernelIdeal.AttentionValue

set_option maxRecDepth 16384

noncomputable section

namespace Cert.KernelIdeal.Value

open Cert.KernelIdeal Cert.KernelIdeal.Gen Cert.KernelIdeal.Frame Cert.KernelIdeal.Glue Cert.Attention
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg) (c : Dev nD)
variable (xr : Fin 8 → Fin 2048 → Fin 1024 → ℝ) (Wq : Fin 1024 → Fin 1024 → ℝ) (bq : Fin 1024 → ℝ)
  (Wk : Fin 1024 → Fin 1024 → ℝ) (bk : Fin 1024 → ℝ) (Wv : Fin 1024 → Fin 1024 → ℝ) (bv : Fin 1024 → ℝ)

/-- The packed projection result, as the array the second stretch of host operations starts from. -/
theorem packed_eq : (V2 m ρ c main_v16 : S16384x3072.Idx → EReal) = (pdat (F := Ideal) (V1 m ρ) c).arrAt 3 cfg0.N :=
  W2_arr m ρ c 3

/-- The entered query array holds the real query projection over 32. -/
theorem entered_q (h0 : ∀ n s d, arg0 m c (ix3 n s d) = ((xr n s d : ℝ) : EReal)) (h1 : ∀ e d, arg1 m c (ix2 e d) = ((Wq e d : ℝ) : EReal))
    (h2 : ∀ e, arg2 m c (ix1 e) = ((bq e : ℝ) : EReal)) (n : Fin 8) (s : Fin 2048) (e : Fin 1024) :
    (V3 m ρ c main_v18 : S8x2048x1024.Idx → EReal) (ix3 n s e) = ((proj xr Wq bq n s e / 32 : ℝ) : EReal) := by
  rw [glue_q, packed_eq, proj_final, projAt_def]
  refine Eq.trans (congrArg₂ HAdd.hAdd (Finset.sum_congr rfl fun d _ => ?_) ?_)
    (scaled_proj_coe (fun d => xr n s d) (fun d => Wq e d) (bq e))
  · rw [glue_x m ρ c n s d, glue_w_q m ρ c d e, h0, h1, lit_scale]
  · rw [glue_b_q m ρ c e, h2, lit_scale]

/-- The entered key array holds the real key projection. -/
theorem entered_k (h0 : ∀ n s d, arg0 m c (ix3 n s d) = ((xr n s d : ℝ) : EReal)) (h3 : ∀ e d, arg3 m c (ix2 e d) = ((Wk e d : ℝ) : EReal))
    (h4 : ∀ e, arg4 m c (ix1 e) = ((bk e : ℝ) : EReal)) (n : Fin 8) (s : Fin 2048) (e : Fin 1024) :
    (V3 m ρ c main_v20 : S8x2048x1024.Idx → EReal) (ix3 n s e) = ((proj xr Wk bk n s e : ℝ) : EReal) := by
  rw [glue_k, packed_eq, proj_final, projAt_def]
  refine Eq.trans (congrArg₂ HAdd.hAdd (Finset.sum_congr rfl fun d _ => ?_) ?_)
    (plain_proj_coe (fun d => xr n s d) (fun d => Wk e d) (bk e))
  · rw [glue_x m ρ c n s d, glue_w_k m ρ c d e, h0, h3]
  · rw [glue_b_k m ρ c e, h4]

/-- The entered value array holds the real value projection. -/
theorem entered_v (h0 : ∀ n s d, arg0 m c (ix3 n s d) = ((xr n s d : ℝ) : EReal)) (h5 : ∀ e d, arg5 m c (ix2 e d) = ((Wv e d : ℝ) : EReal))
    (h6 : ∀ e, arg6 m c (ix1 e) = ((bv e : ℝ) : EReal)) (n : Fin 8) (s : Fin 2048) (e : Fin 1024) :
    (V3 m ρ c main_v22 : S8x2048x1024.Idx → EReal) (ix3 n s e) = ((proj xr Wv bv n s e : ℝ) : EReal) := by
  rw [glue_v, packed_eq, proj_final, projAt_def]
  refine Eq.trans (congrArg₂ HAdd.hAdd (Finset.sum_congr rfl fun d _ => ?_) ?_)
    (plain_proj_coe (fun d => xr n s d) (fun d => Wv e d) (bv e))
  · rw [glue_x m ρ c n s d, glue_w_v m ρ c d e, h0, h5]
  · rw [glue_b_v m ρ c e, h6]

/-- The whole result array of the specification, as contents of a [8, 2048, 1024] buffer. -/
def attnArr : S8x2048x1024.Idx → EReal :=
  fun i => ((attn xr Wq bq Wk bk Wv bv ⟨(i 0).val, (i 0).isLt⟩ ⟨(i 1).val, (i 1).isLt⟩ ⟨(i 2).val, (i 2).isLt⟩ : ℝ) : EReal)

theorem attnArr_ix3 (n : Fin 8) (q : Fin 2048) (e : Fin 1024) :
    attnArr xr Wq bq Wk bk Wv bv (ix3 n q e) = ((attn xr Wq bq Wk bk Wv bv n q e : ℝ) : EReal) := rfl

/-- The attention region's result array, at real inputs, is the specification's attention. -/
theorem kernel_result (h0 : ∀ n s d, arg0 m c (ix3 n s d) = ((xr n s d : ℝ) : EReal)) (h1 : ∀ e d, arg1 m c (ix2 e d) = ((Wq e d : ℝ) : EReal))
    (h2 : ∀ e, arg2 m c (ix1 e) = ((bq e : ℝ) : EReal)) (h3 : ∀ e d, arg3 m c (ix2 e d) = ((Wk e d : ℝ) : EReal))
    (h4 : ∀ e, arg4 m c (ix1 e) = ((bk e : ℝ) : EReal)) (h5 : ∀ e d, arg5 m c (ix2 e d) = ((Wv e d : ℝ) : EReal))
    (h6 : ∀ e, arg6 m c (ix1 e) = ((bv e : ℝ) : EReal)) :
    (adat (F := Ideal) (V3 m ρ) c).arrAt 3 cfg1.N = attnArr xr Wq bq Wk bk Wv bv := by
  funext i
  obtain ⟨n, q, e, rfl⟩ : ∃ (n : Fin 8) (q : Fin 2048) (e : Fin 1024), i = ix3 n q e := ⟨i 0, i 1, i 2, eq_ix3 i⟩
  rw [attn_final, attnArr_ix3]
  exact attnAt_real _ _ _ xr Wq bq Wk bk Wv bv (entered_q m ρ c xr Wq bq h0 h1 h2) (entered_k m ρ c xr Wk bk h0 h3 h4)
    (entered_v m ρ c xr Wv bv h0 h5 h6) n q e

end Cert.KernelIdeal.Value

end
-- ==== Proof.ReferenceAttention.lean ====
/-
  The reference attention program read at an output entry, at real inputs.

  The program computes three linear layers of the same input x (queries, keys, values: y[n, s, e] = Σ_d x[n, s, d]·W[e, d]
  + b[e]), the scores ⟨query row q, key row k⟩ divided by √1024, a softmax of each score row over the key positions
  (subtract the row maximum, exponentiate, divide by the row sum), and the product of the softmax weights with the
  value rows.

  On the extended reals every operation is exact, so when the seven argument arrays hold coercions of reals each stage,
  read at an index, is a closed form in those reals:
    * a linear layer's entry is Σ_d ↑x·↑W + ↑b, the coercion of the real entry, because the coercion commutes with
      finite sums, products and sums of two reals;
    * the constant 1024 has square root 32, a nonzero real, so dividing the inner product of two rows by it is
      multiplying by 1/32, and the score is the coercion of the real score;
    * the row maximum is the larger of −∞ and the maximum, folded from −∞ over the 2048 key positions, of the scores;
    * the unnormalised weight is e^{score − row maximum}, the normaliser is 0 plus the sum of these over the key
      positions, the softmax weight is their quotient;
    * the output entry is the sum over key positions of the softmax weight times the value row's entry.
  The last expression is the dense form of the softmax-weighted average on the extended reals, which equals the
  coercion of the real softmax-weighted average; that average of the value entries under the scores is the attention
  specification.
-/
import proofs.«105625_j35124242546827_2_alg».proof.Proof.Gen.ReferenceIdeal.Read
import proofs.«105625_j35124242546827_2_alg».proof.Proof.AttentionSpec
import proofs.«105625_j35124242546827_2_alg».proof.Proof.LibOnlineSoftmax
import Idealize.ShloMosaic.Lib.ValueIdx
import Idealize.ShloMosaic.PureOps.Ideal.Laws
import Idealize.ShloMosaic.PureOps.Reduce

noncomputable section

namespace Cert.ReferenceAttention

open Idealize.ShloMosaic Idealize.ShloMosaic.ValueIdx Cert.ReferenceIdeal Cert.ReferenceIdeal.Gen Cert.ReferenceIdeal.Read Cert.Attention
open scoped BigOperators

/-- The coercion of a finite sum of reals is the sum of the coercions. -/
theorem coe_sum {α : Type} (t : Finset α) (f : α → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

/-- The word 0xFF800000 is −∞. -/
theorem lit_neg_inf : Ideal.ofBits .f32 0xFF800000#32 = (⊥ : EReal) := by
  simp [Ideal.ofBits, Ideal.ieee]

/-- The word 0x44800000 is 1024 = 2^23 · 2^(137 − 127 − 23). -/
theorem lit_1024 : Ideal.ofBits .f32 0x44800000#32 = ((1024 : ℝ) : EReal) := by
  simp [Ideal.ofBits, Ideal.ieee]
  norm_num
  rw [← EReal.coe_mul]
  norm_num

/-- √1024 = 32. -/
theorem sqrt_1024 : Ideal.sqrt (((1024 : ℝ)) : EReal) = ((32 : ℝ) : EReal) := by
  rw [Ideal.sqrt_coe, if_neg (by norm_num)]
  congr 1
  rw [show (1024:ℝ) = 32^2 by norm_num]; exact Real.sqrt_sq (by norm_num)

/-- A linear layer at real inputs: Σ_d ↑x·↑W + ↑b is the coercion of the real row entry. -/
theorem proj_q_at
    (xr : Fin 8 → Fin 2048 → Fin 1024 → ℝ) (W : Fin 1024 → Fin 1024 → ℝ) (b : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (h0 : ∀ n s d, x0 (ix3 n s d) = ((xr n s d : ℝ) : EReal)) (h1 : ∀ e d, x1 (ix2 e d) = ((W e d : ℝ) : EReal))
    (h2 : ∀ e, x2 (ix1 e) = ((b e : ℝ) : EReal))
    (n : Fin 8) (s : Fin 2048) (e : Fin 1024) :
    val_main_v3 (F := Ideal) x0 x1 x2 (ix3 n s e) = ((proj xr W b n s e : ℝ) : EReal) := by
  rw [val_main_v3_apply, val_main_v0_apply, val_main_v2_apply, val_main_v1_apply]
  have e1 : ∀ k : Fin 1024, lidx_main_v0 (ix3 n s e) k = ix3 n s k := fun k =>
    funext fun a => Fin.ext (by match a with | ⟨0, _⟩ => rfl | ⟨1, _⟩ => rfl | ⟨2, _⟩ => rfl)
  have e2 : ∀ k : Fin 1024, ridx_main_v0 (ix3 n s e) k = ix2 e k := fun k =>
    funext fun a => Fin.ext (by match a with | ⟨0, _⟩ => rfl | ⟨1, _⟩ => rfl)
  have e3 : idx_main_v1 (idx_main_v2 (ix3 n s e)) = ix1 e :=
    funext fun a => Fin.ext (by match a with | ⟨0, _⟩ => rfl)
  simp only [e1, e2, e3, h0, h1, h2, Ideal.addf_def]
  unfold proj
  rw [EReal.coe_add, coe_sum]
  simp only [EReal.coe_mul]

/-- A linear layer at real inputs: Σ_d ↑x·↑W + ↑b is the coercion of the real row entry. -/
theorem proj_k_at
    (xr : Fin 8 → Fin 2048 → Fin 1024 → ℝ) (W : Fin 1024 → Fin 1024 → ℝ) (b : Fin 1024 → ℝ)
    (x0 : (⟨S8x2048x1024, .f32⟩ : BufTy).Contents (Elt Ideal)) (x3 : (⟨S1024x1024, .f32⟩ : BufTy).Contents (Elt Ideal)) (x4 : (⟨S1024, .f32⟩ : BufTy).Contents (Elt Ideal))
    (h0 : ∀ n s d, x0 (ix3 n s d) = ((xr n s d : ℝ) : EReal)) (h3 : ∀ e d, x3 (ix2 e d) = ((W e d : ℝ) : EReal))
    (h4 : ∀ e, x4 (ix1 e) = ((b e : ℝ) : EReal))
    (n : Fin 8) (s : Fin 2048) (e : Fin 1024) :
    val_main_v7 (F := Ideal) x0 x3 x4 (ix3 n s e) = ((proj xr W b n s e : ℝ) : EReal) := by
  rw [val_main_v7_apply, val_main_v4_apply, val_main_v6_apply, val_main_v5_apply]
  have e1 : ∀ k : Fin 1024, lidx_main_v4 (ix3 n s e) k = ix3 n s k := fun k =>
    funext fun a => Fin.ext (by match a with | ⟨0, _⟩ => rfl | ⟨1, _⟩ => rfl | ⟨2, _⟩ => rfl)
  have e2 : ∀ k : Fin 1024, ridx_main_v4 (ix3 n s e) k = ix2 e k := fun k =>
    funext fun a => Fin.ext (by match a with | ⟨0, _⟩ => rfl | ⟨1, _⟩ => rfl)
  have e3 : idx_main_v5 (idx_main_v6 (ix3 n s e)) = ix1 e :=
    funext fun a => Fin.ext (by match a with | ⟨0, _⟩ => rfl)
  simp only [e1, e2, e3, h0, h3, h4, Ideal.addf_def]
  unfold proj
  rw [EReal.coe_add, coe_sum]
  simp only [EReal.coe_mul]

/-- A linear layer at real inputs: Σ_d ↑x·↑W + ↑b is the coercion of the real row entry. -/
theorem proj_v_at
    (xr : Fin 8 → Fin 2048 → Fin 1024 → ℝ) (W : Fin 1024 → Fin 1024 → ℝ) (b : Fin 1024 → ℝ)
    (x0 : (⟨S8x2048x1024, .f32⟩ : BufTy).Contents (Elt Ideal)) (x5 : (⟨S1024x1024, .f32⟩ : BufTy).Contents (Elt Ideal)) (x6 : (⟨S1024, .f32⟩ : BufTy).Contents (Elt Ideal))
    (h0 : ∀ n s d, x0 (ix3 n s d) = ((xr n s d : ℝ) : EReal)) (h5 : ∀ e d, x5 (ix2 e d) = ((W e d : ℝ) : EReal))
    (h6 : ∀ e, x6 (ix1 e) = ((b e : ℝ) : EReal))
    (n : Fin 8) (s : Fin 2048) (e : Fin 1024) :
    val_main_v11 (F := Ideal) x0 x5 x6 (ix3 n s e) = ((proj xr W b n s e : ℝ) : EReal) := by
  rw [val_main_v11_apply, val_main_v8_apply, val_main_v10_apply, val_main_v9_apply]
  have e1 : ∀ k : Fin 1024, lidx_main_v8 (ix3 n s e) k = ix3 n s k := fun k =>
    funext fun a => Fin.ext (by match a with | ⟨0, _⟩ => rfl | ⟨1, _⟩ => rfl | ⟨2, _⟩ => rfl)
  have e2 : ∀ k : Fin 1024, ridx_main_v8 (ix3 n s e) k = ix2 e k := fun k =>
    funext fun a => Fin.ext (by match a with | ⟨0, _⟩ => rfl | ⟨1, _⟩ => rfl)
  have e3 : idx_main_v9 (idx_main_v10 (ix3 n s e)) = ix1 e :=
    funext fun a => Fin.ext (by match a with | ⟨0, _⟩ => rfl)
  simp only [e1, e2, e3, h0, h5, h6, Ideal.addf_def]
  unfold proj
  rw [EReal.coe_add, coe_sum]
  simp only [EReal.coe_mul]

/-- The scaled score: the inner product of the query and key rows, divided by √1024 = 32. -/
theorem score_at
    (xr : Fin 8 → Fin 2048 → Fin 1024 → ℝ) (Wq : Fin 1024 → Fin 1024 → ℝ) (bq : Fin 1024 → ℝ)
    (Wk : Fin 1024 → Fin 1024 → ℝ) (bk : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (n : Fin 8) (q k : Fin 2048) :
    val_main_v15 (F := Ideal) x0 x1 x2 x3 x4 (ix3 n q k) = ((score xr Wq bq Wk bk n q k : ℝ) : EReal) := by
  rw [val_main_v15_apply, val_main_v12_apply, val_main_v14_apply, val_main_v13_apply, val_main_cst_apply]
  have e1 : ∀ j : Fin 1024, lidx_main_v12 (ix3 n q k) j = ix3 n q j := fun j =>
    funext fun a => Fin.ext (by match a with | ⟨0, _⟩ => rfl | ⟨1, _⟩ => rfl | ⟨2, _⟩ => rfl)
  have e2 : ∀ j : Fin 1024, ridx_main_v12 (ix3 n q k) j = ix3 n k j := fun j =>
    funext fun a => Fin.ext (by match a with | ⟨0, _⟩ => rfl | ⟨1, _⟩ => rfl | ⟨2, _⟩ => rfl)
  simp only [e1, e2, proj_q_at xr Wq bq x0 x1 x2 h0 h1 h2, proj_k_at xr Wk bk x0 x3 x4 h0 h3 h4,
    Ideal.hostDivf_def, Ideal.hostUnary_sqrt_def, Ideal.ofBits_def, lit_1024, sqrt_1024]
  rw [Ideal.div_coe (by norm_num : (32 : ℝ) ≠ 0)]
  simp only [← EReal.coe_mul]
  rw [← coe_sum, ← EReal.coe_mul]
  unfold score
  congr 1
  ring

/-- The row maximum: the larger of −∞ and the maximum over key positions, folded from −∞, of the scores. -/
theorem rowmax_at
    (xr : Fin 8 → Fin 2048 → Fin 1024 → ℝ) (Wq : Fin 1024 → Fin 1024 → ℝ) (bq : Fin 1024 → ℝ)
    (Wk : Fin 1024 → Fin 1024 → ℝ) (bk : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (n : Fin 8) (q : Fin 2048) :
    val_main_v18 (F := Ideal) x0 x1 x2 x3 x4 (ix2 n q) = max ⊥ ((Finset.univ : Finset (Fin 2048)).fold max (⊥ : EReal) (fun k' => ((score xr Wq bq Wk bk n q k' : ℝ) : EReal))) := by
  have hR : S8x2048x2048.Reduces [2] S8x2048 := by decide
  rw [val_main_v18_apply, val_main_v17_apply, val_main_cst_1_apply]
  unfold val_main_v16
  rw [Host.reduce_eq_fold_single FloatOps.maximumf _ _ reducesTo_S8x2048x2048_S8x2048_d2 hR h_S_]
  rw [val_main_cst_0_apply]
  simp only [Ideal.ofBits_def, lit_neg_inf, Ideal.maximumf_def]
  refine congrArg (max ⊥) ?_
  refine congrArg (fun f => Finset.fold max (⊥ : EReal) f (Finset.univ : Finset (Fin 2048))) (funext fun k => ?_)
  show val_main_v15 (F := Ideal) x0 x1 x2 x3 x4 (hR.lift (ix2 n q) k) = _
  have el : hR.lift (ix2 n q) k = ix3 n q k :=
    funext fun a => Fin.ext (by match a with | ⟨0, _⟩ => rfl | ⟨1, _⟩ => rfl | ⟨2, _⟩ => rfl)
  rw [el]
  exact score_at xr Wq bq Wk bk x0 x1 x2 x3 x4 h0 h1 h2 h3 h4 n q k

/-- The unnormalised weight: e^{score − row maximum}. -/
theorem expw_at
    (xr : Fin 8 → Fin 2048 → Fin 1024 → ℝ) (Wq : Fin 1024 → Fin 1024 → ℝ) (bq : Fin 1024 → ℝ)
    (Wk : Fin 1024 → Fin 1024 → ℝ) (bk : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (n : Fin 8) (q k : Fin 2048) :
    val_main_v22 (F := Ideal) x0 x1 x2 x3 x4 (ix3 n q k) = Ideal.exp (((score xr Wq bq Wk bk n q k : ℝ) : EReal) - max ⊥ ((Finset.univ : Finset (Fin 2048)).fold max (⊥ : EReal) (fun k' => ((score xr Wq bq Wk bk n q k' : ℝ) : EReal)))) := by
  rw [val_main_v22_apply, val_main_v21_apply, val_main_v20_apply, val_main_v19_apply]
  have e1 : idx_main_v19 (idx_main_v20 (ix3 n q k)) = ix2 n q :=
    funext fun a => Fin.ext (by match a with | ⟨0, _⟩ => rfl | ⟨1, _⟩ => rfl)
  rw [e1, rowmax_at xr Wq bq Wk bk x0 x1 x2 x3 x4 h0 h1 h2 h3 h4 n q,
    score_at xr Wq bq Wk bk x0 x1 x2 x3 x4 h0 h1 h2 h3 h4 n q k]
  simp only [Ideal.hostUnary_exp_def, Ideal.subf_def]

/-- The normaliser: 0 plus the sum over key positions of the unnormalised weights. -/
theorem rowsum_at
    (xr : Fin 8 → Fin 2048 → Fin 1024 → ℝ) (Wq : Fin 1024 → Fin 1024 → ℝ) (bq : Fin 1024 → ℝ)
    (Wk : Fin 1024 → Fin 1024 → ℝ) (bk : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (n : Fin 8) (q : Fin 2048) :
    val_main_v23 (F := Ideal) x0 x1 x2 x3 x4 (ix2 n q) = (0 + ∑ k'' : Fin 2048, Ideal.exp (((score xr Wq bq Wk bk n q k'' : ℝ) : EReal) - max ⊥ ((Finset.univ : Finset (Fin 2048)).fold max (⊥ : EReal) (fun k' => ((score xr Wq bq Wk bk n q k' : ℝ) : EReal))))) := by
  rw [val_main_v23_apply, val_main_cst_2_apply]
  have e1 : ∀ k : Fin 2048, idx_main_v23 (ix2 n q) k = ix3 n q k := fun k =>
    funext fun a => Fin.ext (by match a with | ⟨0, _⟩ => rfl | ⟨1, _⟩ => rfl | ⟨2, _⟩ => rfl)
  simp only [e1, expw_at xr Wq bq Wk bk x0 x1 x2 x3 x4 h0 h1 h2 h3 h4 n q, Ideal.ofBits_def, Ideal.ofBits_zero_f32]

/-- The softmax weight: the unnormalised weight divided by the normaliser. -/
theorem weight_at
    (xr : Fin 8 → Fin 2048 → Fin 1024 → ℝ) (Wq : Fin 1024 → Fin 1024 → ℝ) (bq : Fin 1024 → ℝ)
    (Wk : Fin 1024 → Fin 1024 → ℝ) (bk : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (n : Fin 8) (q k : Fin 2048) :
    val_main_v26 (F := Ideal) x0 x1 x2 x3 x4 (ix3 n q k) = Ideal.div (Ideal.exp (((score xr Wq bq Wk bk n q k : ℝ) : EReal) - max ⊥ ((Finset.univ : Finset (Fin 2048)).fold max (⊥ : EReal) (fun k' => ((score xr Wq bq Wk bk n q k' : ℝ) : EReal))))) (0 + ∑ k'' : Fin 2048, Ideal.exp (((score xr Wq bq Wk bk n q k'' : ℝ) : EReal) - max ⊥ ((Finset.univ : Finset (Fin 2048)).fold max (⊥ : EReal) (fun k' => ((score xr Wq bq Wk bk n q k' : ℝ) : EReal))))) := by
  rw [val_main_v26_apply, val_main_v25_apply, val_main_v24_apply]
  have e1 : idx_main_v24 (idx_main_v25 (ix3 n q k)) = ix2 n q :=
    funext fun a => Fin.ext (by match a with | ⟨0, _⟩ => rfl | ⟨1, _⟩ => rfl)
  rw [e1, rowsum_at xr Wq bq Wk bk x0 x1 x2 x3 x4 h0 h1 h2 h3 h4 n q,
    expw_at xr Wq bq Wk bk x0 x1 x2 x3 x4 h0 h1 h2 h3 h4 n q k]
  simp only [Ideal.hostDivf_def]

/-- The output entry: the sum over key positions of the softmax weight times the value row's entry. -/
theorem out_at
    (xr : Fin 8 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (h5 : ∀ e d, x5 (ix2 e d) = ((Wv e d : ℝ) : EReal)) (h6 : ∀ e, x6 (ix1 e) = ((bv e : ℝ) : EReal))
    (n : Fin 8) (q : Fin 2048) (e : Fin 1024) :
    val_main_v27 (F := Ideal) x0 x1 x2 x3 x4 x5 x6 (ix3 n q e)
      = ∑ k : Fin 2048, Ideal.div (Ideal.exp (((score xr Wq bq Wk bk n q k : ℝ) : EReal) - max ⊥ ((Finset.univ : Finset (Fin 2048)).fold max (⊥ : EReal) (fun k' => ((score xr Wq bq Wk bk n q k' : ℝ) : EReal))))) (0 + ∑ k'' : Fin 2048, Ideal.exp (((score xr Wq bq Wk bk n q k'' : ℝ) : EReal) - max ⊥ ((Finset.univ : Finset (Fin 2048)).fold max (⊥ : EReal) (fun k' => ((score xr Wq bq Wk bk n q k' : ℝ) : EReal))))) * ((proj xr Wv bv n k e : ℝ) : EReal) := by
  rw [val_main_v27_apply]
  have e1 : ∀ k : Fin 2048, lidx_main_v27 (ix3 n q e) k = ix3 n q k := fun k =>
    funext fun a => Fin.ext (by match a with | ⟨0, _⟩ => rfl | ⟨1, _⟩ => rfl | ⟨2, _⟩ => rfl)
  have e2 : ∀ k : Fin 2048, ridx_main_v27 (ix3 n q e) k = ix3 n k e := fun k =>
    funext fun a => Fin.ext (by match a with | ⟨0, _⟩ => rfl | ⟨1, _⟩ => rfl | ⟨2, _⟩ => rfl)
  simp only [e1, e2, weight_at xr Wq bq Wk bk x0 x1 x2 x3 x4 h0 h1 h2 h3 h4 n q,
    proj_v_at xr Wv bv x0 x5 x6 h0 h5 h6]

/-- The reference's result at (n, q, e), at real inputs, is the coercion of the attention specification there. -/
theorem reference_attn
    (xr : Fin 8 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (h0 : ∀ n s d, x0 (ix3 n s d) = ((xr n s d : ℝ) : EReal)) (h1 : ∀ e d, x1 (ix2 e d) = ((Wq e d : ℝ) : EReal)) (h2 : ∀ e, x2 (ix1 e) = ((bq e : ℝ) : EReal))
    (h3 : ∀ e d, x3 (ix2 e d) = ((Wk e d : ℝ) : EReal)) (h4 : ∀ e, x4 (ix1 e) = ((bk e : ℝ) : EReal))
    (h5 : ∀ e d, x5 (ix2 e d) = ((Wv e d : ℝ) : EReal)) (h6 : ∀ e, x6 (ix1 e) = ((bv e : ℝ) : EReal))
    (n : Fin 8) (q : Fin 2048) (e : Fin 1024) :
    Cert.ReferenceIdeal.Read.val_main_v27 (F := Ideal) x0 x1 x2 x3 x4 x5 x6 (ix3 n q e)
      = ((Cert.Attention.attn xr Wq bq Wk bk Wv bv n q e : ℝ) : EReal) := by
  rw [out_at xr Wq bq Wk bk Wv bv x0 x1 x2 x3 x4 x5 x6 h0 h1 h2 h3 h4 h5 h6 n q e]
  unfold Cert.Attention.attn
  exact Cert.Lib.OnlineSoftmax.dense_eq (fun k => score xr Wq bq Wk bk n q k) (fun k => proj xr Wv bv n k e)

end Cert.ReferenceAttention
end
-- ==== Proof.FiniteInputs.lean ====
/-
  The precondition "every input entry is finite", decoded into real arrays.

  The predicate is the conjunction, over the seven argument arrays, of "all entries x satisfy |x| < +∞". On the
  extended reals |x| is max(x, −x), and the constant it is compared with, the word 0x7F800000, is +∞. If
  max(x, −x) < +∞ then x ≠ +∞ (else the maximum is +∞) and x ≠ −∞ (else −x = +∞), so x is the coercion of the real
  number toReal x. A conjunction of one-bit words is 1 exactly when both words are, and an all-reduction by
  conjunction from the word 1 that comes out 1 met the word 1 at every index. So when the predicate holds, every
  entry of every argument array is the coercion of its own real part, and the seven real arrays of those real parts
  are the ones the arguments hold.
-/
import proofs.«105625_j35124242546827_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteInputs

open Idealize.ShloMosaic Idealize.ShloMosaic.ValueIdx Cert.Pre_finite_inputs

/-- The word 0x7F800000 is +∞. -/
theorem lit_pos_inf : Ideal.ofBits .f32 0x7F800000#32 = (⊤ : EReal) := by
  simp [Ideal.ofBits, Ideal.ieee]

/-- An extended real whose absolute value is below +∞ is the coercion of a real. -/
theorem real_of_abs_lt (x : Ideal .f32)
    (h : FloatOps.cmpf .olt (FloatOps.hostAbsf x) (FloatOps.ofBits (F := Ideal) .f32 0x7F800000#32) = 1#1) :
    x = ((EReal.toReal x : ℝ) : EReal) := by
  rw [Ideal.cmpf_def, Ideal.hostAbsf_def, Ideal.absf_def, Ideal.ofBits_def, lit_pos_inf] at h
  have key : ∀ b : Bool, BitVec.ofBool b = 1#1 → b = true := by decide
  have hd : decide (max x (-x) < (⊤ : EReal)) = true := key _ h
  have hlt : max x (-x) < (⊤ : EReal) := of_decide_eq_true hd
  have h1 : x ≠ ⊤ := fun e => by rw [e] at hlt; simp at hlt
  have h2 : x ≠ ⊥ := fun e => by rw [e] at hlt; simp at hlt
  exact (EReal.coe_toReal h1 h2).symm

/-- The scalar shape has one index. -/
instance subsingleton_scalar_idx : Subsingleton S_.Idx := ⟨fun a b => funext fun d => d.elim0⟩

/-- An array whose entries all have absolute value below +∞, as the printed all-reduction says it, has every entry
    the coercion of a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) :
    x i = ((EReal.toReal (x i) : ℝ) : EReal) := by
  have hi := Host.reduce_andi_all _ _ hr hu ix0 e i
  rw [cmpf_apply, broadcastInDim_apply _ hb _ i ix0 (fun a => a.elim0)] at hi
  exact real_of_abs_lt (x i) hi

/-- A pointwise conjunction of two one-bit arrays is 1 at an index exactly when both are. -/
theorem andi_apply_eq_one {s : Shape} (a b : IVec s 1) (i : s.Idx) :
    andi a b i = 1#1 ↔ a i = 1#1 ∧ b i = 1#1 := IntOp.andi_eq_one

theorem real_of_finite [hF : Cert.Pre_finite_inputs.Facts]
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (h : Cert.Pre_finite_inputs.fn (F := Ideal) x0 x1 x2 x3 x4 x5 x6 = fun _ => 1#1) :
    ∃ (xr : Fin 8 → Fin 2048 → Fin 1024 → ℝ) (Wq : Fin 1024 → Fin 1024 → ℝ) (bq : Fin 1024 → ℝ) (Wk : Fin 1024 → Fin 1024 → ℝ) (bk : Fin 1024 → ℝ) (Wv : Fin 1024 → Fin 1024 → ℝ) (bv : Fin 1024 → ℝ),
      (∀ n s d, x0 (ix3 n s d) = ((xr n s d : ℝ) : EReal)) ∧ (∀ e d, x1 (ix2 e d) = ((Wq e d : ℝ) : EReal)) ∧ (∀ e, x2 (ix1 e) = ((bq e : ℝ) : EReal))
      ∧ (∀ e d, x3 (ix2 e d) = ((Wk e d : ℝ) : EReal)) ∧ (∀ e, x4 (ix1 e) = ((bk e : ℝ) : EReal))
      ∧ (∀ e d, x5 (ix2 e d) = ((Wv e d : ℝ) : EReal)) ∧ (∀ e, x6 (ix1 e) = ((bv e : ℝ) : EReal)) := by
  have h' := congrFun h ix0
  dsimp only [fn, fn_part1] at h'
  simp only [andi_apply_eq_one] at h'
  obtain ⟨⟨⟨⟨⟨⟨e0, e1⟩, e2⟩, e3⟩, e4⟩, e5⟩, e6⟩ := h'
  refine ⟨fun n s d => EReal.toReal (x0 (ix3 n s d)), fun e d => EReal.toReal (x1 (ix2 e d)), fun e => EReal.toReal (x2 (ix1 e)),
    fun e d => EReal.toReal (x3 (ix2 e d)), fun e => EReal.toReal (x4 (ix1 e)),
    fun e d => EReal.toReal (x5 (ix2 e d)), fun e => EReal.toReal (x6 (ix1 e)), ?_, ?_, ?_, ?_, ?_, ?_, ?_⟩
  · exact fun n s d => all_real x0 _ _ _ e0 (ix3 n s d)
  · exact fun e d => all_real x1 _ _ _ e1 (ix2 e d)
  · exact fun e => all_real x2 _ _ _ e2 (ix1 e)
  · exact fun e d => all_real x3 _ _ _ e3 (ix2 e d)
  · exact fun e => all_real x4 _ _ _ e4 (ix1 e)
  · exact fun e d => all_real x5 _ _ _ e5 (ix2 e d)
  · exact fun e => all_real x6 _ _ _ e6 (ix1 e)

end Cert.FiniteInputs
end
-- ==== Proof.lean ====
/-
  The certificate of the fused projection-and-attention kernel against dense softmax attention.

  Frames: the kernel program runs as host operations, the projection region, host operations, the attention region;
  every execution ends with each unscoped buffer at named contents, and no item writes an argument array, at the
  word-level reading and at the extended reals alike. The reference is a straight line of host operations.
  Idealization: nothing was rewritten. Value: at the extended reals, under finite inputs, both programs' results are
  the coercion of one real function of the arguments, softmax attention with scores scaled by 1/32.
-/
import proofs.«105625_j35124242546827_2_alg».proof.Defs
import proofs.«105625_j35124242546827_2_alg».proof.Proof.Gen.Kernel
import proofs.«105625_j35124242546827_2_alg».proof.Proof.Gen.KernelIdeal
import proofs.«105625_j35124242546827_2_alg».proof.Proof.Gen.ReferenceIdeal
import proofs.«105625_j35124242546827_2_alg».proof.Proof.Gen.ReferenceIdeal.Read
import proofs.«105625_j35124242546827_2_alg».proof.Proof.Gen.Pre_finite_inputs
import proofs.«105625_j35124242546827_2_alg».proof.Proof.Kernel.Run
import proofs.«105625_j35124242546827_2_alg».proof.Proof.KernelIdeal.Run
import proofs.«105625_j35124242546827_2_alg».proof.Proof.KernelIdeal.KernelAttention
import proofs.«105625_j35124242546827_2_alg».proof.Proof.ReferenceAttention
import proofs.«105625_j35124242546827_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts] [hPre : Cert.Pre_finite_inputs.Facts]

/-- The word-level kernel program runs and leaves its arguments as launched. -/
theorem frame_k : Cert.frame_Kernel := fun m ρ _ =>
  (θ_run (Cert.Kernel.defs (F := Bits)) _ _).mono (fun r h c => ⟨
    (h c _ (Cert.Kernel.Frame.mem_uc Cert.Kernel.main_arg0 (by decide))).trans (Cert.Kernel.Frame.W4_of_untouched m ρ c Cert.Kernel.main_arg0 (by decide) (by decide) (by decide) (by decide)),
    (h c _ (Cert.Kernel.Frame.mem_uc Cert.Kernel.main_arg1 (by decide))).trans (Cert.Kernel.Frame.W4_of_untouched m ρ c Cert.Kernel.main_arg1 (by decide) (by decide) (by decide) (by decide)),
    (h c _ (Cert.Kernel.Frame.mem_uc Cert.Kernel.main_arg2 (by decide))).trans (Cert.Kernel.Frame.W4_of_untouched m ρ c Cert.Kernel.main_arg2 (by decide) (by decide) (by decide) (by decide)),
    (h c _ (Cert.Kernel.Frame.mem_uc Cert.Kernel.main_arg3 (by decide))).trans (Cert.Kernel.Frame.W4_of_untouched m ρ c Cert.Kernel.main_arg3 (by decide) (by decide) (by decide) (by decide)),
    (h c _ (Cert.Kernel.Frame.mem_uc Cert.Kernel.main_arg4 (by decide))).trans (Cert.Kernel.Frame.W4_of_untouched m ρ c Cert.Kernel.main_arg4 (by decide) (by decide) (by decide) (by decide)),
    (h c _ (Cert.Kernel.Frame.mem_uc Cert.Kernel.main_arg5 (by decide))).trans (Cert.Kernel.Frame.W4_of_untouched m ρ c Cert.Kernel.main_arg5 (by decide) (by decide) (by decide) (by decide)),
    (h c _ (Cert.Kernel.Frame.mem_uc Cert.Kernel.main_arg6 (by decide))).trans (Cert.Kernel.Frame.W4_of_untouched m ρ c Cert.Kernel.main_arg6 (by decide) (by decide) (by decide) (by decide))⟩) (Cert.Kernel.Frame.run_all (F := Bits) m ρ)

/-- So does its reading at the extended reals. -/
theorem frame_ki : Cert.frame_KernelIdeal := fun m ρ _ =>
  (θ_run (Cert.KernelIdeal.defs (F := Ideal)) _ _).mono (fun r h c => ⟨
    (h c _ (Cert.KernelIdeal.Frame.mem_uc Cert.KernelIdeal.main_arg0 (by decide))).trans (Cert.KernelIdeal.Frame.W4_of_untouched m ρ c Cert.KernelIdeal.main_arg0 (by decide) (by decide) (by decide) (by decide)),
    (h c _ (Cert.KernelIdeal.Frame.mem_uc Cert.KernelIdeal.main_arg1 (by decide))).trans (Cert.KernelIdeal.Frame.W4_of_untouched m ρ c Cert.KernelIdeal.main_arg1 (by decide) (by decide) (by decide) (by decide)),
    (h c _ (Cert.KernelIdeal.Frame.mem_uc Cert.KernelIdeal.main_arg2 (by decide))).trans (Cert.KernelIdeal.Frame.W4_of_untouched m ρ c Cert.KernelIdeal.main_arg2 (by decide) (by decide) (by decide) (by decide)),
    (h c _ (Cert.KernelIdeal.Frame.mem_uc Cert.KernelIdeal.main_arg3 (by decide))).trans (Cert.KernelIdeal.Frame.W4_of_untouched m ρ c Cert.KernelIdeal.main_arg3 (by decide) (by decide) (by decide) (by decide)),
    (h c _ (Cert.KernelIdeal.Frame.mem_uc Cert.KernelIdeal.main_arg4 (by decide))).trans (Cert.KernelIdeal.Frame.W4_of_untouched m ρ c Cert.KernelIdeal.main_arg4 (by decide) (by decide) (by decide) (by decide)),
    (h c _ (Cert.KernelIdeal.Frame.mem_uc Cert.KernelIdeal.main_arg5 (by decide))).trans (Cert.KernelIdeal.Frame.W4_of_untouched m ρ c Cert.KernelIdeal.main_arg5 (by decide) (by decide) (by decide) (by decide)),
    (h c _ (Cert.KernelIdeal.Frame.mem_uc Cert.KernelIdeal.main_arg6 (by decide))).trans (Cert.KernelIdeal.Frame.W4_of_untouched m ρ c Cert.KernelIdeal.main_arg6 (by decide) (by decide) (by decide) (by decide))⟩) (Cert.KernelIdeal.Frame.run_all (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals, under finite inputs, both programs end with the same result: on every core the arguments are
    real arrays; the kernel program's last region leaves the specification's attention of them in its result array,
    and the reference's last operation computes the same. -/
theorem algebraic : Cert.algebraic_KernelIdeal_ReferenceIdeal := by
  intro m ρ m' ρ' hpre hagree
  choose xr Wq bq Wk bk Wv bv hreal using fun c : Dev Cert.KernelIdeal.nD =>
    Cert.FiniteInputs.real_of_finite _ _ _ _ _ _ _ (hpre c)
  refine ⟨fun c => Cert.KernelIdeal.Value.attnArr (xr c) (Wq c) (bq c) (Wk c) (bk c) (Wv c) (bv c), ?_, ?_⟩
  · exact (θ_run (Cert.KernelIdeal.defs (F := Ideal)) _ _).mono (fun r h c => ⟨
      ((h c _ (Cert.KernelIdeal.Frame.mem_uc Cert.KernelIdeal.main_v23 (by decide))).trans (Cert.KernelIdeal.Frame.W4_arr m ρ c 3)).trans
        (Cert.KernelIdeal.Value.kernel_result m ρ c (xr c) (Wq c) (bq c) (Wk c) (bk c) (Wv c) (bv c)
          (hreal c).1 (hreal c).2.1 (hreal c).2.2.1 (hreal c).2.2.2.1 (hreal c).2.2.2.2.1 (hreal c).2.2.2.2.2.1 (hreal c).2.2.2.2.2.2),
      (h c _ (Cert.KernelIdeal.Frame.mem_uc Cert.KernelIdeal.main_arg0 (by decide))).trans (Cert.KernelIdeal.Frame.W4_of_untouched m ρ c Cert.KernelIdeal.main_arg0 (by decide) (by decide) (by decide) (by decide)),
      (h c _ (Cert.KernelIdeal.Frame.mem_uc Cert.KernelIdeal.main_arg1 (by decide))).trans (Cert.KernelIdeal.Frame.W4_of_untouched m ρ c Cert.KernelIdeal.main_arg1 (by decide) (by decide) (by decide) (by decide)),
      (h c _ (Cert.KernelIdeal.Frame.mem_uc Cert.KernelIdeal.main_arg2 (by decide))).trans (Cert.KernelIdeal.Frame.W4_of_untouched m ρ c Cert.KernelIdeal.main_arg2 (by decide) (by decide) (by decide) (by decide)),
      (h c _ (Cert.KernelIdeal.Frame.mem_uc Cert.KernelIdeal.main_arg3 (by decide))).trans (Cert.KernelIdeal.Frame.W4_of_untouched m ρ c Cert.KernelIdeal.main_arg3 (by decide) (by decide) (by decide) (by decide)),
      (h c _ (Cert.KernelIdeal.Frame.mem_uc Cert.KernelIdeal.main_arg4 (by decide))).trans (Cert.KernelIdeal.Frame.W4_of_untouched m ρ c Cert.KernelIdeal.main_arg4 (by decide) (by decide) (by decide) (by decide)),
      (h c _ (Cert.KernelIdeal.Frame.mem_uc Cert.KernelIdeal.main_arg5 (by decide))).trans (Cert.KernelIdeal.Frame.W4_of_untouched m ρ c Cert.KernelIdeal.main_arg5 (by decide) (by decide) (by decide) (by decide)),
      (h c _ (Cert.KernelIdeal.Frame.mem_uc Cert.KernelIdeal.main_arg6 (by decide))).trans (Cert.KernelIdeal.Frame.W4_of_untouched m ρ c Cert.KernelIdeal.main_arg6 (by decide) (by decide) (by decide) (by decide))⟩) (Cert.KernelIdeal.Frame.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v27_eq]
    funext i
    obtain ⟨n, q, e, rfl⟩ : ∃ (n : Fin 8) (q : Fin 2048) (e : Fin 1024), i = ValueIdx.ix3 n q e :=
      ⟨i 0, i 1, i 2, ValueIdx.eq_ix3 i⟩
    rw [(hagree c).1, (hagree c).2.1, (hagree c).2.2.1, (hagree c).2.2.2.1, (hagree c).2.2.2.2.1, (hagree c).2.2.2.2.2.1, (hagree c).2.2.2.2.2.2]
    exact Cert.ReferenceAttention.reference_attn (xr c) (Wq c) (bq c) (Wk c) (bk c) (Wv c) (bv c) _ _ _ _ _ _ _
      (hreal c).1 (hreal c).2.1 (hreal c).2.2.1 (hreal c).2.2.2.1 (hreal c).2.2.2.2.1 (hreal c).2.2.2.2.2.1 (hreal c).2.2.2.2.2.2 n q e

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
